-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x3 : Shape := ⟨2, ![2097152, 3]⟩
abbrev S2097152x1 : Shape := ⟨2, ![2097152, 1]⟩
abbrev S3x32 : Shape := ⟨2, ![3, 32]⟩
abbrev S32 : Shape := ⟨1, ![32]⟩
abbrev S32x32 : Shape := ⟨2, ![32, 32]⟩
abbrev S32x3 : Shape := ⟨2, ![32, 3]⟩
abbrev S3 : Shape := ⟨1, ![3]⟩
abbrev S8x32 : Shape := ⟨2, ![8, 32]⟩
abbrev S_ : Shape := ⟨0, ![]⟩

class Facts : Prop where
  bcast_S_S2097152x3 : S_.BroadcastsInDim S2097152x3 (![] : Fin 0 → Fin S2097152x3.rank)
  reducesTo_S2097152x3_S_d0_1 : S2097152x3.ReducesTo [0, 1] S_
  h_S_ : 0 < S_.numel
  bcast_S_S2097152x1 : S_.BroadcastsInDim S2097152x1 (![] : Fin 0 → Fin S2097152x1.rank)
  reducesTo_S2097152x1_S_d0_1 : S2097152x1.ReducesTo [0, 1] S_
  bcast_S_S3x32 : S_.BroadcastsInDim S3x32 (![] : Fin 0 → Fin S3x32.rank)
  reducesTo_S3x32_S_d0_1 : S3x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x3 : S_.BroadcastsInDim S32x3 (![] : Fin 0 → Fin S32x3.rank)
  reducesTo_S32x3_S_d0_1 : S32x3.ReducesTo [0, 1] S_
  bcast_S_S3 : S_.BroadcastsInDim S3 (![] : Fin 0 → Fin S3.rank)
  reducesTo_S3_S_d0 : S3.ReducesTo [0] S_
  bcast_S_S8x32 : S_.BroadcastsInDim S8x32 (![] : Fin 0 → Fin S8x32.rank)
  reducesTo_S8x32_S_d0_1 : S8x32.ReducesTo [0, 1] S_

variable [Facts]

def fn_part4 {F : FTy → Type} [FloatOps F] (main_arg14 : FVec F S32x3 .f32) (main_arg15 : FVec F S3 .f32) (main_v63 : IVec S_ 1) (main_v67 : IVec S_ 1) : IVec S_ 1 :=
  let main_v68 : IVec S_ 1 := andi main_v63 main_v67
  let main_v69 : FVec F S32x3 .f32 := Host.absf main_arg14
  let main_cst_26 : FVec F S_ .f32 := constant S_ .f32 0x7F800000#32
  let main_v70 : FVec F S32x3 .f32 := broadcastInDim S32x3 ![] bcast_S_S32x3 main_cst_26
  let main_v71 : IVec S32x3 1 := cmpf .olt main_v69 main_v70
  let main_c_27 : IVec S_ 1 := constantI S_ 1 1#1
  let main_v72 : IVec S_ 1 := (fun x v => Host.reduce IntOp.andi x v reducesTo_S32x3_S_d0_1 h_S_) main_v71 main_c_27
  let main_v73 : IVec S_ 1 := andi main_v68 main_v72
  let main_v74 : FVec F S3 .f32 := Host.absf main_arg15
  let main_cst_28 : FVec F S_ .f32 := constant S_ .f32 0x7F800000#32
  let main_v75 : FVec F S3 .f32 := broadcastInDim S3 ![] bcast_S_S3 main_cst_28
  let main_v76 : IVec S3 1 := cmpf .olt main_v74 main_v75
  let main_c_29 : IVec S_ 1 := constantI S_ 1 1#1
  let main_v77 : IVec S_ 1 := (fun x v => Host.reduce IntOp.andi x v reducesTo_S3_S_d0 h_S_) main_v76 main_c_29
  let main_v78 : IVec S_ 1 := andi main_v73 main_v77
  main_v78

def fn_part3 {F : FTy → Type} [FloatOps F] (main_arg11 : FVec F S32 .f32) (main_arg12 : FVec F S32x32 .f32) (main_arg13 : FVec F S32 .f32) (main_arg14 : FVec F S32x3 .f32) (main_arg15 : FVec F S3 .f32) (main_v48 : IVec S_ 1) (main_v49 : FVec F S8x32 .f32) (main_v50 : FVec F S8x32 .f32) : IVec S_ 1 :=
  let main_v51 : IVec S8x32 1 := cmpf .olt main_v49 main_v50
  let main_c_19 : IVec S_ 1 := constantI S_ 1 1#1
  let main_v52 : IVec S_ 1 := (fun x v => Host.reduce IntOp.andi x v reducesTo_S8x32_S_d0_1 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x32 .f32 := Host.absf main_arg12
  let main_cst_22 : FVec F S_ .f32 := constant S_ .f32 0x7F800000#32
  let main_v60 : FVec F S32x32 .f32 := broadcastInDim S32x32 ![] bcast_S_S32x32 main_cst_22
  let main_v61 : IVec S32x32 1 := cmpf .olt main_v59 main_v60
  let main_c_23 : IVec S_ 1 := constantI S_ 1 1#1
  let main_v62 : IVec S_ 1 := (fun x v => Host.reduce IntOp.andi x v reducesTo_S32x32_S_d0_1 h_S_) main_v61 main_c_23
  let main_v63 : IVec S_ 1 := andi main_v58 main_v62
  let main_v64 : FVec F S32 .f32 := Host.absf main_arg13
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg14 main_arg15 main_v63 main_v67

def fn_part2 {F : FTy → Type} [FloatOps F] (main_arg7 : FVec F S32 .f32) (main_arg8 : FVec F S32x3 .f32) (main_arg9 : FVec F S3 .f32) (main_arg10 : FVec F S8x32 .f32) (main_arg11 : FVec F S32 .f32) (main_arg12 : FVec F S32x32 .f32) (main_arg13 : FVec F S32 .f32) (main_arg14 : FVec F S32x3 .f32) (main_arg15 : FVec F S3 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x3 .f32 := Host.absf main_arg8
  let main_cst_14 : FVec F S_ .f32 := constant S_ .f32 0x7F800000#32
  let main_v40 : FVec F S32x3 .f32 := broadcastInDim S32x3 ![] bcast_S_S32x3 main_cst_14
  let main_v41 : IVec S32x3 1 := cmpf .olt main_v39 main_v40
  let main_c_15 : IVec S_ 1 := constantI S_ 1 1#1
  let main_v42 : IVec S_ 1 := (fun x v => Host.reduce IntOp.andi x v reducesTo_S32x3_S_d0_1 h_S_) main_v41 main_c_15
  let main_v43 : IVec S_ 1 := andi main_v38 main_v42
  let main_v44 : FVec F S3 .f32 := Host.absf main_arg9
  let main_cst_16 : FVec F S_ .f32 := constant S_ .f32 0x7F800000#32
  let main_v45 : FVec F S3 .f32 := broadcastInDim S3 ![] bcast_S_S3 main_cst_16
  let main_v46 : IVec S3 1 := cmpf .olt main_v44 main_v45
  let main_c_17 : IVec S_ 1 := constantI S_ 1 1#1
  let main_v47 : IVec S_ 1 := (fun x v => Host.reduce IntOp.andi x v reducesTo_S3_S_d0 h_S_) main_v46 main_c_17
  let main_v48 : IVec S_ 1 := andi main_v43 main_v47
  let main_v49 : FVec F S8x32 .f32 := Host.absf main_arg10
  let main_cst_18 : FVec F S_ .f32 := constant S_ .f32 0x7F800000#32
  let main_v50 : FVec F S8x32 .f32 := broadcastInDim S8x32 ![] bcast_S_S8x32 main_cst_18
  fn_part3 (F := F) main_arg11 main_arg12 main_arg13 main_arg14 main_arg15 main_v48 main_v49 main_v50

def fn_part1 {F : FTy → Type} [FloatOps F] (main_arg4 : FVec F S3x32 .f32) (main_arg5 : FVec F S32 .f32) (main_arg6 : FVec F S32x32 .f32) (main_arg7 : FVec F S32 .f32) (main_arg8 : FVec F S32x3 .f32) (main_arg9 : FVec F S3 .f32) (main_arg10 : FVec F S8x32 .f32) (main_arg11 : FVec F S32 .f32) (main_arg12 : FVec F S32x32 .f32) (main_arg13 : FVec F S32 .f32) (main_arg14 : FVec F S32x3 .f32) (main_arg15 : FVec F S3 .f32) (main_v13 : IVec S_ 1) (main_v16 : IVec S2097152x1 1) : IVec S_ 1 :=
  let main_c_5 : IVec S_ 1 := constantI S_ 1 1#1
  let main_v17 : IVec S_ 1 := (fun x v => Host.reduce IntOp.andi x v reducesTo_S2097152x1_S_d0_1 h_S_) main_v16 main_c_5
  let main_v18 : IVec S_ 1 := andi main_v13 main_v17
  let main_v19 : FVec F S3x32 .f32 := Host.absf main_arg4
  let main_cst_6 : FVec F S_ .f32 := constant S_ .f32 0x7F800000#32
  let main_v20 : FVec F S3x32 .f32 := broadcastInDim S3x32 ![] bcast_S_S3x32 main_cst_6
  let main_v21 : IVec S3x32 1 := cmpf .olt main_v19 main_v20
  let main_c_7 : IVec S_ 1 := constantI S_ 1 1#1
  let main_v22 : IVec S_ 1 := (fun x v => Host.reduce IntOp.andi x v reducesTo_S3x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S2097152x3 .f32) (main_arg1 : FVec F S2097152x3 .f32) (main_arg2 : FVec F S2097152x1 .f32) (main_arg3 : FVec F S2097152x1 .f32) (main_arg4 : FVec F S3x32 .f32) (main_arg5 : FVec F S32 .f32) (main_arg6 : FVec F S32x32 .f32) (main_arg7 : FVec F S32 .f32) (main_arg8 : FVec F S32x3 .f32) (main_arg9 : FVec F S3 .f32) (main_arg10 : FVec F S8x32 .f32) (main_arg11 : FVec F S32 .f32) (main_arg12 : FVec F S32x32 .f32) (main_arg13 : FVec F S32 .f32) (main_arg14 : FVec F S32x3 .f32) (main_arg15 : FVec F S3 .f32) : IVec S_ 1 :=
  let main_v0 : FVec F S2097152x3 .f32 := Host.absf main_arg0
  let main_cst : FVec F S_ .f32 := constant S_ .f32 0x7F800000#32
  let main_v1 : FVec F S2097152x3 .f32 := broadcastInDim S2097152x3 ![] bcast_S_S2097152x3 main_cst
  let main_v2 : IVec S2097152x3 1 := cmpf .olt main_v0 main_v1
  let main_c : IVec S_ 1 := constantI S_ 1 1#1
  let main_v3 : IVec S_ 1 := (fun x v => Host.reduce IntOp.andi x v reducesTo_S2097152x3_S_d0_1 h_S_) main_v2 main_c
  let main_v4 : FVec F S2097152x3 .f32 := Host.absf main_arg1
  let main_cst_0 : FVec F S_ .f32 := constant S_ .f32 0x7F800000#32
  let main_v5 : FVec F S2097152x3 .f32 := broadcastInDim S2097152x3 ![] bcast_S_S2097152x3 main_cst_0
  let main_v6 : IVec S2097152x3 1 := cmpf .olt main_v4 main_v5
  let main_c_1 : IVec S_ 1 := constantI S_ 1 1#1
  let main_v7 : IVec S_ 1 := (fun x v => Host.reduce IntOp.andi x v reducesTo_S2097152x3_S_d0_1 h_S_) main_v6 main_c_1
  let main_v8 : IVec S_ 1 := andi main_v3 main_v7
  let main_v9 : FVec F S2097152x1 .f32 := Host.absf main_arg2
  let main_cst_2 : FVec F S_ .f32 := constant S_ .f32 0x7F800000#32
  let main_v10 : FVec F S2097152x1 .f32 := broadcastInDim S2097152x1 ![] bcast_S_S2097152x1 main_cst_2
  let main_v11 : IVec S2097152x1 1 := cmpf .olt main_v9 main_v10
  let main_c_3 : IVec S_ 1 := constantI S_ 1 1#1
  let main_v12 : IVec S_ 1 := (fun x v => Host.reduce IntOp.andi x v reducesTo_S2097152x1_S_d0_1 h_S_) main_v11 main_c_3
  let main_v13 : IVec S_ 1 := andi main_v8 main_v12
  let main_v14 : FVec F S2097152x1 .f32 := Host.absf main_arg3
  let main_cst_4 : FVec F S_ .f32 := constant S_ .f32 0x7F800000#32
  let main_v15 : FVec F S2097152x1 .f32 := broadcastInDim S2097152x1 ![] bcast_S_S2097152x1 main_cst_4
  let main_v16 : IVec S2097152x1 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S2097152x3 : Shape := ⟨2, ![2097152, 3]⟩
abbrev S2097152x1 : Shape := ⟨2, ![2097152, 1]⟩
abbrev S3x32 : Shape := ⟨2, ![3, 32]⟩
abbrev S32 : Shape := ⟨1, ![32]⟩
abbrev S32x32 : Shape := ⟨2, ![32, 32]⟩
abbrev S32x3 : Shape := ⟨2, ![32, 3]⟩
abbrev S3 : Shape := ⟨1, ![3]⟩
abbrev S8x32 : Shape := ⟨2, ![8, 32]⟩
abbrev S_ : Shape := ⟨0, ![]⟩
abbrev S5x32 : Shape := ⟨2, ![5, 32]⟩
abbrev S8x64 : Shape := ⟨2, ![8, 64]⟩
abbrev S64 : Shape := ⟨1, ![64]⟩
abbrev S1x64 : Shape := ⟨2, ![1, 64]⟩
abbrev S32x64 : Shape := ⟨2, ![32, 64]⟩
abbrev S64x64 : Shape := ⟨2, ![64, 64]⟩
abbrev S32x6 : Shape := ⟨2, ![32, 6]⟩
abbrev S64x6 : Shape := ⟨2, ![64, 6]⟩
abbrev S6 : Shape := ⟨1, ![6]⟩
abbrev S1x6 : Shape := ⟨2, ![1, 6]⟩
abbrev S2048x3 : Shape := ⟨2, ![2048, 3]⟩
abbrev S2048x1 : Shape := ⟨2, ![2048, 1]⟩
abbrev S2048 : Shape := ⟨1, ![2048]⟩
abbrev S2048x8 : Shape := ⟨2, ![2048, 8]⟩
abbrev S2048x64 : Shape := ⟨2, ![2048, 64]⟩
abbrev S2048x6 : Shape := ⟨2, ![2048, 6]⟩

abbrev nBuf : Space → Nat
  | .hbm => 41
  | .vmem => 18
  | .smem => 0
  | _ => 0

abbrev bufTy : (tb : Table) → Fin (tcTables nBuf tb) → BufTy
  | .hbm, ⟨0, _⟩ => ⟨S2097152x3, .f32⟩
  | .hbm, ⟨1, _⟩ => ⟨S2097152x3, .f32⟩
  | .hbm, ⟨2, _⟩ => ⟨S2097152x1, .f32⟩
  | .hbm, ⟨3, _⟩ => ⟨S2097152x1, .f32⟩
  | .hbm, ⟨4, _⟩ => ⟨S3x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x3, .f32⟩
  | .hbm, ⟨9, _⟩ => ⟨S3, .f32⟩
  | .hbm, ⟨10, _⟩ => ⟨S8x32, .f32⟩
  | .hbm, ⟨11, _⟩ => ⟨S32, .f32⟩
  | .hbm, ⟨12, _⟩ => ⟨S32x32, .f32⟩
  | .hbm, ⟨13, _⟩ => ⟨S32, .f32⟩
  | .hbm, ⟨14, _⟩ => ⟨S32x3, .f32⟩
  | .hbm, ⟨15, _⟩ => ⟨S3, .f32⟩
  | .hbm, ⟨16, _⟩ => ⟨S_, .f32⟩
  | .hbm, ⟨17, _⟩ => ⟨S5x32, .f32⟩
  | .hbm, ⟨18, _⟩ => ⟨S8x32, .f32⟩
  | .hbm, ⟨19, _⟩ => ⟨S8x64, .f32⟩
  | .hbm, ⟨20, _⟩ => ⟨S8x64, .bf16⟩
  | .hbm, ⟨21, _⟩ => ⟨S64, .f32⟩
  | .hbm, ⟨22, _⟩ => ⟨S1x64, .f32⟩
  | .hbm, ⟨23, _⟩ => ⟨S_, .f32⟩
  | .hbm, ⟨24, _⟩ => ⟨S32x32, .f32⟩
  | .hbm, ⟨25, _⟩ => ⟨S32x64, .f32⟩
  | .hbm, ⟨26, _⟩ => ⟨S32x64, .f32⟩
  | .hbm, ⟨27, _⟩ => ⟨S64x64, .f32⟩
  | .hbm, ⟨28, _⟩ => ⟨S64x64, .bf16⟩
  | .hbm, ⟨29, _⟩ => ⟨S64, .f32⟩
  | .hbm, ⟨30, _⟩ => ⟨S1x64, .f32⟩
  | .hbm, ⟨31, _⟩ => ⟨S_, .f32⟩
  | .hbm, ⟨32, _⟩ => ⟨S32x3, .f32⟩
  | .hbm, ⟨33, _⟩ => ⟨S32x6, .f32⟩
  | .hbm, ⟨34, _⟩ => ⟨S32x6, .f32⟩
  | .hbm, ⟨35, _⟩ => ⟨S64x6, .f32⟩
  | .hbm, ⟨36, _⟩ => ⟨S64x6, .bf16⟩
  | .hbm, ⟨37, _⟩ => ⟨S6, .f32⟩
  | .hbm, ⟨38, _⟩ => ⟨S1x6, .f32⟩
  | .hbm, ⟨39, _⟩ => ⟨S2097152x3, .f32⟩
  | .hbm, ⟨40, _⟩ => ⟨S2097152x3, .f32⟩
  | .local _ .vmem, ⟨0, _⟩ => ⟨S2048x3, .f32⟩
  | .local _ .vmem, ⟨1, _⟩ => ⟨S2048x3, .f32⟩
  | .local _ .vmem, ⟨2, _⟩ => ⟨S2048x3, .f32⟩
  | .local _ .vmem, ⟨3, _⟩ => ⟨S2048x3, .f32⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | .local _ .vmem, ⟨7, _⟩ => ⟨S2048x1, .f32⟩
  | .local _ .vmem, ⟨8, _⟩ => ⟨S8x64, .bf16⟩
  | .local _ .vmem, ⟨9, _⟩ => ⟨S1x64, .f32⟩
  | .local _ .vmem, ⟨10, _⟩ => ⟨S64x64, .bf16⟩
  | .local _ .vmem, ⟨11, _⟩ => ⟨S1x64, .f32⟩
  | .local _ .vmem, ⟨12, _⟩ => ⟨S64x6, .bf16⟩
  | .local _ .vmem, ⟨13, _⟩ => ⟨S1x6, .f32⟩
  | .local _ .vmem, ⟨14, _⟩ => ⟨S2048x3, .f32⟩
  | .local _ .vmem, ⟨15, _⟩ => ⟨S2048x3, .f32⟩
  | .local _ .vmem, ⟨16, _⟩ => ⟨S2048x3, .f32⟩
  | .local _ .vmem, ⟨17, _⟩ => ⟨S2048x3, .f32⟩
  | _, _ => ⟨S2097152x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_cst_0 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_cst_1 : Ref sig .tc := ⟨.hbm, 31, rfl⟩
abbrev main_call0_v13 : Ref sig .tc := ⟨.hbm, 32, rfl⟩
abbrev main_call0_v14 : Ref sig .tc := ⟨.hbm, 33, rfl⟩
abbrev main_call0_v15 : Ref sig .tc := ⟨.hbm, 34, rfl⟩
abbrev main_call0_v16 : Ref sig .tc := ⟨.hbm, 35, rfl⟩
abbrev main_call0_v17 : Ref sig .tc := ⟨.hbm, 36, rfl⟩
abbrev main_call0_v18 : Ref sig .tc := ⟨.hbm, 37, rfl⟩
abbrev main_call0_v19 : Ref sig .tc := ⟨.hbm, 38, rfl⟩
abbrev main_v0_0 : Ref sig .tc := ⟨.hbm, 39, rfl⟩
abbrev main_v0_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x6 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x6 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x3 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S5x32 : S_.BroadcastsInDim S5x32 (![] : Fin 0 → Fin S5x32.rank)
  concatenates_S3x32_S5x32_S8x32_d0 : Shape.Concatenates [S3x32, S5x32] S8x32 0
  concatenates_S8x32_S8x32_S8x64_d1 : Shape.Concatenates [S8x32, S8x32] S8x64 1
  bitsLt_bf16_f32 : FTy.bits .bf16 < FTy.bits .f32
  concatenates_S32_S32_S64_d0 : Shape.Concatenates [S32, S32] S64 0
  bcast_S64_S1x64_1 : S64.BroadcastsInDim S1x64 (![1] : Fin 1 → Fin S1x64.rank)
  bcast_S_S32x32 : S_.BroadcastsInDim S32x32 (![] : Fin 0 → Fin S32x32.rank)
  concatenates_S32x32_S32x32_S32x64_d1 : Shape.Concatenates [S32x32, S32x32] S32x64 1
  concatenates_S32x64_S32x64_S64x64_d0 : Shape.Concatenates [S32x64, S32x64] S64x64 0
  bcast_S_S32x3 : S_.BroadcastsInDim S32x3 (![] : Fin 0 → Fin S32x3.rank)
  concatenates_S32x3_S32x3_S32x6_d1 : Shape.Concatenates [S32x3, S32x3] S32x6 1
  concatenates_S32x6_S32x6_S64x6_d0 : Shape.Concatenates [S32x6, S32x6] S64x6 0
  concatenates_S3_S3_S6_d0 : Shape.Concatenates [S3, S3] S6 0
  bcast_S6_S1x6_1 : S6.BroadcastsInDim S1x6 (![1] : Fin 1 → Fin S1x6.rank)
  inb_S2048x3_S2048x3_0_0 : ∀ a, (![0, 0] : Fin 2 → Nat) a + S2048x3.size a ≤ S2048x3.size a
  h_S2048x3 : 0 < S2048x3.numel
  reduces_S2048x3_S2048 : S2048x3.Reduces [1] S2048
  shapeCasts_S2048_S2048x1 : S2048.ShapeCasts S2048x1
  broadcasts_S2048x1_S2048x3 : S2048x1.Broadcasts S2048x3
  natLt_1_32 : 1 < 32
  inb_S2048x1_S2048x1_0_0 : ∀ a, (![0, 0] : Fin 2 → Nat) a + S2048x1.size a ≤ S2048x1.size a
  h_S2048x1 : 0 < S2048x1.numel
  concatenates_S2048x3_S2048x3_S2048x1_S2048x1_S2048x8_d1 : Shape.Concatenates [S2048x3, S2048x3, S2048x1, S2048x1] S2048x8 1
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x6_S64x6_0_0 : ∀ a, (![0, 0] : Fin 2 → Nat) a + S64x6.size a ≤ S64x6.size a
  h_S64x6 : 0 < S64x6.numel
  shapeCasts_S64x6_S64x6 : S64x6.ShapeCasts S64x6
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S2048x6 : S1x6.Broadcasts S2048x6
  broadcasts_S2048x1_S2048x6 : S2048x1.Broadcasts S2048x6
  slices_S2048x6_o0_0_S2048x3 : S2048x6.Slices ![0, 0] S2048x3
  slices_S2048x6_o0_3_S2048x3 : S2048x6.Slices ![0, 3] S2048x3
  dot_S2048x8_S8x64_S2048x64_1_0_0_1_n_n_wf : DotDims.WF S2048x8 S8x64 S2048x64 [1] [0] [0] [1] [] []
  dot_S2048x64_S64x64_S2048x64_1_0_0_1_n_n_wf : DotDims.WF S2048x64 S64x64 S2048x64 [1] [0] [0] [1] [] []
  dot_S2048x64_S64x6_S2048x6_1_0_0_1_n_n_wf : DotDims.WF S2048x64 S64x6 S2048x6 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x3.size a ≤ S2097152x3.size a
  hwx0_0 : ∀ i : grid0.Coords, EltTy.bits .f32 = 32 ∨ (Rect.block (s := S2097152x3) S2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x3.size a ≤ S2097152x3.size a
  hwx0_1 : ∀ i : grid0.Coords, EltTy.bits .f32 = 32 ∨ (Rect.block (s := S2097152x3) S2048x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S2097152x1.size a
  hwx0_2 : ∀ i : grid0.Coords, EltTy.bits .f32 = 32 ∨ (Rect.block (s := S2097152x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S2097152x1.size a
  hwx0_3 : ∀ i : grid0.Coords, EltTy.bits .f32 = 32 ∨ (Rect.block (s := S2097152x1) S2048x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x64.size a ≤ S8x64.size a
  hwx0_4 : ∀ i : grid0.Coords, EltTy.bits .bf16 = 32 ∨ (Rect.block (s := S8x64) S8x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .bf16 = 32 ∨ (Rect.block (s := S64x64) S64x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x6.size a ≤ S64x6.size a
  hwx0_8 : ∀ i : grid0.Coords, EltTy.bits .bf16 = 32 ∨ (Rect.block (s := S64x6) S64x6.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x6.size a ≤ S1x6.size a
  hwx0_9 : ∀ i : grid0.Coords, EltTy.bits .f32 = 32 ∨ (Rect.block (s := S1x6) S1x6.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x3.size a ≤ S2097152x3.size a
  hwx0_10 : ∀ i : grid0.Coords, EltTy.bits .f32 = 32 ∨ (Rect.block (s := S2097152x3) S2048x3.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x3.size a ≤ S2097152x3.size a
  hwx0_11 : ∀ i : grid0.Coords, EltTy.bits .f32 = 32 ∨ (Rect.block (s := S2097152x3) S2048x3.size (cc0_transform_11 i) (hinb0_11 i)).WholeWords (EltTy.packing .f32)

variable [Facts₀]

def dot_S2048x8_S8x64_S2048x64_1_0_0_1_n_n : DotDims S2048x8 S8x64 S2048x64 where
  lhsContracting := [1]
  rhsContracting := [0]
  lhsNonContracting := [0]
  rhsNonContracting := [1]
  lhsBatch := []
  rhsBatch := []
  wf := dot_S2048x8_S8x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x6_S2048x6_1_0_0_1_n_n : DotDims S2048x64 S64x6 S2048x6 where
  lhsContracting := [1]
  rhsContracting := [0]
  lhsNonContracting := [0]
  rhsNonContracting := [1]
  lhsBatch := []
  rhsBatch := []
  wf := dot_S2048x64_S64x6_S2048x6_1_0_0_1_n_n_wf

abbrev win0_0 : Pipeline.Window sig grid0 :=
  Pipeline.Window.ofSpec (Memref.whole main_arg0) S2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S8x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v5) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v10) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v12) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v17) S64x6.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v19) S1x6.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0_0) S2048x3.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_1) S2048x3.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S2097152x3 : Shape := ⟨2, ![2097152, 3]⟩
abbrev S2097152x1 : Shape := ⟨2, ![2097152, 1]⟩
abbrev S3x32 : Shape := ⟨2, ![3, 32]⟩
abbrev S32 : Shape := ⟨1, ![32]⟩
abbrev S32x32 : Shape := ⟨2, ![32, 32]⟩
abbrev S32x3 : Shape := ⟨2, ![32, 3]⟩
abbrev S3 : Shape := ⟨1, ![3]⟩
abbrev S8x32 : Shape := ⟨2, ![8, 32]⟩
abbrev S_ : Shape := ⟨0, ![]⟩
abbrev S2097152 : Shape := ⟨1, ![2097152]⟩
abbrev S2097152x8 : Shape := ⟨2, ![2097152, 8]⟩
abbrev S2097152x32 : Shape := ⟨2, ![2097152, 32]⟩
abbrev S1x32 : Shape := ⟨2, ![1, 32]⟩
abbrev S1x3 : Shape := ⟨2, ![1, 3]⟩

abbrev nBuf : Space → Nat
  | .hbm => 85
  | .vmem => 0
  | .smem => 0
  | _ => 0

abbrev bufTy : (tb : Table) → Fin (tcTables nBuf tb) → BufTy
  | .hbm, ⟨0, _⟩ => ⟨S2097152x3, .f32⟩
  | .hbm, ⟨1, _⟩ => ⟨S2097152x3, .f32⟩
  | .hbm, ⟨2, _⟩ => ⟨S2097152x1, .f32⟩
  | .hbm, ⟨3, _⟩ => ⟨S2097152x1, .f32⟩
  | .hbm, ⟨4, _⟩ => ⟨S3x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x3, .f32⟩
  | .hbm, ⟨9, _⟩ => ⟨S3, .f32⟩
  | .hbm, ⟨10, _⟩ => ⟨S8x32, .f32⟩
  | .hbm, ⟨11, _⟩ => ⟨S32, .f32⟩
  | .hbm, ⟨12, _⟩ => ⟨S32x32, .f32⟩
  | .hbm, ⟨13, _⟩ => ⟨S32, .f32⟩
  | .hbm, ⟨14, _⟩ => ⟨S32x3, .f32⟩
  | .hbm, ⟨15, _⟩ => ⟨S3, .f32⟩
  | .hbm, ⟨16, _⟩ => ⟨S2097152x3, .f32⟩
  | .hbm, ⟨17, _⟩ => ⟨S_, .f32⟩
  | .hbm, ⟨18, _⟩ => ⟨S2097152, .f32⟩
  | .hbm, ⟨19, _⟩ => ⟨S2097152x1, .f32⟩
  | .hbm, ⟨20, _⟩ => ⟨S2097152x1, .f32⟩
  | .hbm, ⟨21, _⟩ => ⟨S_, .f32⟩
  | .hbm, ⟨22, _⟩ => ⟨S2097152x1, .f32⟩
  | .hbm, ⟨23, _⟩ => ⟨S2097152x1, .f32⟩
  | .hbm, ⟨24, _⟩ => ⟨S2097152x3, .f32⟩
  | .hbm, ⟨25, _⟩ => ⟨S2097152x3, .f32⟩
  | .hbm, ⟨26, _⟩ => ⟨S2097152x3, .f32⟩
  | .hbm, ⟨27, _⟩ => ⟨S_, .f32⟩
  | .hbm, ⟨28, _⟩ => ⟨S2097152, .f32⟩
  | .hbm, ⟨29, _⟩ => ⟨S2097152x1, .f32⟩
  | .hbm, ⟨30, _⟩ => ⟨S2097152x1, .f32⟩
  | .hbm, ⟨31, _⟩ => ⟨S_, .f32⟩
  | .hbm, ⟨32, _⟩ => ⟨S2097152x1, .f32⟩
  | .hbm, ⟨33, _⟩ => ⟨S2097152x1, .f32⟩
  | .hbm, ⟨34, _⟩ => ⟨S2097152x3, .f32⟩
  | .hbm, ⟨35, _⟩ => ⟨S2097152x3, .f32⟩
  | .hbm, ⟨36, _⟩ => ⟨S2097152x8, .f32⟩
  | .hbm, ⟨37, _⟩ => ⟨S2097152x3, .f32⟩
  | .hbm, ⟨38, _⟩ => ⟨S_, .f32⟩
  | .hbm, ⟨39, _⟩ => ⟨S2097152, .f32⟩
  | .hbm, ⟨40, _⟩ => ⟨S_, .f32⟩
  | .hbm, ⟨41, _⟩ => ⟨S2097152, .f32⟩
  | .hbm, ⟨42, _⟩ => ⟨S2097152, .i1⟩
  | .hbm, ⟨43, _⟩ => ⟨S2097152x1, .i1⟩
  | .hbm, ⟨44, _⟩ => ⟨S2097152x1, .f32⟩
  | .hbm, ⟨45, _⟩ => ⟨S2097152x32, .f32⟩
  | .hbm, ⟨46, _⟩ => ⟨S1x32, .f32⟩
  | .hbm, ⟨47, _⟩ => ⟨S2097152x32, .f32⟩
  | .hbm, ⟨48, _⟩ => ⟨S2097152x32, .f32⟩
  | .hbm, ⟨49, _⟩ => ⟨S_, .f32⟩
  | .hbm, ⟨50, _⟩ => ⟨S2097152x32, .f32⟩
  | .hbm, ⟨51, _⟩ => ⟨S2097152x32, .f32⟩
  | .hbm, ⟨52, _⟩ => ⟨S2097152x32, .f32⟩
  | .hbm, ⟨53, _⟩ => ⟨S1x32, .f32⟩
  | .hbm, ⟨54, _⟩ => ⟨S2097152x32, .f32⟩
  | .hbm, ⟨55, _⟩ => ⟨S2097152x32, .f32⟩
  | .hbm, ⟨56, _⟩ => ⟨S_, .f32⟩
  | .hbm, ⟨57, _⟩ => ⟨S2097152x32, .f32⟩
  | .hbm, ⟨58, _⟩ => ⟨S2097152x32, .f32⟩
  | .hbm, ⟨59, _⟩ => ⟨S2097152x3, .f32⟩
  | .hbm, ⟨60, _⟩ => ⟨S1x3, .f32⟩
  | .hbm, ⟨61, _⟩ => ⟨S2097152x3, .f32⟩
  | .hbm, ⟨62, _⟩ => ⟨S2097152x3, .f32⟩
  | .hbm, ⟨63, _⟩ => ⟨S2097152x32, .f32⟩
  | .hbm, ⟨64, _⟩ => ⟨S1x32, .f32⟩
  | .hbm, ⟨65, _⟩ => ⟨S2097152x32, .f32⟩
  | .hbm, ⟨66, _⟩ => ⟨S2097152x32, .f32⟩
  | .hbm, ⟨67, _⟩ => ⟨S_, .f32⟩
  | .hbm, ⟨68, _⟩ => ⟨S2097152x32, .f32⟩
  | .hbm, ⟨69, _⟩ => ⟨S2097152x32, .f32⟩
  | .hbm, ⟨70, _⟩ => ⟨S2097152x32, .f32⟩
  | .hbm, ⟨71, _⟩ => ⟨S1x32, .f32⟩
  | .hbm, ⟨72, _⟩ => ⟨S2097152x32, .f32⟩
  | .hbm, ⟨73, _⟩ => ⟨S2097152x32, .f32⟩
  | .hbm, ⟨74, _⟩ => ⟨S_, .f32⟩
  | .hbm, ⟨75, _⟩ => ⟨S2097152x32, .f32⟩
  | .hbm, ⟨76, _⟩ => ⟨S2097152x32, .f32⟩
  | .hbm, ⟨77, _⟩ => ⟨S2097152x3, .f32⟩
  | .hbm, ⟨78, _⟩ => ⟨S1x3, .f32⟩
  | .hbm, ⟨79, _⟩ => ⟨S2097152x3, .f32⟩
  | .hbm, ⟨80, _⟩ => ⟨S2097152x3, .f32⟩
  | .hbm, ⟨81, _⟩ => ⟨S2097152x3, .f32⟩
  | .hbm, ⟨82, _⟩ => ⟨S2097152x3, .f32⟩
  | .hbm, ⟨83, _⟩ => ⟨S2097152x3, .f32⟩
  | .hbm, ⟨84, _⟩ => ⟨S2097152x3, .f32⟩
  | _, _ => ⟨S2097152x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_cst_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call0_cst : Ref sig .tc := ⟨.hbm, 49, rfl⟩
abbrev main_call0_v0 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_call1_cst : Ref sig .tc := ⟨.hbm, 56, rfl⟩
abbrev main_call1_v0 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_call2_cst : Ref sig .tc := ⟨.hbm, 67, rfl⟩
abbrev main_call2_v0 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_call3_cst : Ref sig .tc := ⟨.hbm, 74, rfl⟩
abbrev main_call3_v0 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩

abbrev nD : Nat := 1
abbrev τ : Topo := Topo.v7x

variable {F : FTy → Type} [FloatOps F]

class Facts₀ : Prop where
  reducesTo_S2097152x3_S2097152_d1 : S2097152x3.ReducesTo [1] S2097152
  h_S_ : 0 < S_.numel
  bcast_S2097152_S2097152x1_0 : S2097152.BroadcastsInDim S2097152x1 (![0] : Fin 1 → Fin S2097152x1.rank)
  bcast_S_S2097152x1 : S_.BroadcastsInDim S2097152x1 (![] : Fin 0 → Fin S2097152x1.rank)
  bcast_S2097152x1_S2097152x3_0_1 : S2097152x1.BroadcastsInDim S2097152x3 (![0, 1] : Fin 2 → Fin S2097152x3.rank)
  concatenates_S2097152x3_S2097152x3_S2097152x1_S2097152x1_S2097152x8_d1 : Shape.Concatenates [S2097152x3, S2097152x3, S2097152x1, S2097152x1] S2097152x8 1
  bcast_S_S2097152 : S_.BroadcastsInDim S2097152 (![] : Fin 0 → Fin S2097152.rank)
  bcast_S32_S1x32_1 : S32.BroadcastsInDim S1x32 (![1] : Fin 1 → Fin S1x32.rank)
  bcast_S1x32_S2097152x32_0_1 : S1x32.BroadcastsInDim S2097152x32 (![0, 1] : Fin 2 → Fin S2097152x32.rank)
  bcast_S_S2097152x32 : S_.BroadcastsInDim S2097152x32 (![] : Fin 0 → Fin S2097152x32.rank)
  bcast_S3_S1x3_1 : S3.BroadcastsInDim S1x3 (![1] : Fin 1 → Fin S1x3.rank)
  bcast_S1x3_S2097152x3_0_1 : S1x3.BroadcastsInDim S2097152x3 (![0, 1] : Fin 2 → Fin S2097152x3.rank)
  dot_S2097152x3_S3x32_S2097152x32_1_0_0_1_n_n_wf : DotDims.WF S2097152x3 S3x32 S2097152x32 [1] [0] [0] [1] [] []
  dot_S2097152x32_S32x32_S2097152x32_1_0_0_1_n_n_wf : DotDims.WF S2097152x32 S32x32 S2097152x32 [1] [0] [0] [1] [] []
  dot_S2097152x32_S32x3_S2097152x3_1_0_0_1_n_n_wf : DotDims.WF S2097152x32 S32x3 S2097152x3 [1] [0] [0] [1] [] []
  dot_S2097152x8_S8x32_S2097152x32_1_0_0_1_n_n_wf : DotDims.WF S2097152x8 S8x32 S2097152x32 [1] [0] [0] [1] [] []

variable [Facts₀]

def dot_S2097152x3_S3x32_S2097152x32_1_0_0_1_n_n : DotDims S2097152x3 S3x32 S2097152x32 where
  lhsContracting := [1]
  rhsContracting := [0]
  lhsNonContracting := [0]
  rhsNonContracting := [1]
  lhsBatch := []
  rhsBatch := []
  wf := dot_S2097152x3_S3x32_S2097152x32_1_0_0_1_n_n_wf
def dot_S2097152x32_S32x32_S2097152x32_1_0_0_1_n_n : DotDims S2097152x32 S32x32 S2097152x32 where
  lhsContracting := [1]
  rhsContracting := [0]
  lhsNonContracting := [0]
  rhsNonContracting := [1]
  lhsBatch := []
  rhsBatch := []
  wf := dot_S2097152x32_S32x32_S2097152x32_1_0_0_1_n_n_wf
def dot_S2097152x32_S32x3_S2097152x3_1_0_0_1_n_n : DotDims S2097152x32 S32x3 S2097152x3 where
  lhsContracting := [1]
  rhsContracting := [0]
  lhsNonContracting := [0]
  rhsNonContracting := [1]
  lhsBatch := []
  rhsBatch := []
  wf := dot_S2097152x32_S32x3_S2097152x3_1_0_0_1_n_n_wf
def dot_S2097152x8_S8x32_S2097152x32_1_0_0_1_n_n : DotDims S2097152x8 S8x32 S2097152x32 where
  lhsContracting := [1]
  rhsContracting := [0]
  lhsNonContracting := [0]
  rhsNonContracting := [1]
  lhsBatch := []
  rhsBatch := []
  wf := dot_S2097152x8_S8x32_S2097152x32_1_0_0_1_n_n_wf

class Facts : Prop extends Facts₀ where

variable [Facts]
-- ==== Proof.LibConcatCols.lean ====
/-
  Arrays joined side by side, read and summed.

  Several rank-2 arrays with the same number of rows, joined along the column axis, form one wider array: column
  `pre + j` of the join, where `pre` is the total width of the pieces before piece `k`, is column `j` of piece `k`.
  A sum over all the columns of the join is therefore the sum over the columns of the first pieces plus the sum over
  the columns of the last ones: a sum over `Fin n` with `n = a + b` splits at `a`. Both facts hold in any additive
  commutative monoid; no cancellation is used.
-/
import Idealize.ShloMosaic.Lib.Pipeline.Value
import Idealize.ShloMosaic.Lib.ValueIdx

noncomputable section

namespace Cert.Lib

open Idealize.ShloMosaic Idealize.ShloMosaic.ValueIdx
open scoped BigOperators

/-- A sum over `n = a + b` positions is the sum over the first `a` of them plus the sum over the last `b`. -/
theorem sum_fin_add {M : Type*} [AddCommMonoid M] {a b n : ℕ} (h : a + b = n) (f : Fin n → M) :
    ∑ k, f k = ∑ k : Fin a, f ⟨k.val, by have := k.isLt; omega⟩ + ∑ k : Fin b, f ⟨a + k.val, by have := k.isLt; omega⟩ := by
  subst h
  rw [Fin.sum_univ_add]
  rfl

/-- A join of rank-2 arrays along the column axis, read at row `r` and column `pre + j`: piece `k`, whose columns
    start at `pre` (the widths of the pieces before it add up to `pre`), at `(r, j)`. -/
theorem concat_cols_apply {α : Type} {R C : ℕ} (xs : List ((s : Shape) × (s.Idx → α)))
    (h : Shape.Concatenates (xs.map (·.1)) ⟨2, ![R, C]⟩ 1)
    (k : ℕ) (hk : k < xs.length) {n : ℕ} (x : (⟨2, ![R, n]⟩ : Shape).Idx → α) (hxk : xs[k] = ⟨⟨2, ![R, n]⟩, x⟩)
    (pre : ℕ)
    (hpre : (((xs.take k).map (·.1)).map fun s : Shape =>
      if h : s.rank = (⟨2, ![R, C]⟩ : Shape).rank then s.size ((1 : Fin (⟨2, ![R, C]⟩ : Shape).rank).cast h.symm) else 0).sum = pre)
    (r : Fin R) (j : Fin n) (hj : pre + j.val < C) :
    concatenate ⟨2, ![R, C]⟩ 1 xs h (ix2 r ⟨pre + j.val, hj⟩) = x (ix2 r j) := by
  refine concatenate_apply_piece 1 xs h _ k hk _ x hxk rfl pre hpre (ix2 r j) (fun b hb => ?_) rfl
  match b with
  | ⟨0, _⟩ => rfl
  | ⟨1, _⟩ => exact absurd rfl hb

end Cert.Lib

end
-- ==== Proof.LibNodeMean.lean ====
/-
  The neighbour mean as whole arrays: a sum per node and feature, scaled by the node's clamped count.

  A per-node vector `v` laid along the feature axis — first as a column `[N, 1]`, then repeated `K` times — reads `v p`
  at every entry `(p, k)`. With `c` the per-node counts, the array of sums multiplied by the broadcast of
  `1 / max c 1` is, entry by entry, the array of sums divided by the broadcast of `max c 1`: the divisor is at least one,
  so never zero, and off zero the quotient of extended reals is the product with the inverse whatever the dividend.
-/
import Idealize.ShloMosaic.PureOps.Ideal.Laws
import Idealize.ShloMosaic.Lib.ValueIdx
import Idealize.ShloMosaic.Lib.Pipeline.Value

noncomputable section

namespace Cert.Lib

open Idealize.ShloMosaic Idealize.ShloMosaic.ValueIdx

/-- The word `0x3F800000` is the number one. -/
theorem one_word_f32 : Ideal.ofBits .f32 0x3F800000#32 = 1 := by
  simp [Ideal.ofBits, Ideal.ieee, -EReal.coe_mul]; norm_num

variable {α : Type} {N K : ℕ}

/-- A per-node vector as a column `[N, 1]`, then repeated along a second axis of extent `K`: at `(p, k)` it is `v p`. -/
theorem nodeBroadcast_apply (v : (⟨1, ![N]⟩ : Shape).Idx → α)
    (h1 : (⟨1, ![N]⟩ : Shape).BroadcastsInDim ⟨2, ![N, 1]⟩ (![0] : Fin 1 → Fin 2))
    (h2 : (⟨2, ![N, 1]⟩ : Shape).BroadcastsInDim ⟨2, ![N, K]⟩ (![0, 1] : Fin 2 → Fin 2)) (p : Fin N) (k : Fin K) :
    broadcastInDim ⟨2, ![N, K]⟩ ![0, 1] h2 (broadcastInDim ⟨2, ![N, 1]⟩ ![0] h1 v) (ix2 p k) = v (ix1 p) := by
  refine (broadcastInDim_apply _ h2 _ (ix2 p k) (ix2 p (0 : Fin 1)) fun a => ?_).trans
    (broadcastInDim_apply _ h1 v (ix2 p (0 : Fin 1)) (ix1 p) fun a => ?_)
  · match a with
    | ⟨0, _⟩ =>
      show p.val = if N = 1 then 0 else p.val
      have hp : p.val < N := p.isLt
      split
      · omega
      · rfl
    | ⟨1, _⟩ => show 0 = if (1 : ℕ) = 1 then 0 else k.val; rw [if_pos rfl]
  · match a with
    | ⟨0, _⟩ =>
      show p.val = if N = 1 then 0 else p.val
      have hp : p.val < N := p.isLt
      split
      · omega
      · rfl

/-- A scalar repeated over a vector reads the scalar everywhere. -/
theorem scalarBroadcast_apply (x : (⟨0, ![]⟩ : Shape).Idx → α)
    (h0 : (⟨0, ![]⟩ : Shape).BroadcastsInDim ⟨1, ![N]⟩ (![] : Fin 0 → Fin 1)) (i : (⟨1, ![N]⟩ : Shape).Idx) :
    broadcastInDim ⟨1, ![N]⟩ ![] h0 x i = x ix0 :=
  broadcastInDim_apply _ h0 x i ix0 fun a => a.elim0

/-- THE MEAN, either way: the sums times the broadcast reciprocal of the clamped counts are the sums divided by the
    broadcast clamped counts, as whole arrays on the extended reals. -/
theorem mean_by_reciprocal (S : FVec Ideal ⟨2, ![N, K]⟩ .f32) (cnt : FVec Ideal ⟨1, ![N]⟩ .f32)
    (h0 : (⟨0, ![]⟩ : Shape).BroadcastsInDim ⟨1, ![N]⟩ (![] : Fin 0 → Fin 1))
    (h1 : (⟨1, ![N]⟩ : Shape).BroadcastsInDim ⟨2, ![N, 1]⟩ (![0] : Fin 1 → Fin 2))
    (h2 : (⟨2, ![N, 1]⟩ : Shape).BroadcastsInDim ⟨2, ![N, K]⟩ (![0, 1] : Fin 2 → Fin 2)) :
    mulf S (broadcastInDim ⟨2, ![N, K]⟩ ![0, 1] h2 (broadcastInDim ⟨2, ![N, 1]⟩ ![0] h1
        (Host.divf (broadcastInDim ⟨1, ![N]⟩ ![] h0 (constant (F := Ideal) ⟨0, ![]⟩ .f32 0x3F800000#32))
          (maximumf cnt (broadcastInDim ⟨1, ![N]⟩ ![] h0 (constant (F := Ideal) ⟨0, ![]⟩ .f32 0x3F800000#32))))))
      = Host.divf S (broadcastInDim ⟨2, ![N, K]⟩ ![0, 1] h2 (broadcastInDim ⟨2, ![N, 1]⟩ ![0] h1
          (maximumf cnt (broadcastInDim ⟨1, ![N]⟩ ![] h0 (constant (F := Ideal) ⟨0, ![]⟩ .f32 0x3F800000#32))))) := by
  funext i
  obtain ⟨p, k, rfl⟩ : ∃ (p : Fin N) (k : Fin K), i = ix2 p k := ⟨i 0, i 1, eq_ix2 i⟩
  have e1 := nodeBroadcast_apply
    (Host.divf (broadcastInDim ⟨1, ![N]⟩ ![] h0 (constant (F := Ideal) ⟨0, ![]⟩ .f32 0x3F800000#32))
      (maximumf cnt (broadcastInDim ⟨1, ![N]⟩ ![] h0 (constant (F := Ideal) ⟨0, ![]⟩ .f32 0x3F800000#32)))) h1 h2 p k
  have e2 := nodeBroadcast_apply
    (maximumf cnt (broadcastInDim ⟨1, ![N]⟩ ![] h0 (constant (F := Ideal) ⟨0, ![]⟩ .f32 0x3F800000#32))) h1 h2 p k
  have e0 : broadcastInDim ⟨1, ![N]⟩ ![] h0 (constant (F := Ideal) ⟨0, ![]⟩ .f32 0x3F800000#32) (ix1 p) = (1 : EReal) :=
    (scalarBroadcast_apply _ h0 (ix1 p)).trans one_word_f32
  show S (ix2 p k) * _ = Ideal.div (S (ix2 p k)) _
  rw [e1, e2]
  show S (ix2 p k) * Ideal.div (broadcastInDim ⟨1, ![N]⟩ ![] h0 (constant (F := Ideal) ⟨0, ![]⟩ .f32 0x3F800000#32) (ix1 p))
      (max (cnt (ix1 p)) (broadcastInDim ⟨1, ![N]⟩ ![] h0 (constant (F := Ideal) ⟨0, ![]⟩ .f32 0x3F800000#32) (ix1 p)))
    = Ideal.div (S (ix2 p k))
      (max (cnt (ix1 p)) (broadcastInDim ⟨1, ![N]⟩ ![] h0 (constant (F := Ideal) ⟨0, ![]⟩ .f32 0x3F800000#32) (ix1 p)))
  rw [e0]
  have hy : max (cnt (ix1 p)) (1 : EReal) ≠ 0 := ne_of_gt (lt_of_lt_of_le zero_lt_one (le_max_right _ _))
  unfold Ideal.div
  rw [if_neg hy, if_neg hy, one_mul]

end Cert.Lib

end
-- ==== Proof.Spec.lean ====
/-
  The mathematics of the two small networks, free of any program.

  A layer is an affine map `x ↦ x·W + b` on the extended reals; `relu` clamps at zero from below; a network of two hidden
  layers composes three affine maps with two clamps. Two such networks — one of 3 inputs, one of 8, both with 32 hidden
  units twice and 3 outputs — can be run as ONE network of 8 inputs, 64 hidden units and 6 outputs whose weight matrices
  carry the two networks' matrices as diagonal blocks and zeros elsewhere: a product with a zero weight is zero on every
  extended real (also at the infinities), a sum over 64 positions is the sum over the first 32 plus the sum over the last
  32, so the zero blocks drop out and each half of every layer of the wide network is the corresponding layer of one of
  the two narrow ones. No finiteness is used for that.

  The visibility gate is `1` where a number is positive and `0` elsewhere. A row `x` is normalised by dividing it by
  `max (√(x·x)) ε`; multiplying by the reciprocal of that (nonzero) denominator is the same as dividing by it, on every
  extended real. For rows of REALS the denominators are positive reals, so the inner product of two normalised rows is
  the inner product of the rows divided by a positive real, and the gate sees the same sign.
-/
import Idealize.ShloMosaic.PureOps.Ideal.Laws
import proofs.«107359_g74294344286346_cont_9to1c4b_587_3_alg».proof.Proof.LibConcatCols
import proofs.«107359_g74294344286346_cont_9to1c4b_587_3_alg».proof.Proof.LibNodeMean

noncomputable section

namespace Cert.Net

open Idealize.ShloMosaic
open scoped BigOperators

/-! ## Layers -/

/-- The affine layer `x·W + b`, at output `j`. -/
def lin {K N : ℕ} (x : Fin K → EReal) (W : Fin K → Fin N → EReal) (b : Fin N → EReal) : Fin N → EReal :=
  fun j => (∑ i, x i * W i j) + b j

/-- The clamp at zero from below. -/
def relu {N : ℕ} (y : Fin N → EReal) : Fin N → EReal := fun j => max (y j) 0

/-- Three affine layers with a clamp after the first two. -/
def mlp {K H O : ℕ} (x : Fin K → EReal) (W1 : Fin K → Fin H → EReal) (b1 : Fin H → EReal)
    (W2 : Fin H → Fin H → EReal) (b2 : Fin H → EReal) (W3 : Fin H → Fin O → EReal) (b3 : Fin O → EReal) : Fin O → EReal :=
  lin (relu (lin (relu (lin x W1 b1)) W2 b2)) W3 b3

/-! ## Positions in the two halves of the wide network -/

abbrev lo32 (j : Fin 32) : Fin 64 := ⟨j.val, by have := j.isLt; omega⟩
abbrev hi32 (j : Fin 32) : Fin 64 := ⟨32 + j.val, by have := j.isLt; omega⟩
abbrev lo3 (q : Fin 3) : Fin 6 := ⟨q.val, by have := q.isLt; omega⟩
abbrev hi3 (q : Fin 3) : Fin 6 := ⟨3 + q.val, by have := q.isLt; omega⟩
abbrev lo3of8 (i : Fin 3) : Fin 8 := ⟨i.val, by have := i.isLt; omega⟩
abbrev hi5of8 (i : Fin 5) : Fin 8 := ⟨3 + i.val, by have := i.isLt; omega⟩

theorem sum8 (f : Fin 8 → EReal) : ∑ i, f i = ∑ i : Fin 3, f (lo3of8 i) + ∑ i : Fin 5, f (hi5of8 i) :=
  Cert.Lib.sum_fin_add (by norm_num) f

theorem sum64 (f : Fin 64 → EReal) : ∑ i, f i = ∑ i : Fin 32, f (lo32 i) + ∑ i : Fin 32, f (hi32 i) :=
  Cert.Lib.sum_fin_add (by norm_num) f

/-- The wide network's weights carry the two narrow networks' weights as blocks: the first network (`d…`) reads only the
    first three inputs and owns the first half of every layer, the second (`s…`) reads all eight inputs and owns the second
    half; every other entry is zero. -/
structure Blocks (W1 : Fin 8 → Fin 64 → EReal) (b1 : Fin 64 → EReal) (W2 : Fin 64 → Fin 64 → EReal) (b2 : Fin 64 → EReal)
    (W3 : Fin 64 → Fin 6 → EReal) (b3 : Fin 6 → EReal)
    (dW1 : Fin 3 → Fin 32 → EReal) (db1 : Fin 32 → EReal) (dW2 : Fin 32 → Fin 32 → EReal) (db2 : Fin 32 → EReal)
    (dW3 : Fin 32 → Fin 3 → EReal) (db3 : Fin 3 → EReal)
    (sW1 : Fin 8 → Fin 32 → EReal) (sb1 : Fin 32 → EReal) (sW2 : Fin 32 → Fin 32 → EReal) (sb2 : Fin 32 → EReal)
    (sW3 : Fin 32 → Fin 3 → EReal) (sb3 : Fin 3 → EReal) : Prop where
  w1_dd : ∀ i j, W1 (lo3of8 i) (lo32 j) = dW1 i j
  w1_zd : ∀ i j, W1 (hi5of8 i) (lo32 j) = 0
  w1_s : ∀ i j, W1 i (hi32 j) = sW1 i j
  b1_d : ∀ j, b1 (lo32 j) = db1 j
  b1_s : ∀ j, b1 (hi32 j) = sb1 j
  w2_dd : ∀ j k, W2 (lo32 j) (lo32 k) = dW2 j k
  w2_ds : ∀ j k, W2 (lo32 j) (hi32 k) = 0
  w2_sd : ∀ j k, W2 (hi32 j) (lo32 k) = 0
  w2_ss : ∀ j k, W2 (hi32 j) (hi32 k) = sW2 j k
  b2_d : ∀ k, b2 (lo32 k) = db2 k
  b2_s : ∀ k, b2 (hi32 k) = sb2 k
  w3_dd : ∀ k q, W3 (lo32 k) (lo3 q) = dW3 k q
  w3_ds : ∀ k q, W3 (lo32 k) (hi3 q) = 0
  w3_sd : ∀ k q, W3 (hi32 k) (lo3 q) = 0
  w3_ss : ∀ k q, W3 (hi32 k) (hi3 q) = sW3 k q
  b3_d : ∀ q, b3 (lo3 q) = db3 q
  b3_s : ∀ q, b3 (hi3 q) = sb3 q

section
variable {W1 : Fin 8 → Fin 64 → EReal} {b1 : Fin 64 → EReal} {W2 : Fin 64 → Fin 64 → EReal} {b2 : Fin 64 → EReal}
    {W3 : Fin 64 → Fin 6 → EReal} {b3 : Fin 6 → EReal}
    {dW1 : Fin 3 → Fin 32 → EReal} {db1 : Fin 32 → EReal} {dW2 : Fin 32 → Fin 32 → EReal} {db2 : Fin 32 → EReal}
    {dW3 : Fin 32 → Fin 3 → EReal} {db3 : Fin 3 → EReal}
    {sW1 : Fin 8 → Fin 32 → EReal} {sb1 : Fin 32 → EReal} {sW2 : Fin 32 → Fin 32 → EReal} {sb2 : Fin 32 → EReal}
    {sW3 : Fin 32 → Fin 3 → EReal} {sb3 : Fin 3 → EReal}
    (B : Blocks W1 b1 W2 b2 W3 b3 dW1 db1 dW2 db2 dW3 db3 sW1 sb1 sW2 sb2 sW3 sb3) (x : Fin 8 → EReal)
include B

/-- First hidden layer, first half: the narrow network of three inputs. -/
theorem layer1_d (j : Fin 32) :
    relu (lin x W1 b1) (lo32 j) = relu (lin (fun i => x (lo3of8 i)) dW1 db1) j := by
  simp only [relu, lin]
  rw [sum8]
  simp only [B.w1_dd, B.w1_zd, B.b1_d, mul_zero, Finset.sum_const_zero, add_zero]

/-- First hidden layer, second half: the narrow network of eight inputs. -/
theorem layer1_s (j : Fin 32) : relu (lin x W1 b1) (hi32 j) = relu (lin x sW1 sb1) j := by
  simp only [relu, lin, B.w1_s, B.b1_s]

theorem layer2_d (k : Fin 32) :
    relu (lin (relu (lin x W1 b1)) W2 b2) (lo32 k)
      = relu (lin (relu (lin (fun i => x (lo3of8 i)) dW1 db1)) dW2 db2) k := by
  simp only [relu, lin]
  rw [sum64]
  have h1 := layer1_d B x
  have h2 := layer1_s B x
  simp only [relu, lin] at h1 h2
  simp only [h1, h2, B.w2_dd, B.w2_sd, B.b2_d, mul_zero, Finset.sum_const_zero, add_zero]

theorem layer2_s (k : Fin 32) :
    relu (lin (relu (lin x W1 b1)) W2 b2) (hi32 k) = relu (lin (relu (lin x sW1 sb1)) sW2 sb2) k := by
  simp only [relu, lin]
  rw [sum64]
  have h1 := layer1_d B x
  have h2 := layer1_s B x
  simp only [relu, lin] at h1 h2
  simp only [h1, h2, B.w2_ds, B.w2_ss, B.b2_s, mul_zero, Finset.sum_const_zero, zero_add]

/-- The wide network's first three outputs are the narrow network of three inputs. -/
theorem mlp_d (q : Fin 3) :
    mlp x W1 b1 W2 b2 W3 b3 (lo3 q) = mlp (fun i => x (lo3of8 i)) dW1 db1 dW2 db2 dW3 db3 q := by
  unfold mlp
  have h1 := layer2_d B x
  have h2 := layer2_s B x
  rw [lin, sum64]
  simp only [h1, h2, B.w3_dd, B.w3_sd, B.b3_d, mul_zero, Finset.sum_const_zero, add_zero]
  rfl

/-- The wide network's last three outputs are the narrow network of eight inputs. -/
theorem mlp_s (q : Fin 3) :
    mlp x W1 b1 W2 b2 W3 b3 (hi3 q) = mlp x sW1 sb1 sW2 sb2 sW3 sb3 q := by
  unfold mlp
  have h1 := layer2_d B x
  have h2 := layer2_s B x
  rw [lin, sum64]
  simp only [h1, h2, B.w3_ds, B.w3_ss, B.b3_s, mul_zero, Finset.sum_const_zero, zero_add]
  rfl

end

/-! ## The gate -/

/-- `1` on the positive extended reals, `0` elsewhere. -/
def gate (a : EReal) : EReal := if 0 < a then 1 else 0

/-- The comparison `a > 0` as a bit, widened to a 32-bit integer and read signed, is the gate. -/
theorem gate_signed (a : EReal) :
    FloatOps.sitofp (F := Ideal) .f32 ((FloatOps.cmpf (F := Ideal) (φ := .f32) .ogt a 0).setWidth 32) = gate a := by
  rw [Ideal.cmpf_def]
  unfold gate Ideal.cmp
  by_cases h : (0 : EReal) < a
  · simp only [h, decide_true, if_true]; show (((1 : ℤ) : ℝ) : EReal) = 1; norm_num
  · simp only [h, decide_false, if_false]; show (((0 : ℤ) : ℝ) : EReal) = 0; norm_num

/-- The same bit read unsigned is the gate too. -/
theorem gate_unsigned (a : EReal) :
    FloatOps.uitofp (F := Ideal) .f32 (FloatOps.cmpf (F := Ideal) (φ := .f32) .ogt a 0) = gate a := by
  rw [Ideal.cmpf_def]
  unfold gate Ideal.cmp
  by_cases h : (0 : EReal) < a
  · simp only [h, decide_true, if_true]; show (((1 : ℕ) : ℝ) : EReal) = 1; norm_num
  · simp only [h, decide_false, if_false]; show (((0 : ℕ) : ℝ) : EReal) = 0; norm_num

/-! ## Normalising a row -/

/-- The normaliser's floor `ε` (about `10⁻¹²`) is a positive real. -/
theorem eps_pos : ∃ e : ℝ, 0 < e ∧ Ideal.ofBits .f32 0x2B8CBCCC#32 = (e : EReal) := by
  refine ⟨_, ?_, by simp [Ideal.ofBits, Ideal.ieee]; rfl⟩
  positivity

/-- The denominator `max (√s) ε`. -/
def den (s : EReal) : EReal := max (Ideal.sqrt s) (Ideal.ofBits .f32 0x2B8CBCCC#32)

theorem den_pos (s : EReal) : 0 < den s := by
  obtain ⟨e, he, hw⟩ := eps_pos
  unfold den
  rw [hw]
  exact lt_of_lt_of_le (by exact_mod_cast he) (le_max_right _ _)

/-- Multiplying by the reciprocal of the denominator is dividing by it, on every extended real. -/
theorem mul_recip (x s : EReal) : x * Ideal.div 1 (den s) = Ideal.div x (den s) := by
  have h : den s ≠ 0 := (den_pos s).ne'
  unfold Ideal.div
  rw [if_neg h, if_neg h, one_mul]

/-- The denominator of a real is a positive real. -/
theorem den_real (s : ℝ) : ∃ d : ℝ, 0 < d ∧ den (s : EReal) = (d : EReal) := by
  obtain ⟨e, he, hw⟩ := eps_pos
  unfold den
  rw [hw, Ideal.sqrt_coe]
  by_cases hs : s < 0
  · rw [if_pos hs]
    exact ⟨e, he, max_eq_right bot_le⟩
  · rw [if_neg hs]
    refine ⟨max (Real.sqrt s) e, lt_of_lt_of_le he (le_max_right _ _), ?_⟩
    exact (EReal.coe_strictMono.monotone.map_max).symm

/-- For rows of reals, the inner product of the normalised rows has the sign of the rows' inner product. -/
theorem gate_unit (n v : Fin 3 → EReal) (hn : ∀ k, ∃ r : ℝ, n k = (r : EReal)) (hv : ∀ k, ∃ r : ℝ, v k = (r : EReal)) :
    gate (∑ k, Ideal.div (n k) (den (∑ j, n j * n j)) * Ideal.div (v k) (den (∑ j, v j * v j)))
      = gate (∑ k, n k * v k) := by
  choose a ha using hn
  choose b hb using hv
  have hsn : (∑ j, n j * n j) = ((a 0 * a 0 + a 1 * a 1 + a 2 * a 2 : ℝ) : EReal) := by
    rw [Fin.sum_univ_three, ha 0, ha 1, ha 2]; push_cast; rfl
  have hsv : (∑ j, v j * v j) = ((b 0 * b 0 + b 1 * b 1 + b 2 * b 2 : ℝ) : EReal) := by
    rw [Fin.sum_univ_three, hb 0, hb 1, hb 2]; push_cast; rfl
  obtain ⟨d, hd, hdn⟩ := den_real (a 0 * a 0 + a 1 * a 1 + a 2 * a 2)
  obtain ⟨e, he, hev⟩ := den_real (b 0 * b 0 + b 1 * b 1 + b 2 * b 2)
  rw [hsn, hsv, hdn, hev]
  have l : (∑ k, Ideal.div (n k) (d : EReal) * Ideal.div (v k) (e : EReal))
      = (((a 0 * b 0 + a 1 * b 1 + a 2 * b 2) / (d * e) : ℝ) : EReal) := by
    rw [Fin.sum_univ_three]
    simp only [Ideal.div_coe hd.ne', Ideal.div_coe he.ne', ha, hb]
    rw [← EReal.coe_mul, ← EReal.coe_mul, ← EReal.coe_mul, ← EReal.coe_mul, ← EReal.coe_mul, ← EReal.coe_mul,
      ← EReal.coe_mul, ← EReal.coe_mul, ← EReal.coe_mul, ← EReal.coe_add, ← EReal.coe_add]
    congr 1
    field_simp
  have r : (∑ k, n k * v k) = ((a 0 * b 0 + a 1 * b 1 + a 2 * b 2 : ℝ) : EReal) := by
    rw [Fin.sum_univ_three, ha 0, ha 1, ha 2, hb 0, hb 1, hb 2]; push_cast; rfl
  rw [l, r]
  unfold gate
  have hde : 0 < d * e := mul_pos hd he
  have : (0 : EReal) < (((a 0 * b 0 + a 1 * b 1 + a 2 * b 2) / (d * e) : ℝ) : EReal)
      ↔ (0 : EReal) < ((a 0 * b 0 + a 1 * b 1 + a 2 * b 2 : ℝ) : EReal) := by
    rw [EReal.coe_pos, EReal.coe_pos]
    exact div_pos_iff_of_pos_right hde
  simp only [this]

end Cert.Net

end
-- ==== Proof.Feat.lean ====
/-
  The eight features of a point, and four arrays joined into them.

  A point's feature row is its unit normal (3 numbers), its unit view direction (3), its roughness and its base
  reflectance: positions 0–2, 3–5, 6 and 7 of a row of 8. Joining a `[R, 3]`, a `[R, 3]`, a `[R, 1]` and a `[R, 1]` array
  side by side gives an `[R, 8]` array whose row `r` is exactly that row of the four arrays' rows `r`.
-/
import proofs.«107359_g74294344286346_cont_9to1c4b_587_3_alg».proof.Proof.Spec

noncomputable section

namespace Cert.Net

open Idealize.ShloMosaic Idealize.ShloMosaic.ValueIdx

/-- The feature row `[a₀ a₁ a₂ b₀ b₁ b₂ c d]`. -/
def feat (a b : Fin 3 → EReal) (c d : EReal) : Fin 8 → EReal := fun i =>
  if h : i.val < 3 then a ⟨i.val, h⟩
  else if h2 : i.val < 6 then b ⟨i.val - 3, by omega⟩
  else if i.val = 6 then c else d

theorem feat_lo (a b : Fin 3 → EReal) (c d : EReal) (i : Fin 3) : feat a b c d (lo3of8 i) = a i := by
  unfold feat
  rw [dif_pos (show (lo3of8 i).val < 3 from i.isLt)]

/-- Four arrays joined along the columns, read at row `r` and column `i`: the feature row of their rows `r`. -/
theorem concat4_row {R : ℕ} (x0 x1 : (⟨2, ![R, 3]⟩ : Shape).Idx → EReal) (x2 x3 : (⟨2, ![R, 1]⟩ : Shape).Idx → EReal)
    (h : Shape.Concatenates ([⟨⟨2, ![R, 3]⟩, x0⟩, ⟨⟨2, ![R, 3]⟩, x1⟩, ⟨⟨2, ![R, 1]⟩, x2⟩, ⟨⟨2, ![R, 1]⟩, x3⟩].map
      (fun p : (s : Shape) × (s.Idx → EReal) => p.1)) ⟨2, ![R, 8]⟩ 1)
    (r : Fin R) (i : Fin 8) :
    concatenate ⟨2, ![R, 8]⟩ 1 [⟨⟨2, ![R, 3]⟩, x0⟩, ⟨⟨2, ![R, 3]⟩, x1⟩, ⟨⟨2, ![R, 1]⟩, x2⟩, ⟨⟨2, ![R, 1]⟩, x3⟩] h (ix2 r i)
      = feat (fun k => x0 (ix2 r k)) (fun k => x1 (ix2 r k)) (x2 (ix2 r (0 : Fin 1))) (x3 (ix2 r (0 : Fin 1))) i := by
  have hi := i.isLt
  unfold feat
  by_cases h3 : i.val < 3
  · rw [dif_pos h3]
    have e : i = ⟨0 + (⟨i.val, h3⟩ : Fin 3).val, by show 0 + i.val < 8; omega⟩ := Fin.ext (Nat.zero_add _).symm
    refine (congrArg (fun z => concatenate ⟨2, ![R, 8]⟩ 1 _ h (ix2 r z)) e).trans ?_
    exact Cert.Lib.concat_cols_apply _ h 0 (by simp) x0 rfl 0 rfl r ⟨i.val, h3⟩ _
  · rw [dif_neg h3]
    by_cases h6 : i.val < 6
    · rw [dif_pos h6]
      have e : i = ⟨3 + (⟨i.val - 3, by omega⟩ : Fin 3).val, by show 3 + (i.val - 3) < 8; omega⟩ :=
        Fin.ext (by show i.val = 3 + (i.val - 3); omega)
      refine (congrArg (fun z => concatenate ⟨2, ![R, 8]⟩ 1 _ h (ix2 r z)) e).trans ?_
      exact Cert.Lib.concat_cols_apply _ h 1 (by simp) x1 rfl 3 rfl r ⟨i.val - 3, by omega⟩ _
    · rw [dif_neg h6]
      by_cases h7 : i.val = 6
      · rw [if_pos h7]
        have e : i = ⟨6 + (0 : Fin 1).val, by decide⟩ := Fin.ext (by show i.val = 6 + 0; omega)
        refine (congrArg (fun z => concatenate ⟨2, ![R, 8]⟩ 1 _ h (ix2 r z)) e).trans ?_
        exact Cert.Lib.concat_cols_apply _ h 2 (by simp) x2 rfl 6 rfl r (0 : Fin 1) _
      · rw [if_neg h7]
        have e : i = ⟨7 + (0 : Fin 1).val, by decide⟩ := Fin.ext (by show i.val = 7 + 0; omega)
        refine (congrArg (fun z => concatenate ⟨2, ![R, 8]⟩ 1 _ h (ix2 r z)) e).trans ?_
        exact Cert.Lib.concat_cols_apply _ h 3 (by simp) x3 rfl 7 rfl r (0 : Fin 1) _

end Cert.Net

end
-- ==== Proof.Result.lean ====
/-
  What the two result arrays hold, as functions of the sixteen argument arrays.

  Row `g` of the normals and of the view directions is normalised (each entry divided by `max (√(row·row)) ε`). The
  diffuse colour of point `g` is the small network of three inputs applied to the unit normal; the specular colour is
  the network of eight inputs applied to the feature row (unit normal, unit view direction, roughness, base
  reflectance). Both are multiplied by the visibility gate of the inner product of the two unit vectors.
-/
import proofs.«107359_g74294344286346_cont_9to1c4b_587_3_alg».proof.Proof.Feat

noncomputable section

namespace Cert.Net

open Idealize.ShloMosaic Idealize.ShloMosaic.ValueIdx
open scoped BigOperators

/-- Row `g` of an `[N, 3]` array. -/
def row3 {N : ℕ} (X : (⟨2, ![N, 3]⟩ : Shape).Idx → EReal) (g : Fin N) : Fin 3 → EReal := fun k => X (ix2 g k)

/-- A matrix array as a function of its two coordinates. -/
def mat {a b : ℕ} (W : (⟨2, ![a, b]⟩ : Shape).Idx → EReal) : Fin a → Fin b → EReal := fun i j => W (ix2 i j)

/-- A vector array as a function of its coordinate. -/
def vec {n : ℕ} (v : (⟨1, ![n]⟩ : Shape).Idx → EReal) : Fin n → EReal := fun j => v (ix1 j)

/-- A row divided by its floored length. -/
def unit (x : Fin 3 → EReal) : Fin 3 → EReal := fun k => Ideal.div (x k) (den (∑ j, x j * x j))

/-- The visibility of a point: the gate of the inner product of its two unit vectors. -/
def visible (n v : Fin 3 → EReal) : EReal := gate (∑ k, unit n k * unit v k)

/-- The diffuse colour, channel `q` of point `g`. -/
def diffuse {N : ℕ} (n v : (⟨2, ![N, 3]⟩ : Shape).Idx → EReal)
    (dW1 : (⟨2, ![3, 32]⟩ : Shape).Idx → EReal) (db1 : (⟨1, ![32]⟩ : Shape).Idx → EReal)
    (dW2 : (⟨2, ![32, 32]⟩ : Shape).Idx → EReal) (db2 : (⟨1, ![32]⟩ : Shape).Idx → EReal)
    (dW3 : (⟨2, ![32, 3]⟩ : Shape).Idx → EReal) (db3 : (⟨1, ![3]⟩ : Shape).Idx → EReal) (g : Fin N) (q : Fin 3) : EReal :=
  mlp (unit (row3 n g)) (mat dW1) (vec db1) (mat dW2) (vec db2) (mat dW3) (vec db3) q * visible (row3 n g) (row3 v g)

/-- The specular colour, channel `q` of point `g`. -/
def specular {N : ℕ} (n v : (⟨2, ![N, 3]⟩ : Shape).Idx → EReal) (ro r0 : (⟨2, ![N, 1]⟩ : Shape).Idx → EReal)
    (sW1 : (⟨2, ![8, 32]⟩ : Shape).Idx → EReal) (sb1 : (⟨1, ![32]⟩ : Shape).Idx → EReal)
    (sW2 : (⟨2, ![32, 32]⟩ : Shape).Idx → EReal) (sb2 : (⟨1, ![32]⟩ : Shape).Idx → EReal)
    (sW3 : (⟨2, ![32, 3]⟩ : Shape).Idx → EReal) (sb3 : (⟨1, ![3]⟩ : Shape).Idx → EReal) (g : Fin N) (q : Fin 3) : EReal :=
  mlp (feat (unit (row3 n g)) (unit (row3 v g)) (ro (ix2 g (0 : Fin 1))) (r0 (ix2 g (0 : Fin 1))))
      (mat sW1) (vec sb1) (mat sW2) (vec sb2) (mat sW3) (vec sb3) q * visible (row3 n g) (row3 v g)

end Cert.Net

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibRowMax.lean ====
/-
  A row's maximum read at an index.

  A `vector.multi_reduction <maximumf>` of an `[R, K]` array over its second axis, read on the extended reals at row
  `p`, is the fold of `max` from the accumulator's value over the `K` entries `src (p, k)` of that row: the reduced index
  `(p)` with the coordinate `k` put back on the reduced axis is `(p, k)`.
-/
import Idealize.ShloMosaic.PureOps.Ideal.Laws
import Idealize.ShloMosaic.Lib.ValueIdx

noncomputable section

namespace Cert.Lib

open Idealize.ShloMosaic Idealize.ShloMosaic.ValueIdx

variable {R K : ℕ}

/-- The reduced index `(p)` with coordinate `k` inserted on axis 1 is `(p, k)`. -/
theorem lift_lastAxis2 (h : (⟨2, ![R, K]⟩ : Shape).Reduces [1] (⟨1, ![R]⟩ : Shape)) (p : Fin R)
    (k : Fin ((⟨2, ![R, K]⟩ : Shape).size 1)) : h.lift (ix1 p) k = ix2 p (⟨k.val, k.isLt⟩ : Fin K) := by
  funext c; apply Fin.ext
  fin_cases c <;> rfl

/-- A float maximum over the second axis of an `[R, K]` array, at row `p`: the fold of `max` over that row. -/
theorem multiReduction_maximumf_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin K)).fold max (Ideal.ofBits φ acc) (fun k => src (ix2 p k)) := by
  refine (Ideal.multiReduction_maximumf_single src acc h hφ hacc (ix1 p)).trans ?_
  have hf : (src ∘ h.lift (ix1 p)) = fun k : Fin K => src (ix2 p k) :=
    funext fun k => congrArg src (lift_lastAxis2 h p k)
  exact congrArg (fun f => Finset.fold max (Ideal.ofBits φ acc) f (Finset.univ : Finset (Fin K))) hf

end Cert.Lib

end
-- ==== Proof.LibRowSum.lean ====
/-
  A row's sum read at an index.

  A `vector.multi_reduction <add>` of an `[R, K]` array over its second axis, read on the extended reals at row `p`, is
  the sum of the `K` entries `src (p, k)` of that row (the accumulator is the additive neutral word, so nothing is added
  in front); the host's one-operand `reduce` with an add body over the same axis is its initial value plus that sum.
-/
import Idealize.ShloMosaic.PureOps.Ideal.Laws
import Idealize.ShloMosaic.Lib.ValueIdx
import proofs.«107359_g74294344286346_cont_9to1c4b_587_3_alg».proof.Proof.LibRowMax

noncomputable section

namespace Cert.Lib

open Idealize.ShloMosaic Idealize.ShloMosaic.ValueIdx
open scoped BigOperators

variable {R K : ℕ}

/-- A float sum over the second axis of an `[R, K]` array, at row `p`: the sum over that row. -/
theorem multiReduction_add_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin K, src (ix2 p k) := by
  refine (Ideal.multiReduction_add_single src acc h hφ hacc (ix1 p)).trans ?_
  exact Finset.sum_congr rfl fun k _ => congrArg src (lift_lastAxis2 h p k)

/-- The host's float sum over the second axis of an `[R, K]` array, at row `p`: the initial value plus the sum over that row. -/
theorem hostReduceAdd_rows {φ : FTy} {u : Shape} (x : FVec Ideal ⟨2, ![R, K]⟩ φ) (init : u.Idx → Ideal φ)
    (h' : (⟨2, ![R, K]⟩ : Shape).ReducesTo [1] (⟨1, ![R]⟩ : Shape)) (h : (⟨2, ![R, K]⟩ : Shape).Reduces [1] (⟨1, ![R]⟩ : Shape))
    (hu : 0 < u.numel) (p : Fin R) :
    Host.reduceAdd x init h' hu (ix1 p) = init (Shape.Idx.first hu) + ∑ k : Fin K, x (ix2 p k) := by
  unfold Host.reduceAdd
  rw [Ideal.hostReduceAdd_def, Ideal.hostReduceAdd_single h' h]
  exact congrArg (_ + ·) (Finset.sum_congr rfl fun k _ => congrArg x (lift_lastAxis2 h p k))

end Cert.Lib

end
-- ==== Proof.KernelRow.lean ====
/-
  One block of rows through the kernel's body, read at an index.

  The body works on 2048 rows at a time. For row `p` of the block: the rows of the two direction arrays are scaled by
  the reciprocal of their floored lengths (`unit`), the gate is taken of the inner product of the UNSCALED rows, the
  eight features are joined and sent through three dense layers (products of rows with weight columns plus a one-row
  bias, clamped at zero after the first two), and the six outputs are multiplied by the gate. Each lemma below reads one
  of these stages at `(p, ·)` as the plain sum or product it is on the extended reals.
-/
import proofs.«107359_g74294344286346_cont_9to1c4b_587_3_alg».proof.Proof.Gen.KernelIdeal.Skeleton
import proofs.«107359_g74294344286346_cont_9to1c4b_587_3_alg».proof.Proof.Result
import proofs.«107359_g74294344286346_cont_9to1c4b_587_3_alg».proof.Proof.LibMatDot
import proofs.«107359_g74294344286346_cont_9to1c4b_587_3_alg».proof.Proof.LibColumn
import proofs.«107359_g74294344286346_cont_9to1c4b_587_3_alg».proof.Proof.LibRowSum
import Idealize.ShloMosaic.Lib.ValueLayout
import Idealize.ShloMosaic.Lib.Pipeline.Value

noncomputable section

namespace Cert.KernelIdeal.Row

open Cert.KernelIdeal Cert.KernelIdeal.Gen Idealize.ShloMosaic Idealize.ShloMosaic.ValueIdx Cert.Lib Cert
open scoped BigOperators

/-! ## Generic stages -/

/-- A dense layer on a block: the product of rows with the weights' columns into a zero accumulator, plus the one-row
    bias repeated over the rows, at `(p, q)`. -/
theorem dense_at {a K b : ℕ} (wf : DotDims.WF ⟨2, ![a, K]⟩ ⟨2, ![K, b]⟩ ⟨2, ![a, b]⟩ [1] [0] [0] [1] [] [])
    (X : FVec Ideal ⟨2, ![a, K]⟩ .bf16) (W : FVec Ideal ⟨2, ![K, b]⟩ .bf16) (Bv : FVec Ideal ⟨2, ![1, b]⟩ .f32)
    (hb : (⟨2, ![1, b]⟩ : Shape).Broadcasts ⟨2, ![a, b]⟩) (p : Fin a) (q : Fin b) :
    addf (matmul (matDot wf) none X W (constant ⟨2, ![a, b]⟩ .f32 0x00000000#32)) (broadcastTo ⟨2, ![a, b]⟩ Bv hb) (ix2 p q)
      = (∑ k : Fin K, X (ix2 p k) * W (ix2 k q)) + Bv (ix2 (0 : Fin 1) q) := by
  refine (addf_apply _ _ _).trans ?_
  exact congrArg₂ (· + ·) (matmul_plain_zero_apply wf none X W p q) (broadcastTo_1b_ab_apply Bv hb p q)

/-- The inner product of rows `p` of two `[2048, 3]` blocks, as the body computes it: a lane sum recast as a column. -/
theorem dot_col (X Y : FVec Ideal S2048x3 .f32) (hr : S2048x3.Reduces [1] S2048) (hφ : FKind.Formats .f32)
    (hacc : (0x00000000#32 : BitVec FTy.f32.bits) = FKind.add.neutral .f32 hφ) (hs : S2048.ShapeCasts S2048x1)
    (p : Fin 2048) (u : Fin 1) :
    shapeCast S2048x1 (multiReduction .add [1] S2048 (mulf X Y) 0x00000000#32 hr hφ hacc) hs (ix2 p u)
      = ∑ k : Fin 3, X (ix2 p k) * Y (ix2 p k) :=
  (shapeCast_a_a1_apply _ hs p u).trans (multiReduction_add_rows (mulf X Y) _ hr hφ hacc p)

/-- A block of rows scaled by the reciprocals of their floored lengths: the unit rows. -/
theorem unit_at (X : FVec Ideal S2048x3 .f32) (hr : S2048x3.Reduces [1] S2048) (hφ : FKind.Formats .f32)
    (hacc : (0x00000000#32 : BitVec FTy.f32.bits) = FKind.add.neutral .f32 hφ) (hs : S2048.ShapeCasts S2048x1)
    (hb : S2048x1.Broadcasts S2048x3) (p : Fin 2048) (k : Fin 3) :
    mulf X (broadcastTo S2048x3 (divf (broadcast S2048x1 (Scalar.ofBits .f32 0x3F800000#32))
      (maximumf (sqrt (shapeCast S2048x1 (multiReduction .add [1] S2048 (mulf X X) 0x00000000#32 hr hφ hacc) hs))
        (broadcast S2048x1 (Scalar.ofBits .f32 0x2B8CBCCC#32)))) hb) (ix2 p k)
      = Net.unit (Net.row3 X p) k := by
  refine (mulf_apply _ _ _).trans ?_
  rw [broadcastTo_a1_ab_apply]
  show _ = Ideal.div (X (ix2 p k)) (Net.den (∑ j, X (ix2 p j) * X (ix2 p j)))
  refine Eq.trans ?_ (Net.mul_recip _ _)
  refine congrArg (X (ix2 p k) * ·) ?_
  show Ideal.div (Ideal.ofBits .f32 0x3F800000#32)
    (max (Ideal.sqrt (shapeCast S2048x1 (multiReduction .add [1] S2048 (mulf X X) 0x00000000#32 hr hφ hacc) hs (ix2 p (0 : Fin 1))))
      (Ideal.ofBits .f32 0x2B8CBCCC#32)) = _
  rw [dot_col, one_word_f32]
  rfl

/-! ## The body's payloads -/

/-- The gate of a block's rows: the comparison of the rows' inner product with zero, widened and read as a number. -/
theorem mask_at (X Y : Vec Ideal S2048x3 .f32) (p : Fin 2048) (u : Fin 1) :
    k0_pay4 X Y (ix2 p u) = Net.gate (∑ k : Fin 3, X (ix2 p k) * Y (ix2 p k)) := by
  unfold k0_pay4
  show FloatOps.sitofp (F := Ideal) .f32 ((FloatOps.cmpf (F := Ideal) (φ := .f32) .ogt
    (shapeCast S2048x1 (multiReduction .add [1] S2048 (mulf X Y) 0x00000000#32 _ _ _) _ (ix2 p u))
    (Ideal.ofBits .f32 0x00000000#32)).setWidth 32) = _
  refine Eq.trans ?_ (Net.gate_signed (∑ k : Fin 3, X (ix2 p k) * Y (ix2 p k)))
  exact congrArg₂ (fun a z => FloatOps.sitofp (F := Ideal) .f32 ((FloatOps.cmpf (F := Ideal) (φ := .f32) .ogt a z).setWidth 32))
    (dot_col X Y _ _ _ _ p u) Ideal.ofBits_zero_f32

/-- The first layer's products: the feature rows of the block against the first weight matrix. -/
theorem pay5_at (X Y : Vec Ideal S2048x3 .f32) (Rg R0 : Vec Ideal S2048x1 .f32) (W1 : Vec Ideal S8x64 .bf16)
    (p : Fin 2048) (j : Fin 64) :
    k0_pay5 X Y Rg R0 W1 (ix2 p j)
      = ∑ i : Fin 8, Net.feat (Net.unit (Net.row3 X p)) (Net.unit (Net.row3 Y p)) (Rg (ix2 p (0 : Fin 1))) (R0 (ix2 p (0 : Fin 1))) i
          * W1 (ix2 i j) := by
  unfold k0_pay5
  refine (matmul_plain_zero_apply Facts₀.dot_S2048x8_S8x64_S2048x64_1_0_0_1_n_n_wf none _ _ p j).trans ?_
  refine Finset.sum_congr rfl fun i _ => ?_
  refine congrArg₂ (· * ·) ?_ (congrFun (shapeCast_self W1 _) (ix2 i j))
  refine (Net.concat4_row _ _ _ _ Facts₀.concatenates_S2048x3_S2048x3_S2048x1_S2048x1_S2048x8_d1 p i).trans ?_
  exact congrArg₂ (fun a b => Net.feat a b (Rg (ix2 p (0 : Fin 1))) (R0 (ix2 p (0 : Fin 1))) i)
    (funext fun k => unit_at X _ _ _ _ _ p k) (funext fun k => unit_at Y _ _ _ _ _ p k)

/-- The rest of the body: bias and clamp of the first layer, the second and third dense layers, and the gate. -/
theorem pay1_at (M : FVec Ideal S2048x1 .f32) (H1 : FVec Ideal S2048x64 .f32) (B1 : FVec Ideal S1x64 .f32)
    (W2 : Vec Ideal S64x64 .bf16) (B2 : Vec Ideal S1x64 .f32) (W3 : Vec Ideal S64x6 .bf16) (B3 : Vec Ideal S1x6 .f32)
    (p : Fin 2048) (q : Fin 6) :
    k0_pay1 M H1 B1 W2 B2 W3 B3 (ix2 p q)
      = Net.lin (Net.relu (Net.lin (Net.relu (fun j => H1 (ix2 p j) + B1 (ix2 (0 : Fin 1) j))) (Net.mat W2)
            (fun k => B2 (ix2 (0 : Fin 1) k)))) (Net.mat W3) (fun q => B3 (ix2 (0 : Fin 1) q)) q * M (ix2 p (0 : Fin 1)) := by
  unfold k0_pay1
  refine (mulf_apply _ _ _).trans ?_
  refine congrArg₂ (· * ·) ?_ (broadcastTo_a1_ab_apply M _ p q)
  refine (dense_at Facts₀.dot_S2048x64_S64x6_S2048x6_1_0_0_1_n_n_wf _ _ _ _ p q).trans ?_
  refine congrArg₂ (· + ·) (Finset.sum_congr rfl fun k _ => congrArg₂ (· * ·) ?_ (congrFun (shapeCast_self W3 _) (ix2 k q)))
    (congrFun (shapeCast_self B3 _) (ix2 (0 : Fin 1) q))
  show max (_ : EReal) (Ideal.ofBits .f32 0x00000000#32) = max _ 0
  refine congrArg₂ max ?_ Ideal.ofBits_zero_f32
  refine (dense_at Facts₀.dot_S2048x64_S64x64_S2048x64_1_0_0_1_n_n_wf _ _ _ _ p k).trans ?_
  refine congrArg₂ (· + ·) (Finset.sum_congr rfl fun j _ => congrArg₂ (· * ·) ?_ (congrFun (shapeCast_self W2 _) (ix2 j k)))
    (congrFun (shapeCast_self B2 _) (ix2 (0 : Fin 1) k))
  show max (_ : EReal) (Ideal.ofBits .f32 0x00000000#32) = max _ 0
  refine congrArg₂ max ?_ Ideal.ofBits_zero_f32
  refine (addf_apply _ _ _).trans ?_
  exact congrArg (H1 (ix2 p j) + ·) (broadcastTo_1b_ab_apply B1 _ p j)

end Cert.KernelIdeal.Row

end
-- ==== Proof.KernelBlock.lean ====
/-
  What one grid point leaves in the two result blocks, row by row.

  For row `p` of the point's 2048 rows, the wide network is applied to the feature row built from the point's blocks, and
  its six outputs are multiplied by the gate of the inner product of the two direction rows. The first result block takes
  outputs 0–2, the second outputs 3–5.
-/
import proofs.«107359_g74294344286346_cont_9to1c4b_587_3_alg».proof.Proof.Gen.KernelIdeal.Value
import proofs.«107359_g74294344286346_cont_9to1c4b_587_3_alg».proof.Proof.KernelRow

noncomputable section

namespace Cert.KernelIdeal.Row

open Cert.KernelIdeal Cert.KernelIdeal.Gen Idealize.ShloMosaic Idealize.ShloMosaic.ValueIdx Cert.Lib Cert
open scoped BigOperators

variable (P0 P1 : Vec Ideal S2048x3 .f32) (P2 P3 : Vec Ideal S2048x1 .f32) (P4 : Vec Ideal S8x64 .bf16)
  (P5 : Vec Ideal S1x64 .f32) (P6 : Vec Ideal S64x64 .bf16) (P7 : Vec Ideal S1x64 .f32) (P8 : Vec Ideal S64x6 .bf16)
  (P9 : Vec Ideal S1x6 .f32)

/-- The wide network on row `p` of a point's blocks. -/
def wide (p : Fin 2048) : Fin 6 → EReal :=
  Net.mlp (Net.feat (Net.unit (Net.row3 P0 p)) (Net.unit (Net.row3 P1 p)) (P2 (ix2 p (0 : Fin 1))) (P3 (ix2 p (0 : Fin 1))))
    (Net.mat P4) (fun j => P5 (ix2 (0 : Fin 1) j)) (Net.mat P6) (fun k => P7 (ix2 (0 : Fin 1) k))
    (Net.mat P8) (fun q => P9 (ix2 (0 : Fin 1) q))

/-- The body's six gated outputs at row `p`. -/
theorem body_at (p : Fin 2048) (q : Fin 6) :
    k0_pay1 (k0_pay4 P0 P1) (k0_pay5 P0 P1 P2 P3 P4) (k0_pay6 P5) P6 P7 P8 P9 (ix2 p q)
      = wide P0 P1 P2 P3 P4 P5 P6 P7 P8 P9 p q * Net.gate (∑ k : Fin 3, P0 (ix2 p k) * P1 (ix2 p k)) := by
  refine (pay1_at _ _ _ _ _ _ _ p q).trans ?_
  refine congrArg₂ (· * ·) ?_ (mask_at P0 P1 p 0)
  have hf : (fun j : Fin 64 => k0_pay5 P0 P1 P2 P3 P4 (ix2 p j) + k0_pay6 P5 (ix2 (0 : Fin 1) j))
      = Net.lin (Net.feat (Net.unit (Net.row3 P0 p)) (Net.unit (Net.row3 P1 p)) (P2 (ix2 p (0 : Fin 1))) (P3 (ix2 p (0 : Fin 1))))
          (Net.mat P4) (fun j => P5 (ix2 (0 : Fin 1) j)) :=
    funext fun j => congrArg₂ (· + ·) (pay5_at P0 P1 P2 P3 P4 p j) (congrFun (shapeCast_self P5 _) (ix2 (0 : Fin 1) j))
  exact congrArg (fun f => Net.lin (Net.relu (Net.lin (Net.relu f) (Net.mat P6) (fun k => P7 (ix2 (0 : Fin 1) k))))
    (Net.mat P8) (fun q => P9 (ix2 (0 : Fin 1) q)) q) hf

theorem idx10 (p : Fin 2048) (k : Fin 3) : Value.ix10_0 (ix2 p k) = ix2 p (Net.lo3 k) :=
  funext fun a => Fin.ext (by match a with | ⟨0, _⟩ => rfl | ⟨1, _⟩ => rfl)

theorem idx11 (p : Fin 2048) (k : Fin 3) : Value.ix11_0 (ix2 p k) = ix2 p (Net.hi3 k) :=
  funext fun a => Fin.ext (by
    match a with
    | ⟨0, _⟩ => rfl
    | ⟨1, _⟩ => show k.val + 3 = 3 + k.val; omega)

/-- The first result block at `(p, k)`: output `k` of the wide network, gated. -/
theorem canon10_at (p : Fin 2048) (k : Fin 3) :
    View.canon ([⟨r0_0, k0_pay2 (k0_pay4 P0 P1) (k0_pay5 P0 P1 P2 P3 P4) (k0_pay6 P5) P6 P7 P8 P9⟩] :
        List (View.Piece (Elt Ideal) S2048x3 .f32)) (ix2 p k)
      = wide P0 P1 P2 P3 P4 P5 P6 P7 P8 P9 p (Net.lo3 k) * Net.gate (∑ j : Fin 3, P0 (ix2 p j) * P1 (ix2 p j)) := by
  refine (Value.canon10_eq P0 P1 P2 P3 P4 P5 P6 P7 P8 P9 (ix2 p k)).trans ?_
  show k0_pay1 _ _ _ P6 P7 P8 P9 (Value.ix10_0 (ix2 p k)) = _
  rw [idx10]
  exact body_at P0 P1 P2 P3 P4 P5 P6 P7 P8 P9 p (Net.lo3 k)

/-- The second result block at `(p, k)`: output `3 + k` of the wide network, gated. -/
theorem canon11_at (p : Fin 2048) (k : Fin 3) :
    View.canon ([⟨r0_0, k0_pay3 (k0_pay4 P0 P1) (k0_pay5 P0 P1 P2 P3 P4) (k0_pay6 P5) P6 P7 P8 P9⟩] :
        List (View.Piece (Elt Ideal) S2048x3 .f32)) (ix2 p k)
      = wide P0 P1 P2 P3 P4 P5 P6 P7 P8 P9 p (Net.hi3 k) * Net.gate (∑ j : Fin 3, P0 (ix2 p j) * P1 (ix2 p j)) := by
  refine (Value.canon11_eq P0 P1 P2 P3 P4 P5 P6 P7 P8 P9 (ix2 p k)).trans ?_
  show k0_pay1 _ _ _ P6 P7 P8 P9 (Value.ix11_0 (ix2 p k)) = _
  rw [idx11]
  exact body_at P0 P1 P2 P3 P4 P5 P6 P7 P8 P9 p (Net.hi3 k)

end Cert.KernelIdeal.Row

end
-- ==== Proof.LibPair.lean ====
/-
  Two arrays joined, read at an index; a scalar repeated, read at an index.

  Joining two arrays along an axis gives an array whose coordinate on that axis runs first through the first piece and
  then through the second: a coordinate below the first piece's extent reads the first piece at the same index, a
  coordinate `n₁ + j` reads the second piece with `j` on that axis. Stated for two matrices side by side (columns), two
  matrices one above the other (rows), and two vectors end to end. A scalar repeated over any shape reads the scalar
  everywhere.
-/
import Idealize.ShloMosaic.Lib.Pipeline.Value
import Idealize.ShloMosaic.Lib.ValueIdx

noncomputable section

namespace Cert.Lib

open Idealize.ShloMosaic Idealize.ShloMosaic.ValueIdx

variable {α : Type}

/-- A scalar repeated over a shape reads the scalar at every index. -/
theorem splat_apply {t : Shape} (x : (⟨0, ![]⟩ : Shape).Idx → α)
    (h : (⟨0, ![]⟩ : Shape).BroadcastsInDim t (![] : Fin 0 → Fin t.rank)) (i : t.Idx) :
    broadcastInDim t ![] h x i = x ix0 :=
  broadcastInDim_apply _ h x i ix0 fun a => a.elim0

/-- Two matrices side by side: a column of the first. -/
theorem pair_cols_left {R n₁ n₂ C : ℕ} (x₁ : (⟨2, ![R, n₁]⟩ : Shape).Idx → α) (x₂ : (⟨2, ![R, n₂]⟩ : Shape).Idx → α)
    (h : Shape.Concatenates [⟨2, ![R, n₁]⟩, ⟨2, ![R, n₂]⟩] ⟨2, ![R, C]⟩ 1) (r : Fin R) (j : Fin n₁) (hj : j.val < C) :
    concatenate ⟨2, ![R, C]⟩ 1 [⟨⟨2, ![R, n₁]⟩, x₁⟩, ⟨⟨2, ![R, n₂]⟩, x₂⟩] h (ix2 r ⟨j.val, hj⟩) = x₁ (ix2 r j) :=
  concatenate_pair_apply_left 1 x₁ x₂ h _ rfl (ix2 r j) (fun b => match b with | ⟨0, _⟩ => rfl | ⟨1, _⟩ => rfl)

/-- Two matrices side by side: a column of the second. -/
theorem pair_cols_right {R n₁ n₂ C : ℕ} (x₁ : (⟨2, ![R, n₁]⟩ : Shape).Idx → α) (x₂ : (⟨2, ![R, n₂]⟩ : Shape).Idx → α)
    (h : Shape.Concatenates [⟨2, ![R, n₁]⟩, ⟨2, ![R, n₂]⟩] ⟨2, ![R, C]⟩ 1) (r : Fin R) (j : Fin n₂) (hj : n₁ + j.val < C) :
    concatenate ⟨2, ![R, C]⟩ 1 [⟨⟨2, ![R, n₁]⟩, x₁⟩, ⟨⟨2, ![R, n₂]⟩, x₂⟩] h (ix2 r ⟨n₁ + j.val, hj⟩) = x₂ (ix2 r j) :=
  concatenate_pair_apply_right 1 x₁ x₂ h _ rfl rfl (ix2 r j)
    (fun b hb => match b with | ⟨0, _⟩ => rfl | ⟨1, _⟩ => absurd rfl hb)
    (by show j.val + n₁ = n₁ + j.val; omega)

/-- Two matrices one above the other: a row of the first. -/
theorem pair_rows_top {a₁ a₂ A C : ℕ} (x₁ : (⟨2, ![a₁, C]⟩ : Shape).Idx → α) (x₂ : (⟨2, ![a₂, C]⟩ : Shape).Idx → α)
    (h : Shape.Concatenates [⟨2, ![a₁, C]⟩, ⟨2, ![a₂, C]⟩] ⟨2, ![A, C]⟩ 0) (i : Fin a₁) (c : Fin C) (hi : i.val < A) :
    concatenate ⟨2, ![A, C]⟩ 0 [⟨⟨2, ![a₁, C]⟩, x₁⟩, ⟨⟨2, ![a₂, C]⟩, x₂⟩] h (ix2 ⟨i.val, hi⟩ c) = x₁ (ix2 i c) :=
  concatenate_pair_apply_left 0 x₁ x₂ h _ rfl (ix2 i c) (fun b => match b with | ⟨0, _⟩ => rfl | ⟨1, _⟩ => rfl)

/-- Two matrices one above the other: a row of the second. -/
theorem pair_rows_bottom {a₁ a₂ A C : ℕ} (x₁ : (⟨2, ![a₁, C]⟩ : Shape).Idx → α) (x₂ : (⟨2, ![a₂, C]⟩ : Shape).Idx → α)
    (h : Shape.Concatenates [⟨2, ![a₁, C]⟩, ⟨2, ![a₂, C]⟩] ⟨2, ![A, C]⟩ 0) (i : Fin a₂) (c : Fin C) (hi : a₁ + i.val < A) :
    concatenate ⟨2, ![A, C]⟩ 0 [⟨⟨2, ![a₁, C]⟩, x₁⟩, ⟨⟨2, ![a₂, C]⟩, x₂⟩] h (ix2 ⟨a₁ + i.val, hi⟩ c) = x₂ (ix2 i c) :=
  concatenate_pair_apply_right 0 x₁ x₂ h _ rfl rfl (ix2 i c)
    (fun b hb => match b with | ⟨0, _⟩ => absurd rfl hb | ⟨1, _⟩ => rfl)
    (by show i.val + a₁ = a₁ + i.val; omega)

/-- Two vectors end to end: an entry of the first. -/
theorem pair_vec_left {n₁ n₂ N : ℕ} (x₁ : (⟨1, ![n₁]⟩ : Shape).Idx → α) (x₂ : (⟨1, ![n₂]⟩ : Shape).Idx → α)
    (h : Shape.Concatenates [⟨1, ![n₁]⟩, ⟨1, ![n₂]⟩] ⟨1, ![N]⟩ 0) (j : Fin n₁) (hj : j.val < N) :
    concatenate ⟨1, ![N]⟩ 0 [⟨⟨1, ![n₁]⟩, x₁⟩, ⟨⟨1, ![n₂]⟩, x₂⟩] h (ix1 ⟨j.val, hj⟩) = x₁ (ix1 j) :=
  concatenate_pair_apply_left 0 x₁ x₂ h _ rfl (ix1 j) (fun b => match b with | ⟨0, _⟩ => rfl)

/-- Two vectors end to end: an entry of the second. -/
theorem pair_vec_right {n₁ n₂ N : ℕ} (x₁ : (⟨1, ![n₁]⟩ : Shape).Idx → α) (x₂ : (⟨1, ![n₂]⟩ : Shape).Idx → α)
    (h : Shape.Concatenates [⟨1, ![n₁]⟩, ⟨1, ![n₂]⟩] ⟨1, ![N]⟩ 0) (j : Fin n₂) (hj : n₁ + j.val < N) :
    concatenate ⟨1, ![N]⟩ 0 [⟨⟨1, ![n₁]⟩, x₁⟩, ⟨⟨1, ![n₂]⟩, x₂⟩] h (ix1 ⟨n₁ + j.val, hj⟩) = x₂ (ix1 j) :=
  concatenate_pair_apply_right 0 x₁ x₂ h _ rfl rfl (ix1 j)
    (fun b hb => match b with | ⟨0, _⟩ => absurd rfl hb)
    (by show j.val + n₁ = n₁ + j.val; omega)

end Cert.Lib

end
-- ==== Proof.LibAsRow.lean ====
/-
  A vector as one row.

  A vector of `n` entries laid out as a `[1, n]` array reads, at `(u, k)`, the vector's entry `k`. Two layout operations
  produce that array: a reshape `[n] → [1, n]`, and a broadcast of `[n]` into `[1, n]` that sends the vector's axis to
  the array's second axis. Both are the same function of the vector.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type} {n : ℕ}

/-- The `[1, n]` array whose one row is the vector `v`. -/
def asRow (v : (⟨1, ![n]⟩ : Shape).Idx → α) : (⟨2, ![1, n]⟩ : Shape).Idx → α := fun i => v (ix1 (i 1))

theorem asRow_apply (v : (⟨1, ![n]⟩ : Shape).Idx → α) (u : Fin 1) (k : Fin n) : asRow v (ix2 u k) = v (ix1 k) := rfl

/-- A vector reshaped to `[1, n]` is the vector as one row. -/
theorem shapeCast_eq_asRow (v : (⟨1, ![n]⟩ : Shape).Idx → α) (h : (⟨1, ![n]⟩ : Shape).ShapeCasts ⟨2, ![1, n]⟩) :
    shapeCast ⟨2, ![1, n]⟩ v h = asRow v :=
  funext fun i => (congrArg (shapeCast ⟨2, ![1, n]⟩ v h) (eq_ix2 i)).trans (shapeCast_a_1a_apply v h (i 0) (i 1))

/-- A vector broadcast into `[1, n]` along the second axis is the vector as one row. -/
theorem broadcastInDim_eq_asRow (v : (⟨1, ![n]⟩ : Shape).Idx → α)
    (h : (⟨1, ![n]⟩ : Shape).BroadcastsInDim ⟨2, ![1, n]⟩ (![1] : Fin 1 → Fin 2)) :
    broadcastInDim ⟨2, ![1, n]⟩ ![1] h v = asRow v :=
  funext fun i => broadcastInDim_apply _ h v i (ix1 (i 1)) (fun a => match a with
    | ⟨0, _⟩ => by
      show (i 1).val = if n = 1 then 0 else (i 1).val
      have h1 : (i 1).val < n := (i 1).isLt
      split
      · omega
      · rfl)

end Cert.Lib

end
-- ==== Proof.Weights.lean ====
/-
  The wide network's weights, as the kernel finds them.

  Before the kernel runs, the two networks' weights are joined into the wide network's: the first weight matrix is the
  3-input network's `[3, 32]` matrix padded with five zero rows, set beside the 8-input network's `[8, 32]` matrix; the
  second and third are block-diagonal (`[A 0; 0 B]`); each bias is the two biases end to end, laid out as one row. A
  change of float format is the identity on the extended reals. Read at an index these joined arrays therefore hold the
  two networks' weights in their diagonal blocks and zero elsewhere: exactly the block structure under which the wide
  network computes both narrow ones.
-/
import proofs.«107359_g74294344286346_cont_9to1c4b_587_3_alg».proof.Proof.Gen.KernelIdeal.Frame
import proofs.«107359_g74294344286346_cont_9to1c4b_587_3_alg».proof.Proof.Result
import proofs.«107359_g74294344286346_cont_9to1c4b_587_3_alg».proof.Proof.LibPair
import proofs.«107359_g74294344286346_cont_9to1c4b_587_3_alg».proof.Proof.LibAsRow
import Idealize.ShloMosaic.Lib.StableHlo.Run

noncomputable section

namespace Cert.KernelIdeal.Weights

open Cert.KernelIdeal Cert.KernelIdeal.Gen Idealize.ShloMosaic Idealize.ShloMosaic.TcCoe Idealize.SL.Sem
open Idealize.ShloMosaic.ValueIdx Idealize.ShloMosaic.StableHlo Cert.Lib Cert

variable (m : (ℓ : Loc nD τ sig) → Buf (Elt Ideal) ℓ) (c : Dev nD)

/-- The argument arrays as launched. -/
abbrev dW1 : S3x32.Idx → EReal := m ((c : Thread nD τ).loc main_arg4)
abbrev db1 : S32.Idx → EReal := m ((c : Thread nD τ).loc main_arg5)
abbrev dW2 : S32x32.Idx → EReal := m ((c : Thread nD τ).loc main_arg6)
abbrev db2 : S32.Idx → EReal := m ((c : Thread nD τ).loc main_arg7)
abbrev dW3 : S32x3.Idx → EReal := m ((c : Thread nD τ).loc main_arg8)
abbrev db3 : S3.Idx → EReal := m ((c : Thread nD τ).loc main_arg9)
abbrev sW1 : S8x32.Idx → EReal := m ((c : Thread nD τ).loc main_arg10)
abbrev sb1 : S32.Idx → EReal := m ((c : Thread nD τ).loc main_arg11)
abbrev sW2 : S32x32.Idx → EReal := m ((c : Thread nD τ).loc main_arg12)
abbrev sb2 : S32.Idx → EReal := m ((c : Thread nD τ).loc main_arg13)
abbrev sW3 : S32x3.Idx → EReal := m ((c : Thread nD τ).loc main_arg14)
abbrev sb3 : S3.Idx → EReal := m ((c : Thread nD τ).loc main_arg15)

/-- The all-zero array of a shape, as the host makes it: the zero constant repeated. -/
abbrev zeros (t : Shape) (h : S_.BroadcastsInDim t (![] : Fin 0 → Fin t.rank)) : t.Idx → EReal :=
  broadcastInDim t ![] h (constant (F := Ideal) S_ .f32 0x00000000#32)

theorem zeros_apply (t : Shape) (h : S_.BroadcastsInDim t (![] : Fin 0 → Fin t.rank)) (i : t.Idx) : zeros t h i = 0 :=
  (splat_apply _ h i).trans Ideal.ofBits_zero_f32

/-! ## The joined arrays -/

theorem W1_eq : (V m c main_call0_v3 : S8x64.Idx → EReal)
    = truncf (F := Ideal) .bf16 (concatenate S8x64 1 [⟨S8x32, concatenate S8x32 0 [⟨S3x32, dW1 m c⟩, ⟨S5x32, zeros S5x32 Facts₀.bcast_S_S5x32⟩]
        Facts₀.concatenates_S3x32_S5x32_S8x32_d0⟩, ⟨S8x32, sW1 m c⟩] Facts₀.concatenates_S8x32_S8x32_S8x64_d1) Facts₀.bitsLt_bf16_f32 := by
  dsimp only [Gen.V, Gen.hostOps0]; after_results; rfl

theorem B1_eq : (V m c main_call0_v5 : S1x64.Idx → EReal)
    = broadcastInDim S1x64 ![1] Facts₀.bcast_S64_S1x64_1
        (concatenate S64 0 [⟨S32, db1 m c⟩, ⟨S32, sb1 m c⟩] Facts₀.concatenates_S32_S32_S64_d0) := by
  dsimp only [Gen.V, Gen.hostOps0]; after_results; rfl

theorem W2_eq : (V m c main_call0_v10 : S64x64.Idx → EReal)
    = truncf (F := Ideal) .bf16 (concatenate S64x64 0
        [⟨S32x64, concatenate S32x64 1 [⟨S32x32, dW2 m c⟩, ⟨S32x32, zeros S32x32 Facts₀.bcast_S_S32x32⟩] Facts₀.concatenates_S32x32_S32x32_S32x64_d1⟩,
         ⟨S32x64, concatenate S32x64 1 [⟨S32x32, zeros S32x32 Facts₀.bcast_S_S32x32⟩, ⟨S32x32, sW2 m c⟩] Facts₀.concatenates_S32x32_S32x32_S32x64_d1⟩]
        Facts₀.concatenates_S32x64_S32x64_S64x64_d0) Facts₀.bitsLt_bf16_f32 := by
  dsimp only [Gen.V, Gen.hostOps0]; after_results; rfl

theorem B2_eq : (V m c main_call0_v12 : S1x64.Idx → EReal)
    = broadcastInDim S1x64 ![1] Facts₀.bcast_S64_S1x64_1
        (concatenate S64 0 [⟨S32, db2 m c⟩, ⟨S32, sb2 m c⟩] Facts₀.concatenates_S32_S32_S64_d0) := by
  dsimp only [Gen.V, Gen.hostOps0]; after_results; rfl

theorem W3_eq : (V m c main_call0_v17 : S64x6.Idx → EReal)
    = truncf (F := Ideal) .bf16 (concatenate S64x6 0
        [⟨S32x6, concatenate S32x6 1 [⟨S32x3, dW3 m c⟩, ⟨S32x3, zeros S32x3 Facts₀.bcast_S_S32x3⟩] Facts₀.concatenates_S32x3_S32x3_S32x6_d1⟩,
         ⟨S32x6, concatenate S32x6 1 [⟨S32x3, zeros S32x3 Facts₀.bcast_S_S32x3⟩, ⟨S32x3, sW3 m c⟩] Facts₀.concatenates_S32x3_S32x3_S32x6_d1⟩]
        Facts₀.concatenates_S32x6_S32x6_S64x6_d0) Facts₀.bitsLt_bf16_f32 := by
  dsimp only [Gen.V, Gen.hostOps0]; after_results; rfl

theorem B3_eq : (V m c main_call0_v19 : S1x6.Idx → EReal)
    = broadcastInDim S1x6 ![1] Facts₀.bcast_S6_S1x6_1
        (concatenate S6 0 [⟨S3, db3 m c⟩, ⟨S3, sb3 m c⟩] Facts₀.concatenates_S3_S3_S6_d0) := by
  dsimp only [Gen.V, Gen.hostOps0]; after_results; rfl

/-! ## Their block structure -/

theorem b_at {n : ℕ} (v : (⟨1, ![n]⟩ : Shape).Idx → EReal)
    (h : (⟨1, ![n]⟩ : Shape).BroadcastsInDim ⟨2, ![1, n]⟩ (![1] : Fin 1 → Fin 2)) (k : Fin n) :
    broadcastInDim ⟨2, ![1, n]⟩ ![1] h v (ix2 (0 : Fin 1) k) = v (ix1 k) :=
  congrFun (broadcastInDim_eq_asRow v h) (ix2 (0 : Fin 1) k)

/-- The joined arrays hold the two networks' weights in diagonal blocks, zeros elsewhere. -/
theorem blocks : Net.Blocks
    (Net.mat (V m c main_call0_v3 : S8x64.Idx → EReal)) (fun j => (V m c main_call0_v5 : S1x64.Idx → EReal) (ix2 (0 : Fin 1) j))
    (Net.mat (V m c main_call0_v10 : S64x64.Idx → EReal)) (fun k => (V m c main_call0_v12 : S1x64.Idx → EReal) (ix2 (0 : Fin 1) k))
    (Net.mat (V m c main_call0_v17 : S64x6.Idx → EReal)) (fun q => (V m c main_call0_v19 : S1x6.Idx → EReal) (ix2 (0 : Fin 1) q))
    (Net.mat (dW1 m c)) (Net.vec (db1 m c)) (Net.mat (dW2 m c)) (Net.vec (db2 m c)) (Net.mat (dW3 m c)) (Net.vec (db3 m c))
    (Net.mat (sW1 m c)) (Net.vec (sb1 m c)) (Net.mat (sW2 m c)) (Net.vec (sb2 m c)) (Net.mat (sW3 m c)) (Net.vec (sb3 m c)) where
  w1_dd i j := by
    show (V m c main_call0_v3 : S8x64.Idx → EReal) (ix2 (Net.lo3of8 i) (Net.lo32 j)) = _
    rw [W1_eq]
    exact (pair_cols_left _ _ Facts₀.concatenates_S8x32_S8x32_S8x64_d1 (Net.lo3of8 i) j _).trans
      (pair_rows_top _ _ Facts₀.concatenates_S3x32_S5x32_S8x32_d0 i j _)
  w1_zd i j := by
    show (V m c main_call0_v3 : S8x64.Idx → EReal) (ix2 (Net.hi5of8 i) (Net.lo32 j)) = _
    rw [W1_eq]
    exact (pair_cols_left _ _ Facts₀.concatenates_S8x32_S8x32_S8x64_d1 (Net.hi5of8 i) j _).trans
      ((pair_rows_bottom _ _ Facts₀.concatenates_S3x32_S5x32_S8x32_d0 i j _).trans (zeros_apply _ _ _))
  w1_s i j := by
    show (V m c main_call0_v3 : S8x64.Idx → EReal) (ix2 i (Net.hi32 j)) = _
    rw [W1_eq]
    exact pair_cols_right _ _ Facts₀.concatenates_S8x32_S8x32_S8x64_d1 i j _
  b1_d j := by
    show (V m c main_call0_v5 : S1x64.Idx → EReal) (ix2 (0 : Fin 1) (Net.lo32 j)) = _
    rw [B1_eq]
    exact (b_at _ _ (Net.lo32 j)).trans (pair_vec_left _ _ Facts₀.concatenates_S32_S32_S64_d0 j _)
  b1_s j := by
    show (V m c main_call0_v5 : S1x64.Idx → EReal) (ix2 (0 : Fin 1) (Net.hi32 j)) = _
    rw [B1_eq]
    exact (b_at _ _ (Net.hi32 j)).trans (pair_vec_right _ _ Facts₀.concatenates_S32_S32_S64_d0 j _)
  w2_dd j k := by
    show (V m c main_call0_v10 : S64x64.Idx → EReal) (ix2 (Net.lo32 j) (Net.lo32 k)) = _
    rw [W2_eq]
    exact (pair_rows_top _ _ Facts₀.concatenates_S32x64_S32x64_S64x64_d0 j (Net.lo32 k) _).trans
      (pair_cols_left _ _ Facts₀.concatenates_S32x32_S32x32_S32x64_d1 j k _)
  w2_ds j k := by
    show (V m c main_call0_v10 : S64x64.Idx → EReal) (ix2 (Net.lo32 j) (Net.hi32 k)) = _
    rw [W2_eq]
    exact (pair_rows_top _ _ Facts₀.concatenates_S32x64_S32x64_S64x64_d0 j (Net.hi32 k) _).trans
      ((pair_cols_right _ _ Facts₀.concatenates_S32x32_S32x32_S32x64_d1 j k _).trans (zeros_apply _ _ _))
  w2_sd j k := by
    show (V m c main_call0_v10 : S64x64.Idx → EReal) (ix2 (Net.hi32 j) (Net.lo32 k)) = _
    rw [W2_eq]
    exact (pair_rows_bottom _ _ Facts₀.concatenates_S32x64_S32x64_S64x64_d0 j (Net.lo32 k) _).trans
      ((pair_cols_left _ _ Facts₀.concatenates_S32x32_S32x32_S32x64_d1 j k _).trans (zeros_apply _ _ _))
  w2_ss j k := by
    show (V m c main_call0_v10 : S64x64.Idx → EReal) (ix2 (Net.hi32 j) (Net.hi32 k)) = _
    rw [W2_eq]
    exact (pair_rows_bottom _ _ Facts₀.concatenates_S32x64_S32x64_S64x64_d0 j (Net.hi32 k) _).trans
      (pair_cols_right _ _ Facts₀.concatenates_S32x32_S32x32_S32x64_d1 j k _)
  b2_d k := by
    show (V m c main_call0_v12 : S1x64.Idx → EReal) (ix2 (0 : Fin 1) (Net.lo32 k)) = _
    rw [B2_eq]
    exact (b_at _ _ (Net.lo32 k)).trans (pair_vec_left _ _ Facts₀.concatenates_S32_S32_S64_d0 k _)
  b2_s k := by
    show (V m c main_call0_v12 : S1x64.Idx → EReal) (ix2 (0 : Fin 1) (Net.hi32 k)) = _
    rw [B2_eq]
    exact (b_at _ _ (Net.hi32 k)).trans (pair_vec_right _ _ Facts₀.concatenates_S32_S32_S64_d0 k _)
  w3_dd k q := by
    show (V m c main_call0_v17 : S64x6.Idx → EReal) (ix2 (Net.lo32 k) (Net.lo3 q)) = _
    rw [W3_eq]
    exact (pair_rows_top _ _ Facts₀.concatenates_S32x6_S32x6_S64x6_d0 k (Net.lo3 q) _).trans
      (pair_cols_left _ _ Facts₀.concatenates_S32x3_S32x3_S32x6_d1 k q _)
  w3_ds k q := by
    show (V m c main_call0_v17 : S64x6.Idx → EReal) (ix2 (Net.lo32 k) (Net.hi3 q)) = _
    rw [W3_eq]
    exact (pair_rows_top _ _ Facts₀.concatenates_S32x6_S32x6_S64x6_d0 k (Net.hi3 q) _).trans
      ((pair_cols_right _ _ Facts₀.concatenates_S32x3_S32x3_S32x6_d1 k q _).trans (zeros_apply _ _ _))
  w3_sd k q := by
    show (V m c main_call0_v17 : S64x6.Idx → EReal) (ix2 (Net.hi32 k) (Net.lo3 q)) = _
    rw [W3_eq]
    exact (pair_rows_bottom _ _ Facts₀.concatenates_S32x6_S32x6_S64x6_d0 k (Net.lo3 q) _).trans
      ((pair_cols_left _ _ Facts₀.concatenates_S32x3_S32x3_S32x6_d1 k q _).trans (zeros_apply _ _ _))
  w3_ss k q := by
    show (V m c main_call0_v17 : S64x6.Idx → EReal) (ix2 (Net.hi32 k) (Net.hi3 q)) = _
    rw [W3_eq]
    exact (pair_rows_bottom _ _ Facts₀.concatenates_S32x6_S32x6_S64x6_d0 k (Net.hi3 q) _).trans
      (pair_cols_right _ _ Facts₀.concatenates_S32x3_S32x3_S32x6_d1 k q _)
  b3_d q := by
    show (V m c main_call0_v19 : S1x6.Idx → EReal) (ix2 (0 : Fin 1) (Net.lo3 q)) = _
    rw [B3_eq]
    exact (b_at _ _ (Net.lo3 q)).trans (pair_vec_left _ _ Facts₀.concatenates_S3_S3_S6_d0 q _)
  b3_s q := by
    show (V m c main_call0_v19 : S1x6.Idx → EReal) (ix2 (0 : Fin 1) (Net.hi3 q)) = _
    rw [B3_eq]
    exact (b_at _ _ (Net.hi3 q)).trans (pair_vec_right _ _ Facts₀.concatenates_S3_S3_S6_d0 q _)

end Cert.KernelIdeal.Weights

end
-- ==== Proof.Bridge.lean ====
/-
  From the wide network to the two narrow ones, per point.

  With the block structure of the joined weights, outputs 0–2 of the wide network on the feature row are the 3-input
  network on the unit normal, and outputs 3–5 are the 8-input network on the whole feature row. The kernel gates by the
  sign of the inner product of the raw rows, the specification by that of the unit rows: for rows of reals the two gates
  agree.
-/
import proofs.«107359_g74294344286346_cont_9to1c4b_587_3_alg».proof.Proof.Result

noncomputable section

namespace Cert.Net

open Idealize.ShloMosaic
open scoped BigOperators

variable {W1 : Fin 8 → Fin 64 → EReal} {b1 : Fin 64 → EReal} {W2 : Fin 64 → Fin 64 → EReal} {b2 : Fin 64 → EReal}
    {W3 : Fin 64 → Fin 6 → EReal} {b3 : Fin 6 → EReal}
    {dW1 : Fin 3 → Fin 32 → EReal} {db1 : Fin 32 → EReal} {dW2 : Fin 32 → Fin 32 → EReal} {db2 : Fin 32 → EReal}
    {dW3 : Fin 32 → Fin 3 → EReal} {db3 : Fin 3 → EReal}
    {sW1 : Fin 8 → Fin 32 → EReal} {sb1 : Fin 32 → EReal} {sW2 : Fin 32 → Fin 32 → EReal} {sb2 : Fin 32 → EReal}
    {sW3 : Fin 32 → Fin 3 → EReal} {sb3 : Fin 3 → EReal}

/-- The gate of the raw rows' inner product is the visibility, for rows of reals. -/
theorem gate_raw (n v : Fin 3 → EReal) (hn : ∀ k, ∃ r : ℝ, n k = (r : EReal)) (hv : ∀ k, ∃ r : ℝ, v k = (r : EReal)) :
    gate (∑ j, n j * v j) = visible n v :=
  (gate_unit n v hn hv).symm

theorem diffuse_of_wide (B : Blocks W1 b1 W2 b2 W3 b3 dW1 db1 dW2 db2 dW3 db3 sW1 sb1 sW2 sb2 sW3 sb3)
    (n v : Fin 3 → EReal) (ro r0 : EReal) (hn : ∀ k, ∃ r : ℝ, n k = (r : EReal)) (hv : ∀ k, ∃ r : ℝ, v k = (r : EReal))
    (k : Fin 3) :
    mlp (feat (unit n) (unit v) ro r0) W1 b1 W2 b2 W3 b3 (lo3 k) * gate (∑ j, n j * v j)
      = mlp (unit n) dW1 db1 dW2 db2 dW3 db3 k * visible n v := by
  rw [mlp_d B, gate_raw n v hn hv]
  have hx : (fun i => feat (unit n) (unit v) ro r0 (lo3of8 i)) = unit n := funext fun i => feat_lo _ _ _ _ i
  rw [hx]

theorem specular_of_wide (B : Blocks W1 b1 W2 b2 W3 b3 dW1 db1 dW2 db2 dW3 db3 sW1 sb1 sW2 sb2 sW3 sb3)
    (n v : Fin 3 → EReal) (ro r0 : EReal) (hn : ∀ k, ∃ r : ℝ, n k = (r : EReal)) (hv : ∀ k, ∃ r : ℝ, v k = (r : EReal))
    (k : Fin 3) :
    mlp (feat (unit n) (unit v) ro r0) W1 b1 W2 b2 W3 b3 (hi3 k) * gate (∑ j, n j * v j)
      = mlp (feat (unit n) (unit v) ro r0) sW1 sb1 sW2 sb2 sW3 sb3 k * visible n v := by
  rw [mlp_s B, gate_raw n v hn hv]

end Cert.Net

end
-- ==== Proof.LibRealEntries.lean ====
/-
  General lemmas: arrays of reals among arrays of extended reals, and how a finiteness precondition yields them.

  A float input read on the extended reals ranges over `[-∞, +∞]`; an algebraic law that fails at the infinities
  (cancelling, distributing, a quotient of exponentials) needs the entries to be reals. A precondition of the form
  `all (|x| < +∞)` says exactly that:
  * `AllReal x`: every entry of `x` is the coercion of a real;
  * `top_word_f32`: the f32 word `0x7F800000` denotes `+∞`;
  * `real_of_abs_lt_top`: an extended real whose absolute value `max x (-x)` compares below that word is a real
    (`|±∞| = +∞` is not below `+∞`);
  * `allReal_of_all_abs_lt`: if the host's reduction by `and`, over all axes into a result of one index, of the
    comparison `|x| < inf` (with `inf` the splat of that word) answers one, then `x` is an array of reals.
-/
import Idealize.ShloMosaic.Lib.ReduceAll
import Idealize.ShloMosaic.PureOps.Ideal.Laws

noncomputable section

namespace Cert.Lib

open Idealize.ShloMosaic

/-- Every entry of an array of extended reals is a real. -/
def AllReal {ι : Type} (x : ι → EReal) : Prop := ∀ i, ∃ r : ℝ, x i = (r : EReal)

/-- The f32 word of `+∞` denotes `⊤`. -/
theorem top_word_f32 : Ideal.ofBits .f32 0x7F800000#32 = ⊤ := by simp [Ideal.ofBits, Ideal.ieee]

/-- An extended real whose absolute value is below `+∞` is a real. -/
theorem real_of_abs_lt_top (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [top_word_f32] at h
  induction x using EReal.rec with
  | bot => exfalso; revert h; simp [Ideal.cmpf_def, Ideal.absf_def, Ideal.cmp]
  | top => exfalso; revert h; simp [Ideal.cmpf_def, Ideal.absf_def, Ideal.cmp]
  | coe r => exact ⟨r, rfl⟩

/-- An array all of whose entries pass `|x| < +∞` — the host's reduction by `and` over every axis, into a result of one
    index, answers one — is an array of reals. -/
theorem allReal_of_all_abs_lt {s t u : Shape} [Subsingleton t.Idx] (x inf : FVec Ideal s .f32)
    (hinf : ∀ i, inf i = Ideal.ofBits .f32 0x7F800000#32) {axes : List (Fin s.rank)} (hr : s.ReducesTo axes t)
    (init : u.Idx → BitVec 1) (hu : 0 < u.numel) (j : t.Idx)
    (e : Host.reduce IntOp.andi (cmpf .olt (Host.absf x) inf) init hr hu j = 1#1) : AllReal x := fun i => by
  have hi := Host.reduce_andi_all _ init hr hu j e i
  exact real_of_abs_lt_top (x i) (by rw [← hinf i]; exact hi)

end Cert.Lib

end
-- ==== Proof.KernelArray.lean ====
/-
  From blocks to the two result arrays.

  Grid point `t` works on rows `2048·t … 2048·t + 2047` of the four per-point arrays and on the whole of the six weight
  arrays, and writes rows `2048·t …` of the two results. Row `p` of its blocks is row `g = 2048·t + p` of the arrays, so
  what it writes at `(p, k)` is the colour of point `g`, channel `k`; the 1024 blocks tile the 2097152 rows, so each
  result array ends holding the colours of all points. The direction arrays are assumed to hold reals (the gate's sign
  argument needs it).
-/
import proofs.«107359_g74294344286346_cont_9to1c4b_587_3_alg».proof.Proof.KernelBlock
import proofs.«107359_g74294344286346_cont_9to1c4b_587_3_alg».proof.Proof.Weights
import proofs.«107359_g74294344286346_cont_9to1c4b_587_3_alg».proof.Proof.Bridge
import proofs.«107359_g74294344286346_cont_9to1c4b_587_3_alg».proof.Proof.LibRealEntries

noncomputable section

namespace Cert.KernelIdeal.Array

open Cert.KernelIdeal Cert.KernelIdeal.Gen Idealize.ShloMosaic Idealize.ShloMosaic.TcCoe Idealize.SL.Sem
open Idealize.ShloMosaic.ValueIdx Cert.Lib Cert
open Idealize.ShloMosaic.Pipeline (Dat)
open scoped BigOperators

variable (m : (ℓ : Loc nD τ sig) → Buf (Elt Ideal) ℓ) (ρ : Dev nD → PrngReg) (c : Dev nD)

/-- The four per-point argument arrays as launched. -/
abbrev nA : S2097152x3.Idx → EReal := m ((c : Thread nD τ).loc main_arg0)
abbrev vA : S2097152x3.Idx → EReal := m ((c : Thread nD τ).loc main_arg1)
abbrev roA : S2097152x1.Idx → EReal := m ((c : Thread nD τ).loc main_arg2)
abbrev r0A : S2097152x1.Idx → EReal := m ((c : Thread nD τ).loc main_arg3)

/-- The diffuse colours of all points, as one array. -/
def G10 : S2097152x3.Idx → EReal := fun i =>
  Net.diffuse (nA m c) (vA m c) (Weights.dW1 m c) (Weights.db1 m c) (Weights.dW2 m c) (Weights.db2 m c)
    (Weights.dW3 m c) (Weights.db3 m c) ⟨(i 0).val, idx2_lt0 i⟩ ⟨(i 1).val, idx2_lt1 i⟩

/-- The specular colours of all points, as one array. -/
def G11 : S2097152x3.Idx → EReal := fun i =>
  Net.specular (nA m c) (vA m c) (roA m c) (r0A m c) (Weights.sW1 m c) (Weights.sb1 m c) (Weights.sW2 m c) (Weights.sb2 m c)
    (Weights.sW3 m c) (Weights.sb3 m c) ⟨(i 0).val, idx2_lt0 i⟩ ⟨(i 1).val, idx2_lt1 i⟩

theorem G10_at (g : Fin 2097152) (k : Fin 3) : G10 m c (ix2 g k)
    = Net.diffuse (nA m c) (vA m c) (Weights.dW1 m c) (Weights.db1 m c) (Weights.dW2 m c) (Weights.db2 m c)
        (Weights.dW3 m c) (Weights.db3 m c) g k := rfl

theorem G11_at (g : Fin 2097152) (k : Fin 3) : G11 m c (ix2 g k)
    = Net.specular (nA m c) (vA m c) (roA m c) (r0A m c) (Weights.sW1 m c) (Weights.sb1 m c) (Weights.sW2 m c) (Weights.sb2 m c)
        (Weights.sW3 m c) (Weights.sb3 m c) g k := rfl

theorem hz : (![0, 0] : Fin 2 → Nat) = fun _ => 0 := funext fun a => by fin_cases a <;> rfl

/-! ## Where each window's block sits -/

/-- The per-point windows move down the rows with the grid point; -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_10.index t (0 : Fin 2) = t.val ∧ win0_10.index t (1 : Fin 2) = 0
    ∧ win0_11.index t (0 : Fin 2) = t.val ∧ win0_11.index t (1 : Fin 2) = 0 :=
  (by decide +kernel : ∀ t : Fin grid0.N, _)

/-- the weight windows stay on their one block. -/
theorem idx_whole : ∀ t : Fin cfg0.N,
    win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- Row `p` of point `t`'s blocks is row `2048·t + p` of the arrays. -/
def grow (t : Fin cfg0.N) (p : Fin 2048) : Fin 2097152 :=
  ⟨t.val * 2048 + p.val, by have ht : t.val < 1024 := lt_of_lt_of_eq t.isLt N_0; have := p.isLt; omega⟩

theorem blk0 (t : Fin cfg0.N) (p : Fin 2048) (k : Fin 3) : iblk m c 0 t (ix2 p k) = nA m c (ix2 (grow t p) k) := by
  obtain ⟨e0, e1, -⟩ := idx_rows t
  show V m c main_arg0 (((cfg0.win 0).blk t).view.emb (ix2 p k)) = _
  rw [V_main_arg0]
  refine congrArg (nA m c) (funext fun a => Fin.ext ?_)
  match a with
  | ⟨0, _⟩ => show win0_0.index t (0 : Fin 2) * 2048 + 1 * p.val = t.val * 2048 + p.val; rw [e0]; omega
  | ⟨1, _⟩ => show win0_0.index t (1 : Fin 2) * 3 + 1 * k.val = k.val; rw [e1]; omega

theorem blk1 (t : Fin cfg0.N) (p : Fin 2048) (k : Fin 3) : iblk m c 1 t (ix2 p k) = vA m c (ix2 (grow t p) k) := by
  obtain ⟨-, -, e0, e1, -⟩ := idx_rows t
  show V m c main_arg1 (((cfg0.win 1).blk t).view.emb (ix2 p k)) = _
  rw [V_main_arg1]
  refine congrArg (vA m c) (funext fun a => Fin.ext ?_)
  match a with
  | ⟨0, _⟩ => show win0_1.index t (0 : Fin 2) * 2048 + 1 * p.val = t.val * 2048 + p.val; rw [e0]; omega
  | ⟨1, _⟩ => show win0_1.index t (1 : Fin 2) * 3 + 1 * k.val = k.val; rw [e1]; omega

theorem blk2 (t : Fin cfg0.N) (p : Fin 2048) (u : Fin 1) : iblk m c 2 t (ix2 p u) = roA m c (ix2 (grow t p) u) := by
  obtain ⟨-, -, -, -, e0, e1, -⟩ := idx_rows t
  show V m c main_arg2 (((cfg0.win 2).blk t).view.emb (ix2 p u)) = _
  rw [V_main_arg2]
  refine congrArg (roA m c) (funext fun a => Fin.ext ?_)
  match a with
  | ⟨0, _⟩ => show win0_2.index t (0 : Fin 2) * 2048 + 1 * p.val = t.val * 2048 + p.val; rw [e0]; omega
  | ⟨1, _⟩ => show win0_2.index t (1 : Fin 2) * 1 + 1 * u.val = u.val; rw [e1]; omega

theorem blk3 (t : Fin cfg0.N) (p : Fin 2048) (u : Fin 1) : iblk m c 3 t (ix2 p u) = r0A m c (ix2 (grow t p) u) := by
  obtain ⟨-, -, -, -, -, -, e0, e1, -⟩ := idx_rows t
  show V m c main_arg3 (((cfg0.win 3).blk t).view.emb (ix2 p u)) = _
  rw [V_main_arg3]
  refine congrArg (r0A m c) (funext fun a => Fin.ext ?_)
  match a with
  | ⟨0, _⟩ => show win0_3.index t (0 : Fin 2) * 2048 + 1 * p.val = t.val * 2048 + p.val; rw [e0]; omega
  | ⟨1, _⟩ => show win0_3.index t (1 : Fin 2) * 1 + 1 * u.val = u.val; rw [e1]; omega

theorem blk4 (t : Fin cfg0.N) (i : Fin 8) (j : Fin 64) :
    iblk m c 4 t (ix2 i j) = (V m c main_call0_v3 : S8x64.Idx → EReal) (ix2 i j) := by
  obtain ⟨e0, e1, -⟩ := idx_whole t
  show V m c main_call0_v3 (((cfg0.win 4).blk t).view.emb (ix2 i j)) = _
  refine congrArg (V m c main_call0_v3 : S8x64.Idx → EReal) (funext fun a => Fin.ext ?_)
  match a with
  | ⟨0, _⟩ => show win0_4.index t (0 : Fin 2) * 8 + 1 * i.val = i.val; rw [e0]; omega
  | ⟨1, _⟩ => show win0_4.index t (1 : Fin 2) * 64 + 1 * j.val = j.val; rw [e1]; omega

theorem blk5 (t : Fin cfg0.N) (i : Fin 1) (j : Fin 64) :
    iblk m c 5 t (ix2 i j) = (V m c main_call0_v5 : S1x64.Idx → EReal) (ix2 i j) := by
  obtain ⟨-, -, e0, e1, -⟩ := idx_whole t
  show V m c main_call0_v5 (((cfg0.win 5).blk t).view.emb (ix2 i j)) = _
  refine congrArg (V m c main_call0_v5 : S1x64.Idx → EReal) (funext fun a => Fin.ext ?_)
  match a with
  | ⟨0, _⟩ => show win0_5.index t (0 : Fin 2) * 1 + 1 * i.val = i.val; rw [e0]; omega
  | ⟨1, _⟩ => show win0_5.index t (1 : Fin 2) * 64 + 1 * j.val = j.val; rw [e1]; omega

theorem blk6 (t : Fin cfg0.N) (i : Fin 64) (j : Fin 64) :
    iblk m c 6 t (ix2 i j) = (V m c main_call0_v10 : S64x64.Idx → EReal) (ix2 i j) := by
  obtain ⟨-, -, -, -, e0, e1, -⟩ := idx_whole t
  show V m c main_call0_v10 (((cfg0.win 6).blk t).view.emb (ix2 i j)) = _
  refine congrArg (V m c main_call0_v10 : S64x64.Idx → EReal) (funext fun a => Fin.ext ?_)
  match a with
  | ⟨0, _⟩ => show win0_6.index t (0 : Fin 2) * 64 + 1 * i.val = i.val; rw [e0]; omega
  | ⟨1, _⟩ => show win0_6.index t (1 : Fin 2) * 64 + 1 * j.val = j.val; rw [e1]; omega

theorem blk7 (t : Fin cfg0.N) (i : Fin 1) (j : Fin 64) :
    iblk m c 7 t (ix2 i j) = (V m c main_call0_v12 : S1x64.Idx → EReal) (ix2 i j) := by
  obtain ⟨-, -, -, -, -, -, e0, e1, -⟩ := idx_whole t
  show V m c main_call0_v12 (((cfg0.win 7).blk t).view.emb (ix2 i j)) = _
  refine congrArg (V m c main_call0_v12 : S1x64.Idx → EReal) (funext fun a => Fin.ext ?_)
  match a with
  | ⟨0, _⟩ => show win0_7.index t (0 : Fin 2) * 1 + 1 * i.val = i.val; rw [e0]; omega
  | ⟨1, _⟩ => show win0_7.index t (1 : Fin 2) * 64 + 1 * j.val = j.val; rw [e1]; omega

theorem blk8 (t : Fin cfg0.N) (i : Fin 64) (j : Fin 6) :
    iblk m c 8 t (ix2 i j) = (V m c main_call0_v17 : S64x6.Idx → EReal) (ix2 i j) := by
  obtain ⟨-, -, -, -, -, -, -, -, e0, e1, -⟩ := idx_whole t
  show V m c main_call0_v17 (((cfg0.win 8).blk t).view.emb (ix2 i j)) = _
  refine congrArg (V m c main_call0_v17 : S64x6.Idx → EReal) (funext fun a => Fin.ext ?_)
  match a with
  | ⟨0, _⟩ => show win0_8.index t (0 : Fin 2) * 64 + 1 * i.val = i.val; rw [e0]; omega
  | ⟨1, _⟩ => show win0_8.index t (1 : Fin 2) * 6 + 1 * j.val = j.val; rw [e1]; omega

theorem blk9 (t : Fin cfg0.N) (i : Fin 1) (j : Fin 6) :
    iblk m c 9 t (ix2 i j) = (V m c main_call0_v19 : S1x6.Idx → EReal) (ix2 i j) := by
  obtain ⟨-, -, -, -, -, -, -, -, -, -, e0, e1⟩ := idx_whole t
  show V m c main_call0_v19 (((cfg0.win 9).blk t).view.emb (ix2 i j)) = _
  refine congrArg (V m c main_call0_v19 : S1x6.Idx → EReal) (funext fun a => Fin.ext ?_)
  match a with
  | ⟨0, _⟩ => show win0_9.index t (0 : Fin 2) * 1 + 1 * i.val = i.val; rw [e0]; omega
  | ⟨1, _⟩ => show win0_9.index t (1 : Fin 2) * 6 + 1 * j.val = j.val; rw [e1]; omega

/-- Where point `t`'s first result block puts its entry `(p, k)`. -/
theorem emb10 (t : Fin cfg0.N) (p : Fin 2048) (k : Fin 3) :
    ((cfg0.win 10).blk t).view.emb (ix2 p k) = ix2 (grow t p) k := by
  obtain ⟨-, -, -, -, -, -, -, -, e0, e1, -⟩ := idx_rows t
  funext a; apply Fin.ext
  match a with
  | ⟨0, _⟩ => show win0_10.index t (0 : Fin 2) * 2048 + 1 * p.val = t.val * 2048 + p.val; rw [e0]; omega
  | ⟨1, _⟩ => show win0_10.index t (1 : Fin 2) * 3 + 1 * k.val = k.val; rw [e1]; omega

theorem emb11 (t : Fin cfg0.N) (p : Fin 2048) (k : Fin 3) :
    ((cfg0.win 11).blk t).view.emb (ix2 p k) = ix2 (grow t p) k := by
  obtain ⟨-, -, -, -, -, -, -, -, -, -, e0, e1⟩ := idx_rows t
  funext a; apply Fin.ext
  match a with
  | ⟨0, _⟩ => show win0_11.index t (0 : Fin 2) * 2048 + 1 * p.val = t.val * 2048 + p.val; rw [e0]; omega
  | ⟨1, _⟩ => show win0_11.index t (1 : Fin 2) * 3 + 1 * k.val = k.val; rw [e1]; omega

/-! ## What a point writes back -/

/-- The wide network on row `p` of point `t`'s blocks, in terms of the arrays. -/
theorem wide_blocks (t : Fin cfg0.N) (p : Fin 2048) :
    Row.wide (iblk m c 0 t) (iblk m c 1 t) (iblk m c 2 t) (iblk m c 3 t) (iblk m c 4 t) (iblk m c 5 t) (iblk m c 6 t)
        (iblk m c 7 t) (iblk m c 8 t) (iblk m c 9 t) p
      = Net.mlp (Net.feat (Net.unit (Net.row3 (nA m c) (grow t p))) (Net.unit (Net.row3 (vA m c) (grow t p)))
            (roA m c (ix2 (grow t p) (0 : Fin 1))) (r0A m c (ix2 (grow t p) (0 : Fin 1))))
          (Net.mat (V m c main_call0_v3 : S8x64.Idx → EReal)) (fun j => (V m c main_call0_v5 : S1x64.Idx → EReal) (ix2 (0 : Fin 1) j))
          (Net.mat (V m c main_call0_v10 : S64x64.Idx → EReal)) (fun k => (V m c main_call0_v12 : S1x64.Idx → EReal) (ix2 (0 : Fin 1) k))
          (Net.mat (V m c main_call0_v17 : S64x6.Idx → EReal)) (fun q => (V m c main_call0_v19 : S1x6.Idx → EReal) (ix2 (0 : Fin 1) q)) := by
  unfold Row.wide
  have e0 : Net.row3 (iblk m c 0 t) p = Net.row3 (nA m c) (grow t p) := funext fun k => blk0 m c t p k
  have e1 : Net.row3 (iblk m c 1 t) p = Net.row3 (vA m c) (grow t p) := funext fun k => blk1 m c t p k
  have e4 : Net.mat (iblk m c 4 t) = Net.mat (V m c main_call0_v3 : S8x64.Idx → EReal) := funext fun i => funext fun j => blk4 m c t i j
  have e5 : (fun j => iblk m c 5 t (ix2 (0 : Fin 1) j)) = fun j => (V m c main_call0_v5 : S1x64.Idx → EReal) (ix2 (0 : Fin 1) j) :=
    funext fun j => blk5 m c t 0 j
  have e6 : Net.mat (iblk m c 6 t) = Net.mat (V m c main_call0_v10 : S64x64.Idx → EReal) := funext fun i => funext fun j => blk6 m c t i j
  have e7 : (fun j => iblk m c 7 t (ix2 (0 : Fin 1) j)) = fun j => (V m c main_call0_v12 : S1x64.Idx → EReal) (ix2 (0 : Fin 1) j) :=
    funext fun j => blk7 m c t 0 j
  have e8 : Net.mat (iblk m c 8 t) = Net.mat (V m c main_call0_v17 : S64x6.Idx → EReal) := funext fun i => funext fun j => blk8 m c t i j
  have e9 : (fun j => iblk m c 9 t (ix2 (0 : Fin 1) j)) = fun j => (V m c main_call0_v19 : S1x6.Idx → EReal) (ix2 (0 : Fin 1) j) :=
    funext fun j => blk9 m c t 0 j
  rw [e0, e1, e4, e5, e6, e7, e8, e9, blk2 m c t p 0, blk3 m c t p 0]

omit m c in
/-- An inner product of two rows of blocks, the rows' entries renamed. -/
theorem sum_blocks (P0 P1 : Vec Ideal S2048x3 .f32) (p : Fin 2048) (A B : Fin 3 → EReal)
    (h0 : ∀ j, P0 (ix2 p j) = A j) (h1 : ∀ j, P1 (ix2 p j) = B j) :
    (∑ j : Fin 3, P0 (ix2 p j) * P1 (ix2 p j)) = ∑ j : Fin 3, A j * B j :=
  Finset.sum_congr rfl fun j _ => congrArg₂ (· * ·) (h0 j) (h1 j)

variable (hn : AllReal (nA m c)) (hv : AllReal (vA m c))
include hn hv

/-- What point `t` writes back to the first result: block `t` of the diffuse colours. -/
theorem flushed10_eq (t : Fin cfg0.N) :
    (dats m 0 c).flushed 10 t = ((cfg0.win 10).blk t).view.read (Elt Ideal) (G10 m c) := by
  rw [Value.flushed10]
  unfold out0_10
  simp only [View.ld_unit_zero (S := S2048x3) hz, View.ld_unit_zero (S := S2048x1) hz, View.ld_unit_zero (S := S8x64) hz,
    View.ld_unit_zero (S := S1x64) hz, View.ld_unit_zero (S := S64x64) hz, View.ld_unit_zero (S := S64x6) hz,
    View.ld_unit_zero (S := S1x6) hz]
  funext y
  obtain ⟨p, k, rfl⟩ : ∃ (p : Fin 2048) (k : Fin 3), y = ix2 p k := ⟨y 0, y 1, eq_ix2 y⟩
  refine (Row.canon10_at (iblk m c 0 t) (iblk m c 1 t) (iblk m c 2 t) (iblk m c 3 t) (iblk m c 4 t) (iblk m c 5 t)
    (iblk m c 6 t) (iblk m c 7 t) (iblk m c 8 t) (iblk m c 9 t) p k).trans ?_
  have hR : ((cfg0.win 10).blk t).view.read (Elt Ideal) (G10 m c) (ix2 p k)
      = Net.diffuse (nA m c) (vA m c) (Weights.dW1 m c) (Weights.db1 m c) (Weights.dW2 m c) (Weights.db2 m c)
          (Weights.dW3 m c) (Weights.db3 m c) (grow t p) k := by
    show G10 m c (((cfg0.win 10).blk t).view.emb (ix2 p k)) = _
    rw [emb10 t p k]
    rfl
  refine Eq.trans ?_ hR.symm
  refine Eq.trans (congrArg₂ (· * ·) (congrFun (wide_blocks m c t p) (Net.lo3 k))
    (congrArg Net.gate (sum_blocks (iblk m c 0 t) (iblk m c 1 t) p (Net.row3 (nA m c) (grow t p)) (Net.row3 (vA m c) (grow t p))
      (fun j => blk0 m c t p j) (fun j => blk1 m c t p j)))) ?_
  exact Net.diffuse_of_wide (Weights.blocks m c) (Net.row3 (nA m c) (grow t p)) (Net.row3 (vA m c) (grow t p))
    (roA m c (ix2 (grow t p) (0 : Fin 1))) (r0A m c (ix2 (grow t p) (0 : Fin 1))) (fun j => hn _) (fun j => hv _) k

/-- What point `t` writes back to the second result: block `t` of the specular colours. -/
theorem flushed11_eq (t : Fin cfg0.N) :
    (dats m 0 c).flushed 11 t = ((cfg0.win 11).blk t).view.read (Elt Ideal) (G11 m c) := by
  rw [Value.flushed11]
  unfold out0_11
  simp only [View.ld_unit_zero (S := S2048x3) hz, View.ld_unit_zero (S := S2048x1) hz, View.ld_unit_zero (S := S8x64) hz,
    View.ld_unit_zero (S := S1x64) hz, View.ld_unit_zero (S := S64x64) hz, View.ld_unit_zero (S := S64x6) hz,
    View.ld_unit_zero (S := S1x6) hz]
  funext y
  obtain ⟨p, k, rfl⟩ : ∃ (p : Fin 2048) (k : Fin 3), y = ix2 p k := ⟨y 0, y 1, eq_ix2 y⟩
  refine (Row.canon11_at (iblk m c 0 t) (iblk m c 1 t) (iblk m c 2 t) (iblk m c 3 t) (iblk m c 4 t) (iblk m c 5 t)
    (iblk m c 6 t) (iblk m c 7 t) (iblk m c 8 t) (iblk m c 9 t) p k).trans ?_
  have hR : ((cfg0.win 11).blk t).view.read (Elt Ideal) (G11 m c) (ix2 p k)
      = Net.specular (nA m c) (vA m c) (roA m c) (r0A m c) (Weights.sW1 m c) (Weights.sb1 m c) (Weights.sW2 m c) (Weights.sb2 m c)
          (Weights.sW3 m c) (Weights.sb3 m c) (grow t p) k := by
    show G11 m c (((cfg0.win 11).blk t).view.emb (ix2 p k)) = _
    rw [emb11 t p k]
    rfl
  refine Eq.trans ?_ hR.symm
  refine Eq.trans (congrArg₂ (· * ·) (congrFun (wide_blocks m c t p) (Net.hi3 k))
    (congrArg Net.gate (sum_blocks (iblk m c 0 t) (iblk m c 1 t) p (Net.row3 (nA m c) (grow t p)) (Net.row3 (vA m c) (grow t p))
      (fun j => blk0 m c t p j) (fun j => blk1 m c t p j)))) ?_
  exact Net.specular_of_wide (Weights.blocks m c) (Net.row3 (nA m c) (grow t p)) (Net.row3 (vA m c) (grow t p))
    (roA m c (ix2 (grow t p) (0 : Fin 1))) (r0A m c (ix2 (grow t p) (0 : Fin 1))) (fun j => hn _) (fun j => hv _) k

omit hn hv

/-! ## The blocks tile the arrays -/

theorem mem_blk10 (t : Fin cfg0.N) (i : S2097152x3.Idx) :
    i ∈ ((cfg0.win 10).blk t).view.set ↔ ∀ a : Fin 2, win0_10.index t a * S2048x3.size a ≤ (i a).val ∧ (i a).val < win0_10.index t a * S2048x3.size a + S2048x3.size a := by
  show i ∈ ((View.whole main_v0_0).slice (win0_10.rect t)).set ↔ _
  rw [View.set_slice_whole, Rect.mem_set_unit]
  exact Iff.rfl

theorem mem_blk11 (t : Fin cfg0.N) (i : S2097152x3.Idx) :
    i ∈ ((cfg0.win 11).blk t).view.set ↔ ∀ a : Fin 2, win0_11.index t a * S2048x3.size a ≤ (i a).val ∧ (i a).val < win0_11.index t a * S2048x3.size a + S2048x3.size a := by
  show i ∈ ((View.whole main_v0_1).slice (win0_11.rect t)).set ↔ _
  rw [View.set_slice_whole, Rect.mem_set_unit]
  exact Iff.rfl

/-- The point whose block holds row `r`. -/
def pointOf (i : S2097152x3.Idx) : Fin cfg0.N :=
  ⟨(i 0).val / 2048, lt_of_lt_of_eq (by have := (i 0).isLt; show (i 0).val / 2048 < 1024; have h : (i 0).val < 2097152 := this; omega) N_0.symm⟩

theorem cover10 (i : S2097152x3.Idx) : ∃ t : Fin cfg0.N, (cfg0.win 10).flush t = true ∧ i ∈ ((cfg0.win 10).blk t).view.set := by
  refine ⟨pointOf i, flush0_10 _, ?_⟩
  obtain ⟨-, -, -, -, -, -, -, -, e0, e1, -⟩ := idx_rows (pointOf i)
  rw [mem_blk10]
  intro a
  have h1 : (i 1).val < 3 := (i 1).isLt
  match a with
  | ⟨0, _⟩ =>
    show win0_10.index (pointOf i) (0 : Fin 2) * 2048 ≤ (i 0).val ∧ (i 0).val < win0_10.index (pointOf i) (0 : Fin 2) * 2048 + 2048
    rw [e0]; show (i 0).val / 2048 * 2048 ≤ (i 0).val ∧ (i 0).val < (i 0).val / 2048 * 2048 + 2048; omega
  | ⟨1, _⟩ =>
    show win0_10.index (pointOf i) (1 : Fin 2) * 3 ≤ (i 1).val ∧ (i 1).val < win0_10.index (pointOf i) (1 : Fin 2) * 3 + 3
    rw [e1]; omega

theorem cover11 (i : S2097152x3.Idx) : ∃ t : Fin cfg0.N, (cfg0.win 11).flush t = true ∧ i ∈ ((cfg0.win 11).blk t).view.set := by
  refine ⟨pointOf i, flush0_11 _, ?_⟩
  obtain ⟨-, -, -, -, -, -, -, -, -, -, e0, e1⟩ := idx_rows (pointOf i)
  rw [mem_blk11]
  intro a
  have h1 : (i 1).val < 3 := (i 1).isLt
  match a with
  | ⟨0, _⟩ =>
    show win0_11.index (pointOf i) (0 : Fin 2) * 2048 ≤ (i 0).val ∧ (i 0).val < win0_11.index (pointOf i) (0 : Fin 2) * 2048 + 2048
    rw [e0]; show (i 0).val / 2048 * 2048 ≤ (i 0).val ∧ (i 0).val < (i 0).val / 2048 * 2048 + 2048; omega
  | ⟨1, _⟩ =>
    show win0_11.index (pointOf i) (1 : Fin 2) * 3 ≤ (i 1).val ∧ (i 1).val < win0_11.index (pointOf i) (1 : Fin 2) * 3 + 3
    rw [e1]; omega

/-! ## The arrays after the run -/

theorem final10 (hn : AllReal (nA m c)) (hv : AllReal (vA m c)) : (dats m 0 c).arrAt 10 cfg0.N = G10 m c :=
  (dats m 0 c).arrAt_eq_of_cover 10 (G10 m c) (fun t _ => flushed10_eq m c hn hv t) cover10

theorem final11 (hn : AllReal (nA m c)) (hv : AllReal (vA m c)) : (dats m 0 c).arrAt 11 cfg0.N = G11 m c :=
  (dats m 0 c).arrAt_eq_of_cover 11 (G11 m c) (fun t _ => flushed11_eq m c hn hv t) cover11

end Cert.KernelIdeal.Array

end
-- ==== Proof.RealRows.lean ====
/-
  The precondition of the idealized kernel says that a host predicate answers "all ones" on every device. That
  predicate is a conjunction of sixteen tests, one per argument array x: the reduction by "and", over every axis, of
  the comparison |x| < +∞ read elementwise. On the extended reals the two infinities are exactly the values whose
  absolute value is not below +∞, so a test that answers one says that every entry of its array is a real number.

  The sixteen tests are joined two at a time, always adding the next test on the right:
      ((((t₀ ∧ t₁) ∧ t₂) ∧ …) ∧ t₁₅),
  so the tests of the first two arrays are the two innermost conjuncts. A conjunction of one-bit words is one exactly
  when both words are one; taking the left word fourteen times leaves t₀ ∧ t₁, and each of t₀, t₁ then gives that its
  array holds only reals. Nothing here looks at any individual entry of the arrays: they stay variables throughout.
-/
import proofs.«107359_g74294344286346_cont_9to1c4b_587_3_alg».proof.Defs
import proofs.«107359_g74294344286346_cont_9to1c4b_587_3_alg».proof.Proof.LibRealEntries
import Idealize.ShloMosaic.Lib.Affine
import Idealize.ShloMosaic.Lib.IdealHost
import Idealize.ShloMosaic.Lib.ValueIdx

noncomputable section

namespace Cert.KernelIdeal.RealRows

open Idealize.ShloMosaic Idealize.SL.Sem Idealize.ShloMosaic.ValueIdx

/-- An array of rank zero has exactly one index. -/
instance subsingleton_scalar_idx : Subsingleton Cert.Pre_finite_inputs.S_.Idx :=
  ⟨fun a b => funext fun d => d.elim0⟩

/-- The word of +∞, placed in a rank-zero array and broadcast to any shape, reads as that word at every index. -/
theorem splat_top {T : Shape} (hb : Cert.Pre_finite_inputs.S_.BroadcastsInDim T (![] : Fin 0 → Fin T.rank)) (i : T.Idx) :
    broadcastInDim T ![] hb (constant (F := Ideal) Cert.Pre_finite_inputs.S_ .f32 0x7F800000#32) i
      = Ideal.ofBits .f32 0x7F800000#32 := by
  rw [broadcastInDim_scalar_apply]; rfl

section
variable [hF : Cert.Pre_finite_inputs.Facts]
open Cert.Pre_finite_inputs

/-- If the sixteen-fold conjunction of finiteness tests answers one, the first two arrays hold only reals. -/
theorem fn_real
    (a0 a1 : FVec Ideal S2097152x3 .f32) (a2 a3 : FVec Ideal S2097152x1 .f32) (a4 : FVec Ideal S3x32 .f32)
    (a5 : FVec Ideal S32 .f32) (a6 : FVec Ideal S32x32 .f32) (a7 : FVec Ideal S32 .f32) (a8 : FVec Ideal S32x3 .f32)
    (a9 : FVec Ideal S3 .f32) (a10 : FVec Ideal S8x32 .f32) (a11 : FVec Ideal S32 .f32) (a12 : FVec Ideal S32x32 .f32)
    (a13 : FVec Ideal S32 .f32) (a14 : FVec Ideal S32x3 .f32) (a15 : FVec Ideal S3 .f32)
    (h : Cert.Pre_finite_inputs.fn (F := Ideal) a0 a1 a2 a3 a4 a5 a6 a7 a8 a9 a10 a11 a12 a13 a14 a15 = fun _ => 1#1) :
    Cert.Lib.AllReal a0 ∧ Cert.Lib.AllReal a1 := by
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4, Idealize.ShloMosaic.andi] at h0
  -- the outer fourteen conjunctions: keep the left word each time
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  -- the innermost conjunction: the tests of the first and of the second array
  obtain ⟨t0, t1⟩ := IntOp.andi_eq_one.1 h0
  exact ⟨Cert.Lib.allReal_of_all_abs_lt a0 _ (fun i => splat_top _ i) _ _ _ ix0 t0,
         Cert.Lib.allReal_of_all_abs_lt a1 _ (fun i => splat_top _ i) _ _ _ ix0 t1⟩

end

/-- On every device, the idealized kernel's precondition makes its first two argument arrays arrays of reals. -/
theorem real_args [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Lib.AllReal (m ((c.tc : Thread Cert.KernelIdeal.nD Cert.KernelIdeal.τ).loc Cert.KernelIdeal.main_arg0) : Cert.Pre_finite_inputs.S2097152x3.Idx → EReal)
    ∧ Cert.Lib.AllReal (m ((c.tc : Thread Cert.KernelIdeal.nD Cert.KernelIdeal.τ).loc Cert.KernelIdeal.main_arg1) : Cert.Pre_finite_inputs.S2097152x3.Idx → EReal) :=
  fn_real _ _ _ _ _ _ _ _ _ _ _ _ _ _ _ _ (h c)

end Cert.KernelIdeal.RealRows

end
-- ==== Proof.RefRow.lean ====
/-
  The reference's two results, read entry by entry.

  The reference normalises each row of its first two arrays: it squares the row's entries, adds the three squares
  starting from zero, takes the square root, floors it at a tiny positive constant ε, and divides every entry of the row
  by that floor. At entry (g, k) this is entry k of the unit vector of row g.

  The visibility of point g is decided from the inner product of its two unit vectors: the comparison "greater than
  zero", turned into the number 1 or 0. That is the gate of the inner product.

  A dense layer multiplies a row by a weight matrix — at (g, j), the sum over k of the row's entry k times the matrix's
  entry (k, j) —, adds entry j of the bias (the bias vector is first made a one-row array, then repeated down all rows)
  and, on the hidden layers, takes the maximum with zero. So each layer at point g is the affine layer, clamped or not,
  applied to the previous layer at point g. The network of three inputs starts from the unit normal; the network of
  eight inputs starts from the row obtained by joining, side by side, the unit normal, the unit view direction and the
  two scalar columns.

  Each result is the last layer of its network times the visibility, the visibility being repeated along the three
  channels. Every statement below is about one point g (and one unit or channel); the arrays stay variables throughout.
-/
import proofs.«107359_g74294344286346_cont_9to1c4b_587_3_alg».proof.Proof.Gen.ReferenceIdeal.Read
import proofs.«107359_g74294344286346_cont_9to1c4b_587_3_alg».proof.Proof.Result

noncomputable section

namespace Cert.ReferenceIdeal.RefRow

open Cert.ReferenceIdeal Cert.ReferenceIdeal.Gen Cert.ReferenceIdeal.Read
open Idealize.ShloMosaic Idealize.ShloMosaic.ValueIdx
open scoped BigOperators

/-- An argument array of extended reals of a given shape. -/
abbrev Arr (s : Shape) : Type := (⟨s, .f32⟩ : BufTy).Contents (Elt Ideal)

/-! ## Where each stage reads its operand -/

/-- Entry (g, k) of a row-wise broadcast of a column reads the column at row g. -/
theorem col_of_entry (g : Fin 2097152) (k : Fin 3) : idx_main_v6 (ix2 g k) = ix2 g (0 : Fin 1) :=
  funext fun a => Fin.ext (by match a with | ⟨0, _⟩ => rfl | ⟨1, _⟩ => rfl)
theorem col_of_entry' (g : Fin 2097152) (k : Fin 3) : idx_main_v14 (ix2 g k) = ix2 g (0 : Fin 1) :=
  funext fun a => Fin.ext (by match a with | ⟨0, _⟩ => rfl | ⟨1, _⟩ => rfl)
/-- Row g of a column built from a vector reads the vector at g. -/
theorem vec_of_col (g : Fin 2097152) (u : Fin 1) : idx_main_v2 (ix2 g u) = ix1 g :=
  funext fun a => Fin.ext (by match a with | ⟨0, _⟩ => rfl)
theorem vec_of_col' (g : Fin 2097152) (u : Fin 1) : idx_main_v10 (ix2 g u) = ix1 g :=
  funext fun a => Fin.ext (by match a with | ⟨0, _⟩ => rfl)
theorem vec_of_col'' (g : Fin 2097152) (u : Fin 1) : idx_main_v21 (ix2 g u) = ix1 g :=
  funext fun a => Fin.ext (by match a with | ⟨0, _⟩ => rfl)
/-- The k-th term of the sum along row g is entry (g, k). -/
theorem term_of_row (g : Fin 2097152) (k : Fin 3) : idx_main_v1 (ix1 g) k = ix2 g k :=
  funext fun a => Fin.ext (by match a with | ⟨0, _⟩ => rfl | ⟨1, _⟩ => rfl)
theorem term_of_row' (g : Fin 2097152) (k : Fin 3) : idx_main_v9 (ix1 g) k = ix2 g k :=
  funext fun a => Fin.ext (by match a with | ⟨0, _⟩ => rfl | ⟨1, _⟩ => rfl)
theorem term_of_row'' (g : Fin 2097152) (k : Fin 3) : idx_main_v18 (ix1 g) k = ix2 g k :=
  funext fun a => Fin.ext (by match a with | ⟨0, _⟩ => rfl | ⟨1, _⟩ => rfl)

/-! ## The unit rows -/

/-- The first normalised array at (g, k): entry k of the unit vector of row g. -/
theorem unit_row0 (x0 : Arr S2097152x3) (g : Fin 2097152) (k : Fin 3) :
    val_main_v7 (F := Ideal) x0 (ix2 g k) = Cert.Net.unit (Cert.Net.row3 (N := 2097152) x0 g) k := by
  rw [val_main_v7_apply, val_main_v6_apply, col_of_entry, val_main_v5_apply, val_main_v3_apply, val_main_v2_apply,
    vec_of_col, val_main_v1_apply, val_main_v4_apply, val_main_cst_0_apply, val_main_cst_apply]
  simp only [val_main_v0_apply, term_of_row, Ideal.ofBits_def, Ideal.ofBits_zero_f32, zero_add, Ideal.mulf_def,
    Ideal.hostDivf_def, Ideal.hostUnary_sqrt_def, Ideal.maximumf_def, Cert.Net.unit, Cert.Net.row3, Cert.Net.den]

/-- The second normalised array at (g, k). -/
theorem unit_row1 (x1 : Arr S2097152x3) (g : Fin 2097152) (k : Fin 3) :
    val_main_v15 (F := Ideal) x1 (ix2 g k) = Cert.Net.unit (Cert.Net.row3 (N := 2097152) x1 g) k := by
  rw [val_main_v15_apply, val_main_v14_apply, col_of_entry', val_main_v13_apply, val_main_v11_apply, val_main_v10_apply,
    vec_of_col', val_main_v9_apply, val_main_v12_apply, val_main_cst_2_apply, val_main_cst_1_apply]
  simp only [val_main_v8_apply, term_of_row', Ideal.ofBits_def, Ideal.ofBits_zero_f32, zero_add, Ideal.mulf_def,
    Ideal.hostDivf_def, Ideal.hostUnary_sqrt_def, Ideal.maximumf_def, Cert.Net.unit, Cert.Net.row3, Cert.Net.den]

/-! ## The gate -/

/-- The sum along row g of the products of the two normalised arrays: the inner product of the two unit vectors. -/
theorem dot_rows (x0 x1 : Arr S2097152x3) (g : Fin 2097152) :
    (∑ k : Fin 3, val_main_v17 (F := Ideal) x0 x1 (idx_main_v18 (ix1 g) k))
      = ∑ k : Fin 3, Cert.Net.unit (Cert.Net.row3 (N := 2097152) x0 g) k * Cert.Net.unit (Cert.Net.row3 (N := 2097152) x1 g) k :=
  Finset.sum_congr rfl fun k _ => by
    rw [term_of_row'', val_main_v17_apply, unit_row0, unit_row1]
    exact Ideal.mulf_def _ _

/-- The gate column at row g: the visibility of the point's two rows. -/
theorem gate_col (x0 x1 : Arr S2097152x3) (g : Fin 2097152) (u : Fin 1) :
    val_main_v22 (F := Ideal) x0 x1 (ix2 g u)
      = Cert.Net.visible (Cert.Net.row3 (N := 2097152) x0 g) (Cert.Net.row3 (N := 2097152) x1 g) := by
  rw [val_main_v22_apply, val_main_v21_apply, vec_of_col'', val_main_v20_apply, val_main_v19_apply, val_main_cst_4_apply,
    val_main_v18_apply, val_main_cst_3_apply, dot_rows, Ideal.ofBits_def, Ideal.ofBits_zero_f32, zero_add]
  exact Cert.Net.gate_unsigned _

/-! ## The network of three inputs -/

theorem l_v23 (g : Fin 2097152) (j : Fin 32) (k : Fin 3) : lidx_main_v23 (ix2 g j) k = ix2 g k :=
  funext fun a => Fin.ext (by match a with | ⟨0, _⟩ => rfl | ⟨1, _⟩ => rfl)
theorem r_v23 (g : Fin 2097152) (j : Fin 32) (k : Fin 3) : ridx_main_v23 (ix2 g j) k = ix2 k j :=
  funext fun a => Fin.ext (by match a with | ⟨0, _⟩ => rfl | ⟨1, _⟩ => rfl)
theorem b2_v25 (g : Fin 2097152) (j : Fin 32) : idx_main_v25 (ix2 g j) = ix2 (0 : Fin 1) j :=
  funext fun a => Fin.ext (by match a with | ⟨0, _⟩ => rfl | ⟨1, _⟩ => rfl)
theorem b1_v24 (j : Fin 32) : idx_main_v24 (ix2 (0 : Fin 1) j) = ix1 j :=
  funext fun a => Fin.ext (by match a with | ⟨0, _⟩ => rfl)

/-- Row g of the unit normals times column j of the first weight matrix. -/
theorem d_hidden1_dot (x0 : Arr S2097152x3) (x4 : Arr S3x32) (g : Fin 2097152) (j : Fin 32) :
    (∑ k : Fin 3, val_main_v7 (F := Ideal) x0 (lidx_main_v23 (ix2 g j) k) * x4 (ridx_main_v23 (ix2 g j) k))
      = ∑ k : Fin 3, Cert.Net.unit (Cert.Net.row3 (N := 2097152) x0 g) k * Cert.Net.mat (a := 3) (b := 32) x4 k j :=
  Finset.sum_congr rfl fun k _ => by
    rw [l_v23, r_v23, unit_row0]
    rfl

/-- The first hidden layer of the three-input network at point g, unit j. -/
theorem d_hidden1 (x0 : Arr S2097152x3) (x4 : Arr S3x32) (x5 : Arr S32) (g : Fin 2097152) (j : Fin 32) :
    val_main_v27 (F := Ideal) x0 x4 x5 (ix2 g j)
      = Cert.Net.relu (Cert.Net.lin (Cert.Net.unit (Cert.Net.row3 (N := 2097152) x0 g)) (Cert.Net.mat (a := 3) (b := 32) x4) (Cert.Net.vec (n := 32) x5)) j := by
  rw [val_main_v27_apply, val_main_call0_v0_apply, val_main_call0_cst_apply, val_main_v26_apply, val_main_v25_apply, b2_v25, val_main_v24_apply, b1_v24,
    val_main_v23_apply, d_hidden1_dot, Ideal.ofBits_def, Ideal.ofBits_zero_f32, Ideal.addf_def, Ideal.maximumf_def]
  rfl

theorem l_v28 (g : Fin 2097152) (j : Fin 32) (k : Fin 32) : lidx_main_v28 (ix2 g j) k = ix2 g k :=
  funext fun a => Fin.ext (by match a with | ⟨0, _⟩ => rfl | ⟨1, _⟩ => rfl)
theorem r_v28 (g : Fin 2097152) (j : Fin 32) (k : Fin 32) : ridx_main_v28 (ix2 g j) k = ix2 k j :=
  funext fun a => Fin.ext (by match a with | ⟨0, _⟩ => rfl | ⟨1, _⟩ => rfl)
theorem b2_v30 (g : Fin 2097152) (j : Fin 32) : idx_main_v30 (ix2 g j) = ix2 (0 : Fin 1) j :=
  funext fun a => Fin.ext (by match a with | ⟨0, _⟩ => rfl | ⟨1, _⟩ => rfl)
theorem b1_v29 (j : Fin 32) : idx_main_v29 (ix2 (0 : Fin 1) j) = ix1 j :=
  funext fun a => Fin.ext (by match a with | ⟨0, _⟩ => rfl)

/-- The first hidden layer at point g times column j of the second weight matrix. -/
theorem d_hidden2_dot (x0 : Arr S2097152x3) (x4 : Arr S3x32) (x5 : Arr S32) (x6 : Arr S32x32) (g : Fin 2097152) (j : Fin 32) :
    (∑ k : Fin 32, val_main_v27 (F := Ideal) x0 x4 x5 (lidx_main_v28 (ix2 g j) k) * x6 (ridx_main_v28 (ix2 g j) k))
      = ∑ k : Fin 32, Cert.Net.relu (Cert.Net.lin (Cert.Net.unit (Cert.Net.row3 (N := 2097152) x0 g)) (Cert.Net.mat (a := 3) (b := 32) x4) (Cert.Net.vec (n := 32) x5)) k * Cert.Net.mat (a := 32) (b := 32) x6 k j :=
  Finset.sum_congr rfl fun k _ => by
    rw [l_v28, r_v28, d_hidden1]
    rfl

/-- The second hidden layer of the three-input network at point g, unit j. -/
theorem d_hidden2 (x0 : Arr S2097152x3) (x4 : Arr S3x32) (x5 : Arr S32) (x6 : Arr S32x32) (x7 : Arr S32) (g : Fin 2097152) (j : Fin 32) :
    val_main_v32 (F := Ideal) x0 x4 x5 x6 x7 (ix2 g j)
      = Cert.Net.relu (Cert.Net.lin (Cert.Net.relu (Cert.Net.lin (Cert.Net.unit (Cert.Net.row3 (N := 2097152) x0 g)) (Cert.Net.mat (a := 3) (b := 32) x4) (Cert.Net.vec (n := 32) x5))) (Cert.Net.mat (a := 32) (b := 32) x6) (Cert.Net.vec (n := 32) x7)) j := by
  rw [val_main_v32_apply, val_main_call1_v0_apply, val_main_call1_cst_apply, val_main_v31_apply, val_main_v30_apply, b2_v30, val_main_v29_apply, b1_v29,
    val_main_v28_apply, d_hidden2_dot, Ideal.ofBits_def, Ideal.ofBits_zero_f32, Ideal.addf_def, Ideal.maximumf_def]
  rfl

theorem l_v33 (g : Fin 2097152) (q : Fin 3) (k : Fin 32) : lidx_main_v33 (ix2 g q) k = ix2 g k :=
  funext fun a => Fin.ext (by match a with | ⟨0, _⟩ => rfl | ⟨1, _⟩ => rfl)
theorem r_v33 (g : Fin 2097152) (q : Fin 3) (k : Fin 32) : ridx_main_v33 (ix2 g q) k = ix2 k q :=
  funext fun a => Fin.ext (by match a with | ⟨0, _⟩ => rfl | ⟨1, _⟩ => rfl)
theorem b2_v35 (g : Fin 2097152) (q : Fin 3) : idx_main_v35 (ix2 g q) = ix2 (0 : Fin 1) q :=
  funext fun a => Fin.ext (by match a with | ⟨0, _⟩ => rfl | ⟨1, _⟩ => rfl)
theorem b1_v34 (q : Fin 3) : idx_main_v34 (ix2 (0 : Fin 1) q) = ix1 q :=
  funext fun a => Fin.ext (by match a with | ⟨0, _⟩ => rfl)

/-- The second hidden layer at point g times column q of the output weight matrix. -/
theorem d_out_dot (x0 : Arr S2097152x3) (x4 : Arr S3x32) (x5 : Arr S32) (x6 : Arr S32x32) (x7 : Arr S32) (x8 : Arr S32x3) (g : Fin 2097152) (q : Fin 3) :
    (∑ k : Fin 32, val_main_v32 (F := Ideal) x0 x4 x5 x6 x7 (lidx_main_v33 (ix2 g q) k) * x8 (ridx_main_v33 (ix2 g q) k))
      = ∑ k : Fin 32, Cert.Net.relu (Cert.Net.lin (Cert.Net.relu (Cert.Net.lin (Cert.Net.unit (Cert.Net.row3 (N := 2097152) x0 g)) (Cert.Net.mat (a := 3) (b := 32) x4) (Cert.Net.vec (n := 32) x5))) (Cert.Net.mat (a := 32) (b := 32) x6) (Cert.Net.vec (n := 32) x7)) k * Cert.Net.mat (a := 32) (b := 3) x8 k q :=
  Finset.sum_congr rfl fun k _ => by
    rw [l_v33, r_v33, d_hidden2]
    rfl

/-- The output layer of the three-input network at point g, channel q. -/
theorem d_out (x0 : Arr S2097152x3) (x4 : Arr S3x32) (x5 : Arr S32) (x6 : Arr S32x32) (x7 : Arr S32) (x8 : Arr S32x3) (x9 : Arr S3) (g : Fin 2097152) (q : Fin 3) :
    val_main_v36 (F := Ideal) x0 x4 x5 x6 x7 x8 x9 (ix2 g q)
      = Cert.Net.lin (Cert.Net.relu (Cert.Net.lin (Cert.Net.relu (Cert.Net.lin (Cert.Net.unit (Cert.Net.row3 (N := 2097152) x0 g)) (Cert.Net.mat (a := 3) (b := 32) x4) (Cert.Net.vec (n := 32) x5))) (Cert.Net.mat (a := 32) (b := 32) x6) (Cert.Net.vec (n := 32) x7))) (Cert.Net.mat (a := 32) (b := 3) x8) (Cert.Net.vec (n := 3) x9) q := by
  rw [val_main_v36_apply, val_main_v35_apply, b2_v35, val_main_v34_apply, b1_v34,
    val_main_v33_apply, d_out_dot, Ideal.addf_def]
  rfl

theorem gate_of_entry (g : Fin 2097152) (q : Fin 3) : idx_main_v51 (ix2 g q) = ix2 g (0 : Fin 1) :=
  funext fun a => Fin.ext (by match a with | ⟨0, _⟩ => rfl | ⟨1, _⟩ => rfl)

/-- The first result at (g, q): the three-input network on the unit normal, times the point's visibility. -/
theorem ref_diffuse (x0 x1 : Arr S2097152x3) (x4 : Arr S3x32) (x5 : Arr S32) (x6 : Arr S32x32) (x7 : Arr S32)
    (x8 : Arr S32x3) (x9 : Arr S3) (g : Fin 2097152) (q : Fin 3) :
    val_main_v52 (F := Ideal) x0 x1 x4 x5 x6 x7 x8 x9 (ix2 g q)
      = Cert.Net.diffuse (N := 2097152) x0 x1 x4 x5 x6 x7 x8 x9 g q := by
  rw [val_main_v52_apply, val_main_v51_apply, gate_of_entry, gate_col, d_out, Ideal.mulf_def]
  rfl

/-! ## The network of eight inputs -/

/-- The four arrays joined along the columns, at (g, i): entry i of the feature row of point g — its unit normal, its unit
    view direction, and the two scalars of row g. -/
theorem feat_row (x0 x1 : Arr S2097152x3) (x2 x3 : Arr S2097152x1) (g : Fin 2097152) (i : Fin 8) :
    val_main_v16 (F := Ideal) x0 x1 x2 x3 (ix2 g i) = Cert.Net.feat (Cert.Net.unit (Cert.Net.row3 (N := 2097152) x0 g)) (Cert.Net.unit (Cert.Net.row3 (N := 2097152) x1 g)) (x2 (ix2 g (0 : Fin 1))) (x3 (ix2 g (0 : Fin 1))) i := by
  unfold val_main_v16
  refine (Cert.Net.concat4_row (R := 2097152) (val_main_v7 (F := Ideal) x0) (val_main_v15 (F := Ideal) x1) x2 x3 _ g i).trans ?_
  have h0 : (fun k => val_main_v7 (F := Ideal) x0 (ix2 g k)) = Cert.Net.unit (Cert.Net.row3 (N := 2097152) x0 g) := funext fun k => unit_row0 x0 g k
  have h1 : (fun k => val_main_v15 (F := Ideal) x1 (ix2 g k)) = Cert.Net.unit (Cert.Net.row3 (N := 2097152) x1 g) := funext fun k => unit_row1 x1 g k
  rw [h0, h1]

theorem l_v37 (g : Fin 2097152) (j : Fin 32) (k : Fin 8) : lidx_main_v37 (ix2 g j) k = ix2 g k :=
  funext fun a => Fin.ext (by match a with | ⟨0, _⟩ => rfl | ⟨1, _⟩ => rfl)
theorem r_v37 (g : Fin 2097152) (j : Fin 32) (k : Fin 8) : ridx_main_v37 (ix2 g j) k = ix2 k j :=
  funext fun a => Fin.ext (by match a with | ⟨0, _⟩ => rfl | ⟨1, _⟩ => rfl)
theorem b2_v39 (g : Fin 2097152) (j : Fin 32) : idx_main_v39 (ix2 g j) = ix2 (0 : Fin 1) j :=
  funext fun a => Fin.ext (by match a with | ⟨0, _⟩ => rfl | ⟨1, _⟩ => rfl)
theorem b1_v38 (j : Fin 32) : idx_main_v38 (ix2 (0 : Fin 1) j) = ix1 j :=
  funext fun a => Fin.ext (by match a with | ⟨0, _⟩ => rfl)

/-- The feature row of point g times column j of the first weight matrix. -/
theorem s_hidden1_dot (x0 x1 : Arr S2097152x3) (x2 x3 : Arr S2097152x1) (x10 : Arr S8x32) (g : Fin 2097152) (j : Fin 32) :
    (∑ k : Fin 8, val_main_v16 (F := Ideal) x0 x1 x2 x3 (lidx_main_v37 (ix2 g j) k) * x10 (ridx_main_v37 (ix2 g j) k))
      = ∑ k : Fin 8, Cert.Net.feat (Cert.Net.unit (Cert.Net.row3 (N := 2097152) x0 g)) (Cert.Net.unit (Cert.Net.row3 (N := 2097152) x1 g)) (x2 (ix2 g (0 : Fin 1))) (x3 (ix2 g (0 : Fin 1))) k * Cert.Net.mat (a := 8) (b := 32) x10 k j :=
  Finset.sum_congr rfl fun k _ => by
    rw [l_v37, r_v37, feat_row]
    rfl

/-- The first hidden layer of the eight-input network at point g, unit j. -/
theorem s_hidden1 (x0 x1 : Arr S2097152x3) (x2 x3 : Arr S2097152x1) (x10 : Arr S8x32) (x11 : Arr S32) (g : Fin 2097152) (j : Fin 32) :
    val_main_v41 (F := Ideal) x0 x1 x2 x3 x10 x11 (ix2 g j)
      = Cert.Net.relu (Cert.Net.lin (Cert.Net.feat (Cert.Net.unit (Cert.Net.row3 (N := 2097152) x0 g)) (Cert.Net.unit (Cert.Net.row3 (N := 2097152) x1 g)) (x2 (ix2 g (0 : Fin 1))) (x3 (ix2 g (0 : Fin 1)))) (Cert.Net.mat (a := 8) (b := 32) x10) (Cert.Net.vec (n := 32) x11)) j := by
  rw [val_main_v41_apply, val_main_call2_v0_apply, val_main_call2_cst_apply, val_main_v40_apply, val_main_v39_apply, b2_v39, val_main_v38_apply, b1_v38,
    val_main_v37_apply, s_hidden1_dot, Ideal.ofBits_def, Ideal.ofBits_zero_f32, Ideal.addf_def, Ideal.maximumf_def]
  rfl

theorem l_v42 (g : Fin 2097152) (j : Fin 32) (k : Fin 32) : lidx_main_v42 (ix2 g j) k = ix2 g k :=
  funext fun a => Fin.ext (by match a with | ⟨0, _⟩ => rfl | ⟨1, _⟩ => rfl)
theorem r_v42 (g : Fin 2097152) (j : Fin 32) (k : Fin 32) : ridx_main_v42 (ix2 g j) k = ix2 k j :=
  funext fun a => Fin.ext (by match a with | ⟨0, _⟩ => rfl | ⟨1, _⟩ => rfl)
theorem b2_v44 (g : Fin 2097152) (j : Fin 32) : idx_main_v44 (ix2 g j) = ix2 (0 : Fin 1) j :=
  funext fun a => Fin.ext (by match a with | ⟨0, _⟩ => rfl | ⟨1, _⟩ => rfl)
theorem b1_v43 (j : Fin 32) : idx_main_v43 (ix2 (0 : Fin 1) j) = ix1 j :=
  funext fun a => Fin.ext (by match a with | ⟨0, _⟩ => rfl)

/-- The first hidden layer at point g times column j of the second weight matrix. -/
theorem s_hidden2_dot (x0 x1 : Arr S2097152x3) (x2 x3 : Arr S2097152x1) (x10 : Arr S8x32) (x11 : Arr S32) (x12 : Arr S32x32) (g : Fin 2097152) (j : Fin 32) :
    (∑ k : Fin 32, val_main_v41 (F := Ideal) x0 x1 x2 x3 x10 x11 (lidx_main_v42 (ix2 g j) k) * x12 (ridx_main_v42 (ix2 g j) k))
      = ∑ k : Fin 32, Cert.Net.relu (Cert.Net.lin (Cert.Net.feat (Cert.Net.unit (Cert.Net.row3 (N := 2097152) x0 g)) (Cert.Net.unit (Cert.Net.row3 (N := 2097152) x1 g)) (x2 (ix2 g (0 : Fin 1))) (x3 (ix2 g (0 : Fin 1)))) (Cert.Net.mat (a := 8) (b := 32) x10) (Cert.Net.vec (n := 32) x11)) k * Cert.Net.mat (a := 32) (b := 32) x12 k j :=
  Finset.sum_congr rfl fun k _ => by
    rw [l_v42, r_v42, s_hidden1]
    rfl

/-- The second hidden layer of the eight-input network at point g, unit j. -/
theorem s_hidden2 (x0 x1 : Arr S2097152x3) (x2 x3 : Arr S2097152x1) (x10 : Arr S8x32) (x11 : Arr S32) (x12 : Arr S32x32) (x13 : Arr S32) (g : Fin 2097152) (j : Fin 32) :
    val_main_v46 (F := Ideal) x0 x1 x2 x3 x10 x11 x12 x13 (ix2 g j)
      = Cert.Net.relu (Cert.Net.lin (Cert.Net.relu (Cert.Net.lin (Cert.Net.feat (Cert.Net.unit (Cert.Net.row3 (N := 2097152) x0 g)) (Cert.Net.unit (Cert.Net.row3 (N := 2097152) x1 g)) (x2 (ix2 g (0 : Fin 1))) (x3 (ix2 g (0 : Fin 1)))) (Cert.Net.mat (a := 8) (b := 32) x10) (Cert.Net.vec (n := 32) x11))) (Cert.Net.mat (a := 32) (b := 32) x12) (Cert.Net.vec (n := 32) x13)) j := by
  rw [val_main_v46_apply, val_main_call3_v0_apply, val_main_call3_cst_apply, val_main_v45_apply, val_main_v44_apply, b2_v44, val_main_v43_apply, b1_v43,
    val_main_v42_apply, s_hidden2_dot, Ideal.ofBits_def, Ideal.ofBits_zero_f32, Ideal.addf_def, Ideal.maximumf_def]
  rfl

theorem l_v47 (g : Fin 2097152) (q : Fin 3) (k : Fin 32) : lidx_main_v47 (ix2 g q) k = ix2 g k :=
  funext fun a => Fin.ext (by match a with | ⟨0, _⟩ => rfl | ⟨1, _⟩ => rfl)
theorem r_v47 (g : Fin 2097152) (q : Fin 3) (k : Fin 32) : ridx_main_v47 (ix2 g q) k = ix2 k q :=
  funext fun a => Fin.ext (by match a with | ⟨0, _⟩ => rfl | ⟨1, _⟩ => rfl)
theorem b2_v49 (g : Fin 2097152) (q : Fin 3) : idx_main_v49 (ix2 g q) = ix2 (0 : Fin 1) q :=
  funext fun a => Fin.ext (by match a with | ⟨0, _⟩ => rfl | ⟨1, _⟩ => rfl)
theorem b1_v48 (q : Fin 3) : idx_main_v48 (ix2 (0 : Fin 1) q) = ix1 q :=
  funext fun a => Fin.ext (by match a with | ⟨0, _⟩ => rfl)

/-- The second hidden layer at point g times column q of the output weight matrix. -/
theorem s_out_dot (x0 x1 : Arr S2097152x3) (x2 x3 : Arr S2097152x1) (x10 : Arr S8x32) (x11 : Arr S32) (x12 : Arr S32x32) (x13 : Arr S32) (x14 : Arr S32x3) (g : Fin 2097152) (q : Fin 3) :
    (∑ k : Fin 32, val_main_v46 (F := Ideal) x0 x1 x2 x3 x10 x11 x12 x13 (lidx_main_v47 (ix2 g q) k) * x14 (ridx_main_v47 (ix2 g q) k))
      = ∑ k : Fin 32, Cert.Net.relu (Cert.Net.lin (Cert.Net.relu (Cert.Net.lin (Cert.Net.feat (Cert.Net.unit (Cert.Net.row3 (N := 2097152) x0 g)) (Cert.Net.unit (Cert.Net.row3 (N := 2097152) x1 g)) (x2 (ix2 g (0 : Fin 1))) (x3 (ix2 g (0 : Fin 1)))) (Cert.Net.mat (a := 8) (b := 32) x10) (Cert.Net.vec (n := 32) x11))) (Cert.Net.mat (a := 32) (b := 32) x12) (Cert.Net.vec (n := 32) x13)) k * Cert.Net.mat (a := 32) (b := 3) x14 k q :=
  Finset.sum_congr rfl fun k _ => by
    rw [l_v47, r_v47, s_hidden2]
    rfl

/-- The output layer of the eight-input network at point g, channel q. -/
theorem s_out (x0 x1 : Arr S2097152x3) (x2 x3 : Arr S2097152x1) (x10 : Arr S8x32) (x11 : Arr S32) (x12 : Arr S32x32) (x13 : Arr S32) (x14 : Arr S32x3) (x15 : Arr S3) (g : Fin 2097152) (q : Fin 3) :
    val_main_v50 (F := Ideal) x0 x1 x2 x3 x10 x11 x12 x13 x14 x15 (ix2 g q)
      = Cert.Net.lin (Cert.Net.relu (Cert.Net.lin (Cert.Net.relu (Cert.Net.lin (Cert.Net.feat (Cert.Net.unit (Cert.Net.row3 (N := 2097152) x0 g)) (Cert.Net.unit (Cert.Net.row3 (N := 2097152) x1 g)) (x2 (ix2 g (0 : Fin 1))) (x3 (ix2 g (0 : Fin 1)))) (Cert.Net.mat (a := 8) (b := 32) x10) (Cert.Net.vec (n := 32) x11))) (Cert.Net.mat (a := 32) (b := 32) x12) (Cert.Net.vec (n := 32) x13))) (Cert.Net.mat (a := 32) (b := 3) x14) (Cert.Net.vec (n := 3) x15) q := by
  rw [val_main_v50_apply, val_main_v49_apply, b2_v49, val_main_v48_apply, b1_v48,
    val_main_v47_apply, s_out_dot, Ideal.addf_def]
  rfl

theorem gate_of_entry' (g : Fin 2097152) (q : Fin 3) : idx_main_v53 (ix2 g q) = ix2 g (0 : Fin 1) :=
  funext fun a => Fin.ext (by match a with | ⟨0, _⟩ => rfl | ⟨1, _⟩ => rfl)

/-- The second result at (g, q): the eight-input network on the point's feature row, times the point's visibility. -/
theorem ref_specular (x0 x1 : Arr S2097152x3) (x2 x3 : Arr S2097152x1) (x10 : Arr S8x32) (x11 : Arr S32) (x12 : Arr S32x32)
    (x13 : Arr S32) (x14 : Arr S32x3) (x15 : Arr S3) (g : Fin 2097152) (q : Fin 3) :
    val_main_v54 (F := Ideal) x0 x1 x2 x3 x10 x11 x12 x13 x14 x15 (ix2 g q)
      = Cert.Net.specular (N := 2097152) x0 x1 x2 x3 x10 x11 x12 x13 x14 x15 g q := by
  rw [val_main_v54_apply, val_main_v53_apply, gate_of_entry', gate_col, s_out, Ideal.mulf_def]
  rfl

end Cert.ReferenceIdeal.RefRow

end
-- ==== Proof.Final.lean ====
/-
  The two programs end with the same two arrays.

  Under the precondition the two direction arrays hold reals, so the kernel's run ends with its two results at the
  diffuse and specular colours of all points (the blocks tile the arrays). The reference's run ends with its two
  results at terms that, read at any index `(g, q)`, are the same colours. Arguments that agree give equal arrays.
-/
import proofs.«107359_g74294344286346_cont_9to1c4b_587_3_alg».proof.Proof.KernelArray
import proofs.«107359_g74294344286346_cont_9to1c4b_587_3_alg».proof.Proof.RealRows
import proofs.«107359_g74294344286346_cont_9to1c4b_587_3_alg».proof.Proof.RefRow

noncomputable section

namespace Cert.Proof.Parts

open Idealize.ShloMosaic Idealize.ShloMosaic.TcCoe Idealize.SL.Sem Idealize.ShloMosaic.ValueIdx Cert

/-- The kernel's run, its two result arrays named as the colours of all points. -/
theorem kernel_run [hPre_finite_inputs : Cert.Pre_finite_inputs.Facts]
    (m : (ℓ : Loc Cert.KernelIdeal.nD Cert.KernelIdeal.τ Cert.KernelIdeal.sig) → Buf (Elt Ideal) ℓ)
    (ρ : Dev Cert.KernelIdeal.nD → PrngReg) (h : Cert.Pre_KernelIdeal m) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c.tc : Thread Cert.KernelIdeal.nD Cert.KernelIdeal.τ).loc Cert.KernelIdeal.main_v0_0) = Cert.KernelIdeal.Array.G10 m c
        ∧ r.2.mem ((c.tc : Thread Cert.KernelIdeal.nD Cert.KernelIdeal.τ).loc Cert.KernelIdeal.main_v0_1) = Cert.KernelIdeal.Array.G11 m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
        ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15) :=
  (θ_run Cert.KernelIdeal.defs _ _).mono (fun r hr c =>
      ⟨(hr c).1.trans (Cert.KernelIdeal.Array.final10 m c (Cert.KernelIdeal.RealRows.real_args m h c).1 (Cert.KernelIdeal.RealRows.real_args m h c).2),
       (hr c).2.1.trans (Cert.KernelIdeal.Array.final11 m c (Cert.KernelIdeal.RealRows.real_args m h c).1 (Cert.KernelIdeal.RealRows.real_args m h c).2),
       (hr c).2.2⟩)
    (Cert.KernelIdeal.Value.run_blocks m ρ)

/-- The reference's first result, for arguments agreeing with the kernel's, is the array of diffuse colours. -/
theorem ref_first
    (m : (ℓ : Loc Cert.KernelIdeal.nD Cert.KernelIdeal.τ Cert.KernelIdeal.sig) → Buf (Elt Ideal) ℓ) (c : Dev Cert.KernelIdeal.nD)
    (x0 x1 : Cert.ReferenceIdeal.S2097152x3.Idx → EReal) (x4 : Cert.ReferenceIdeal.S3x32.Idx → EReal) (x5 : Cert.ReferenceIdeal.S32.Idx → EReal)
    (x6 : Cert.ReferenceIdeal.S32x32.Idx → EReal) (x7 : Cert.ReferenceIdeal.S32.Idx → EReal) (x8 : Cert.ReferenceIdeal.S32x3.Idx → EReal)
    (x9 : Cert.ReferenceIdeal.S3.Idx → EReal)
    (a0 : x0 = m ((c.tc : Thread Cert.KernelIdeal.nD Cert.KernelIdeal.τ).loc Cert.KernelIdeal.main_arg0))
    (a1 : x1 = m ((c.tc : Thread Cert.KernelIdeal.nD Cert.KernelIdeal.τ).loc Cert.KernelIdeal.main_arg1))
    (a4 : x4 = m ((c.tc : Thread Cert.KernelIdeal.nD Cert.KernelIdeal.τ).loc Cert.KernelIdeal.main_arg4))
    (a5 : x5 = m ((c.tc : Thread Cert.KernelIdeal.nD Cert.KernelIdeal.τ).loc Cert.KernelIdeal.main_arg5))
    (a6 : x6 = m ((c.tc : Thread Cert.KernelIdeal.nD Cert.KernelIdeal.τ).loc Cert.KernelIdeal.main_arg6))
    (a7 : x7 = m ((c.tc : Thread Cert.KernelIdeal.nD Cert.KernelIdeal.τ).loc Cert.KernelIdeal.main_arg7))
    (a8 : x8 = m ((c.tc : Thread Cert.KernelIdeal.nD Cert.KernelIdeal.τ).loc Cert.KernelIdeal.main_arg8))
    (a9 : x9 = m ((c.tc : Thread Cert.KernelIdeal.nD Cert.KernelIdeal.τ).loc Cert.KernelIdeal.main_arg9)) :
    Cert.ReferenceIdeal.Read.val_main_v52 (F := Ideal) x0 x1 x4 x5 x6 x7 x8 x9 = Cert.KernelIdeal.Array.G10 m c := by
  subst a0 a1 a4 a5 a6 a7 a8 a9
  funext i
  obtain ⟨g, q, rfl⟩ : ∃ (g : Fin 2097152) (q : Fin 3), i = ix2 g q := ⟨i 0, i 1, eq_ix2 i⟩
  exact (Cert.ReferenceIdeal.RefRow.ref_diffuse _ _ _ _ _ _ _ _ g q).trans (Cert.KernelIdeal.Array.G10_at m c g q).symm

/-- The reference's second result, for arguments agreeing with the kernel's, is the array of specular colours. -/
theorem ref_second
    (m : (ℓ : Loc Cert.KernelIdeal.nD Cert.KernelIdeal.τ Cert.KernelIdeal.sig) → Buf (Elt Ideal) ℓ) (c : Dev Cert.KernelIdeal.nD)
    (x0 x1 : Cert.ReferenceIdeal.S2097152x3.Idx → EReal) (x2 x3 : Cert.ReferenceIdeal.S2097152x1.Idx → EReal)
    (x10 : Cert.ReferenceIdeal.S8x32.Idx → EReal) (x11 : Cert.ReferenceIdeal.S32.Idx → EReal)
    (x12 : Cert.ReferenceIdeal.S32x32.Idx → EReal) (x13 : Cert.ReferenceIdeal.S32.Idx → EReal) (x14 : Cert.ReferenceIdeal.S32x3.Idx → EReal)
    (x15 : Cert.ReferenceIdeal.S3.Idx → EReal)
    (a0 : x0 = m ((c.tc : Thread Cert.KernelIdeal.nD Cert.KernelIdeal.τ).loc Cert.KernelIdeal.main_arg0))
    (a1 : x1 = m ((c.tc : Thread Cert.KernelIdeal.nD Cert.KernelIdeal.τ).loc Cert.KernelIdeal.main_arg1))
    (a2 : x2 = m ((c.tc : Thread Cert.KernelIdeal.nD Cert.KernelIdeal.τ).loc Cert.KernelIdeal.main_arg2))
    (a3 : x3 = m ((c.tc : Thread Cert.KernelIdeal.nD Cert.KernelIdeal.τ).loc Cert.KernelIdeal.main_arg3))
    (a10 : x10 = m ((c.tc : Thread Cert.KernelIdeal.nD Cert.KernelIdeal.τ).loc Cert.KernelIdeal.main_arg10))
    (a11 : x11 = m ((c.tc : Thread Cert.KernelIdeal.nD Cert.KernelIdeal.τ).loc Cert.KernelIdeal.main_arg11))
    (a12 : x12 = m ((c.tc : Thread Cert.KernelIdeal.nD Cert.KernelIdeal.τ).loc Cert.KernelIdeal.main_arg12))
    (a13 : x13 = m ((c.tc : Thread Cert.KernelIdeal.nD Cert.KernelIdeal.τ).loc Cert.KernelIdeal.main_arg13))
    (a14 : x14 = m ((c.tc : Thread Cert.KernelIdeal.nD Cert.KernelIdeal.τ).loc Cert.KernelIdeal.main_arg14))
    (a15 : x15 = m ((c.tc : Thread Cert.KernelIdeal.nD Cert.KernelIdeal.τ).loc Cert.KernelIdeal.main_arg15)) :
    Cert.ReferenceIdeal.Read.val_main_v54 (F := Ideal) x0 x1 x2 x3 x10 x11 x12 x13 x14 x15 = Cert.KernelIdeal.Array.G11 m c := by
  subst a0 a1 a2 a3 a10 a11 a12 a13 a14 a15
  funext i
  obtain ⟨g, q, rfl⟩ : ∃ (g : Fin 2097152) (q : Fin 3), i = ix2 g q := ⟨i 0, i 1, eq_ix2 i⟩
  exact (Cert.ReferenceIdeal.RefRow.ref_specular _ _ _ _ _ _ _ _ _ _ g q).trans (Cert.KernelIdeal.Array.G11_at m c g q).symm

end Cert.Proof.Parts

end
-- ==== Proof.lean ====
/-
  Two small networks on two million points: the fused kernel against the plain reference, on the extended reals.

  For every point the reference normalises the normal and the view direction (each divided by its floored length),
  computes a diffuse colour with a 3 → 32 → 32 → 3 network on the unit normal and a specular colour with an
  8 → 32 → 32 → 3 network on the eight features (unit normal, unit view direction, roughness, base reflectance), and
  multiplies both by the visibility gate: 1 where the inner product of the two unit vectors is positive, 0 elsewhere.

  The kernel walks the points in blocks of 2048 rows. It scales the rows by the RECIPROCAL of the floored lengths — on
  the extended reals the same as dividing, since the floor makes the denominator nonzero —, takes the gate of the inner
  product of the UNSCALED rows — the same sign as that of the unit rows once the entries are reals, which the
  precondition gives for the two direction arrays: this is the only use of finiteness —, and runs both networks as ONE
  network of 8 → 64 → 64 → 6 whose weights the host glues beforehand from the two networks' weights as diagonal blocks
  with zeros elsewhere. A product with a zero weight vanishes on every extended real and a sum over 64 positions splits
  into two sums over 32, so outputs 0–2 of the wide network are the diffuse network and outputs 3–5 the specular one.
  Changes of float format are the identity here. The 1024 blocks tile the 2097152 rows, so the kernel's two result
  arrays are the two arrays of colours, which is what the reference's two results are when read at any index.

  The three frame claims are the programs' generated runs; the idealization rewrote nothing, so `preserves` is trivial.
-/
import proofs.«107359_g74294344286346_cont_9to1c4b_587_3_alg».proof.Defs
import proofs.«107359_g74294344286346_cont_9to1c4b_587_3_alg».proof.Proof.Gen.Kernel
import proofs.«107359_g74294344286346_cont_9to1c4b_587_3_alg».proof.Proof.Gen.Kernel.Skeleton
import proofs.«107359_g74294344286346_cont_9to1c4b_587_3_alg».proof.Proof.Gen.Kernel.Launch
import proofs.«107359_g74294344286346_cont_9to1c4b_587_3_alg».proof.Proof.Gen.Kernel.Points
import proofs.«107359_g74294344286346_cont_9to1c4b_587_3_alg».proof.Proof.Gen.Kernel.Frame
import proofs.«107359_g74294344286346_cont_9to1c4b_587_3_alg».proof.Proof.Gen.KernelIdeal
import proofs.«107359_g74294344286346_cont_9to1c4b_587_3_alg».proof.Proof.Gen.KernelIdeal.Skeleton
import proofs.«107359_g74294344286346_cont_9to1c4b_587_3_alg».proof.Proof.Gen.KernelIdeal.Launch
import proofs.«107359_g74294344286346_cont_9to1c4b_587_3_alg».proof.Proof.Gen.KernelIdeal.Points
import proofs.«107359_g74294344286346_cont_9to1c4b_587_3_alg».proof.Proof.Gen.KernelIdeal.Frame
import proofs.«107359_g74294344286346_cont_9to1c4b_587_3_alg».proof.Proof.Gen.ReferenceIdeal
import proofs.«107359_g74294344286346_cont_9to1c4b_587_3_alg».proof.Proof.Gen.Pre_finite_inputs
import proofs.«107359_g74294344286346_cont_9to1c4b_587_3_alg».proof.Proof.Gen.KernelIdeal.Value
import proofs.«107359_g74294344286346_cont_9to1c4b_587_3_alg».proof.Proof.Gen.ReferenceIdeal.Run
import proofs.«107359_g74294344286346_cont_9to1c4b_587_3_alg».proof.Proof.Gen.ReferenceIdeal.Read
import proofs.«107359_g74294344286346_cont_9to1c4b_587_3_alg».proof.Proof.Final
import Idealize.ShloMosaic.Adequacy
import Idealize.ShloMosaic.Init

noncomputable section

namespace Cert.Proof

open Idealize.ShloMosaic Idealize.SL.Sem Cert.Kernel

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's run, its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both idealized programs end, from agreeing arguments, with the arrays of diffuse and specular colours. -/
theorem algebraic : Cert.algebraic_KernelIdeal_ReferenceIdeal := by
  intro m ρ m' ρ' hpre hagree
  refine ⟨fun c => Cert.KernelIdeal.Array.G10 m c, fun c => Cert.KernelIdeal.Array.G11 m c, Parts.kernel_run m ρ hpre, ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11, a12, a13, a14, a15⟩ := hagree c
  exact ⟨(h c).1.trans ((Cert.ReferenceIdeal.Read.val_main_v52_eq (F := Ideal) _ _ _ _ _ _ _ _).trans
      (Parts.ref_first m c _ _ _ _ _ _ _ _ a0 a1 a4 a5 a6 a7 a8 a9)),
    (h c).2.1.trans ((Cert.ReferenceIdeal.Read.val_main_v54_eq (F := Ideal) _ _ _ _ _ _ _ _ _ _).trans
      (Parts.ref_second m c _ _ _ _ _ _ _ _ _ _ a0 a1 a2 a3 a10 a11 a12 a13 a14 a15)),
    (h c).2.2⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
